-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S4096x256 : Shape := ⟨2, ![4096, 256]⟩
abbrev S65536x256 : Shape := ⟨2, ![65536, 256]⟩
abbrev S524288 : Shape := ⟨1, ![524288]⟩
abbrev S131072 : Shape := ⟨1, ![131072]⟩
abbrev S262144 : Shape := ⟨1, ![262144]⟩
abbrev S65536 : Shape := ⟨1, ![65536]⟩
abbrev S262144x1 : Shape := ⟨2, ![262144, 1]⟩
abbrev S256x256 : Shape := ⟨2, ![256, 256]⟩
abbrev S256 : Shape := ⟨1, ![256]⟩
abbrev S1x256 : Shape := ⟨2, ![1, 256]⟩
abbrev S256x1 : Shape := ⟨2, ![256, 1]⟩
abbrev S1 : Shape := ⟨1, ![1]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S65536x256 : S_.BroadcastsInDim S65536x256 (![] : Fin 0 → Fin S65536x256.rank)
  reducesTo_S65536x256_S_d0_1 : S65536x256.ReducesTo [0, 1] S_
  bcast_S_S262144x1 : S_.BroadcastsInDim S262144x1 (![] : Fin 0 → Fin S262144x1.rank)
  reducesTo_S262144x1_S_d0_1 : S262144x1.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part8 {F : FTy → Type} [FloatOps F] (main_v133 : IVec S_ 1) (main_v136 : IVec S1 1) : IVec S_ 1 :=
  let main_c_53 : IVec S_ 1 := constantI S_ 1 1#1
  let main_v137 : IVec S_ 1 := (fun x v => Host.reduce IntOp.andi x v reducesTo_S1_S_d0 h_S_) main_v136 main_c_53
  let main_v138 : IVec S_ 1 := andi main_v133 main_v137
  main_v138

def fn_part7 {F : FTy → Type} [FloatOps F] (main_arg35 : FVec F S256 .f32) (main_arg36 : FVec F S256x1 .f32) (main_arg37 : FVec F S1 .f32) (main_v118 : IVec S_ 1) (main_v119 : FVec F S256x256 .f32) : IVec S_ 1 :=
  let main_cst_46 : FVec F S_ .f32 := constant S_ .f32 0x7F800000#32
  let main_v120 : FVec F S256x256 .f32 := broadcastInDim S256x256 ![] bcast_S_S256x256 main_cst_46
  let main_v121 : IVec S256x256 1 := cmpf .olt main_v119 main_v120
  let main_c_47 : IVec S_ 1 := constantI S_ 1 1#1
  let main_v122 : IVec S_ 1 := (fun x v => Host.reduce IntOp.andi x v reducesTo_S256x256_S_d0_1 h_S_) main_v121 main_c_47
  let main_v123 : IVec S_ 1 := andi main_v118 main_v122
  let main_v124 : FVec F S256 .f32 := Host.absf main_arg35
  let main_cst_48 : FVec F S_ .f32 := constant S_ .f32 0x7F800000#32
  let main_v125 : FVec F S256 .f32 := broadcastInDim S256 ![] bcast_S_S256 main_cst_48
  let main_v126 : IVec S256 1 := cmpf .olt main_v124 main_v125
  let main_c_49 : IVec S_ 1 := constantI S_ 1 1#1
  let main_v127 : IVec S_ 1 := (fun x v => Host.reduce IntOp.andi x v reducesTo_S256_S_d0 h_S_) main_v126 main_c_49
  let main_v128 : IVec S_ 1 := andi main_v123 main_v127
  let main_v129 : FVec F S256x1 .f32 := Host.absf main_arg36
  let main_cst_50 : FVec F S_ .f32 := constant S_ .f32 0x7F800000#32
  let main_v130 : FVec F S256x1 .f32 := broadcastInDim S256x1 ![] bcast_S_S256x1 main_cst_50
  let main_v131 : IVec S256x1 1 := cmpf .olt main_v129 main_v130
  let main_c_51 : IVec S_ 1 := constantI S_ 1 1#1
  let main_v132 : IVec S_ 1 := (fun x v => Host.reduce IntOp.andi x v reducesTo_S256x1_S_d0_1 h_S_) main_v131 main_c_51
  let main_v133 : IVec S_ 1 := andi main_v128 main_v132
  let main_v134 : FVec F S1 .f32 := Host.absf main_arg37
  let main_cst_52 : FVec F S_ .f32 := constant S_ .f32 0x7F800000#32
  let main_v135 : FVec F S1 .f32 := broadcastInDim S1 ![] bcast_S_S1 main_cst_52
  let main_v136 : IVec S1 1 := cmpf .olt main_v134 main_v135
  fn_part8 (F := F) main_v133 main_v136

def fn_part6 {F : FTy → Type} [FloatOps F] (main_arg31 : FVec F S256 .f32) (main_arg32 : FVec F S256x256 .f32) (main_arg33 : FVec F S256 .f32) (main_arg34 : FVec F S256x256 .f32) (main_arg35 : FVec F S256 .f32) (main_arg36 : FVec F S256x1 .f32) (main_arg37 : FVec F S1 .f32) (main_v98 : IVec S_ 1) (main_v101 : IVec S256x256 1) (main_c_39 : IVec S_ 1) : IVec S_ 1 :=
  let main_v102 : IVec S_ 1 := (fun x v => Host.reduce IntOp.andi x v reducesTo_S256x256_S_d0_1 h_S_) main_v101 main_c_39
  let main_v103 : IVec S_ 1 := andi main_v98 main_v102
  let main_v104 : FVec F S256 .f32 := Host.absf main_arg31
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S256x256 .f32 := Host.absf main_arg32
  let main_cst_42 : FVec F S_ .f32 := constant S_ .f32 0x7F800000#32
  let main_v110 : FVec F S256x256 .f32 := broadcastInDim S256x256 ![] bcast_S_S256x256 main_cst_42
  let main_v111 : IVec S256x256 1 := cmpf .olt main_v109 main_v110
  let main_c_43 : IVec S_ 1 := constantI S_ 1 1#1
  let main_v112 : IVec S_ 1 := (fun x v => Host.reduce IntOp.andi x v reducesTo_S256x256_S_d0_1 h_S_) main_v111 main_c_43
  let main_v113 : IVec S_ 1 := andi main_v108 main_v112
  let main_v114 : FVec F S256 .f32 := Host.absf main_arg33
  let main_cst_44 : FVec F S_ .f32 := constant S_ .f32 0x7F800000#32
  let main_v115 : FVec F S256 .f32 := broadcastInDim S256 ![] bcast_S_S256 main_cst_44
  let main_v116 : IVec S256 1 := cmpf .olt main_v114 main_v115
  let main_c_45 : IVec S_ 1 := constantI S_ 1 1#1
  let main_v117 : IVec S_ 1 := (fun x v => Host.reduce IntOp.andi x v reducesTo_S256_S_d0 h_S_) main_v116 main_c_45
  let main_v118 : IVec S_ 1 := andi main_v113 main_v117
  let main_v119 : FVec F S256x256 .f32 := Host.absf main_arg34
  fn_part7 (F := F) main_arg35 main_arg36 main_arg37 main_v118 main_v119

def fn_part5 {F : FTy → Type} [FloatOps F] (main_arg28 : FVec F S1x256 .f32) (main_arg29 : FVec F S256 .f32) (main_arg30 : FVec F S256x256 .f32) (main_arg31 : FVec F S256 .f32) (main_arg32 : FVec F S256x256 .f32) (main_arg33 : FVec F S256 .f32) (main_arg34 : FVec F S256x256 .f32) (main_arg35 : FVec F S256 .f32) (main_arg36 : FVec F S256x1 .f32) (main_arg37 : FVec F S1 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S1x256 .f32 := Host.absf main_arg28
  let main_cst_34 : FVec F S_ .f32 := constant S_ .f32 0x7F800000#32
  let main_v90 : FVec F S1x256 .f32 := broadcastInDim S1x256 ![] bcast_S_S1x256 main_cst_34
  let main_v91 : IVec S1x256 1 := cmpf .olt main_v89 main_v90
  let main_c_35 : IVec S_ 1 := constantI S_ 1 1#1
  let main_v92 : IVec S_ 1 := (fun x v => Host.reduce IntOp.andi x v reducesTo_S1x256_S_d0_1 h_S_) main_v91 main_c_35
  let main_v93 : IVec S_ 1 := andi main_v88 main_v92
  let main_v94 : FVec F S256 .f32 := Host.absf main_arg29
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S256x256 .f32 := Host.absf main_arg30
  let main_cst_38 : FVec F S_ .f32 := constant S_ .f32 0x7F800000#32
  let main_v100 : FVec F S256x256 .f32 := broadcastInDim S256x256 ![] bcast_S_S256x256 main_cst_38
  let main_v101 : IVec S256x256 1 := cmpf .olt main_v99 main_v100
  let main_c_39 : IVec S_ 1 := constantI S_ 1 1#1
  fn_part6 (F := F) main_arg31 main_arg32 main_arg33 main_arg34 main_arg35 main_arg36 main_arg37 main_v98 main_v101 main_c_39

def fn_part4 {F : FTy → Type} [FloatOps F] (main_arg24 : FVec F S256x256 .f32) (main_arg25 : FVec F S256 .f32) (main_arg26 : FVec F S256x256 .f32) (main_arg27 : FVec F S256 .f32) (main_arg28 : FVec F S1x256 .f32) (main_arg29 : FVec F S256 .f32) (main_arg30 : FVec F S256x256 .f32) (main_arg31 : FVec F S256 .f32) (main_arg32 : FVec F S256x256 .f32) (main_arg33 : FVec F S256 .f32) (main_arg34 : FVec F S256x256 .f32) (main_arg35 : FVec F S256 .f32) (main_arg36 : FVec F S256x1 .f32) (main_arg37 : FVec F S1 .f32) (main_v63 : IVec S_ 1) (main_v67 : IVec S_ 1) : IVec S_ 1 :=
  let main_v68 : IVec S_ 1 := andi main_v63 main_v67
  let main_v69 : FVec F S256x256 .f32 := Host.absf main_arg24
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg25
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x256 .f32 := Host.absf main_arg26
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256 .f32 := Host.absf main_arg27
  let main_cst_32 : FVec F S_ .f32 := constant S_ .f32 0x7F800000#32
  fn_part5 (F := F) main_arg28 main_arg29 main_arg30 main_arg31 main_arg32 main_arg33 main_arg34 main_arg35 main_arg36 main_arg37 main_v83 main_v84 main_cst_32

def fn_part3 {F : FTy → Type} [FloatOps F] (main_arg21 : FVec F S256 .f32) (main_arg22 : FVec F S256x256 .f32) (main_arg23 : FVec F S256 .f32) (main_arg24 : FVec F S256x256 .f32) (main_arg25 : FVec F S256 .f32) (main_arg26 : FVec F S256x256 .f32) (main_arg27 : FVec F S256 .f32) (main_arg28 : FVec F S1x256 .f32) (main_arg29 : FVec F S256 .f32) (main_arg30 : FVec F S256x256 .f32) (main_arg31 : FVec F S256 .f32) (main_arg32 : FVec F S256x256 .f32) (main_arg33 : FVec F S256 .f32) (main_arg34 : FVec F S256x256 .f32) (main_arg35 : FVec F S256 .f32) (main_arg36 : FVec F S256x1 .f32) (main_arg37 : FVec F S1 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg21
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg22
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg23
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg24 main_arg25 main_arg26 main_arg27 main_arg28 main_arg29 main_arg30 main_arg31 main_arg32 main_arg33 main_arg34 main_arg35 main_arg36 main_arg37 main_v63 main_v67

def fn_part2 {F : FTy → Type} [FloatOps F] (main_arg17 : FVec F S256 .f32) (main_arg18 : FVec F S256x256 .f32) (main_arg19 : FVec F S256 .f32) (main_arg20 : FVec F S256x256 .f32) (main_arg21 : FVec F S256 .f32) (main_arg22 : FVec F S256x256 .f32) (main_arg23 : FVec F S256 .f32) (main_arg24 : FVec F S256x256 .f32) (main_arg25 : FVec F S256 .f32) (main_arg26 : FVec F S256x256 .f32) (main_arg27 : FVec F S256 .f32) (main_arg28 : FVec F S1x256 .f32) (main_arg29 : FVec F S256 .f32) (main_arg30 : FVec F S256x256 .f32) (main_arg31 : FVec F S256 .f32) (main_arg32 : FVec F S256x256 .f32) (main_arg33 : FVec F S256 .f32) (main_arg34 : FVec F S256x256 .f32) (main_arg35 : FVec F S256 .f32) (main_arg36 : FVec F S256x1 .f32) (main_arg37 : FVec F S1 .f32) (main_v33 : IVec S_ 1) : IVec S_ 1 :=
  let main_v34 : FVec F S256 .f32 := Host.absf main_arg17
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg18
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg19
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg20
  let main_cst_18 : FVec F S_ .f32 := constant S_ .f32 0x7F800000#32
  let main_v50 : FVec F S256x256 .f32 := broadcastInDim S256x256 ![] bcast_S_S256x256 main_cst_18
  fn_part3 (F := F) main_arg21 main_arg22 main_arg23 main_arg24 main_arg25 main_arg26 main_arg27 main_arg28 main_arg29 main_arg30 main_arg31 main_arg32 main_arg33 main_arg34 main_arg35 main_arg36 main_arg37 main_v48 main_v49 main_v50

def fn_part1 {F : FTy → Type} [FloatOps F] (main_arg4 : FVec F S65536x256 .f32) (main_arg15 : FVec F S262144x1 .f32) (main_arg16 : FVec F S256x256 .f32) (main_arg17 : FVec F S256 .f32) (main_arg18 : FVec F S256x256 .f32) (main_arg19 : FVec F S256 .f32) (main_arg20 : FVec F S256x256 .f32) (main_arg21 : FVec F S256 .f32) (main_arg22 : FVec F S256x256 .f32) (main_arg23 : FVec F S256 .f32) (main_arg24 : FVec F S256x256 .f32) (main_arg25 : FVec F S256 .f32) (main_arg26 : FVec F S256x256 .f32) (main_arg27 : FVec F S256 .f32) (main_arg28 : FVec F S1x256 .f32) (main_arg29 : FVec F S256 .f32) (main_arg30 : FVec F S256x256 .f32) (main_arg31 : FVec F S256 .f32) (main_arg32 : FVec F S256x256 .f32) (main_arg33 : FVec F S256 .f32) (main_arg34 : FVec F S256x256 .f32) (main_arg35 : FVec F S256 .f32) (main_arg36 : FVec F S256x1 .f32) (main_arg37 : FVec F S1 .f32) (main_v13 : IVec S_ 1) (main_v16 : IVec S65536x256 1) : IVec S_ 1 :=
  let main_c_5 : IVec S_ 1 := constantI S_ 1 1#1
  let main_v17 : IVec S_ 1 := (fun x v => Host.reduce IntOp.andi x v reducesTo_S65536x256_S_d0_1 h_S_) main_v16 main_c_5
  let main_v18 : IVec S_ 1 := andi main_v13 main_v17
  let main_v19 : FVec F S65536x256 .f32 := Host.absf main_arg4
  let main_cst_6 : FVec F S_ .f32 := constant S_ .f32 0x7F800000#32
  let main_v20 : FVec F S65536x256 .f32 := broadcastInDim S65536x256 ![] bcast_S_S65536x256 main_cst_6
  let main_v21 : IVec S65536x256 1 := cmpf .olt main_v19 main_v20
  let main_c_7 : IVec S_ 1 := constantI S_ 1 1#1
  let main_v22 : IVec S_ 1 := (fun x v => Host.reduce IntOp.andi x v reducesTo_S65536x256_S_d0_1 h_S_) main_v21 main_c_7
  let main_v23 : IVec S_ 1 := andi main_v18 main_v22
  let main_v24 : FVec F S262144x1 .f32 := Host.absf main_arg15
  let main_cst_8 : FVec F S_ .f32 := constant S_ .f32 0x7F800000#32
  let main_v25 : FVec F S262144x1 .f32 := broadcastInDim S262144x1 ![] bcast_S_S262144x1 main_cst_8
  let main_v26 : IVec S262144x1 1 := cmpf .olt main_v24 main_v25
  let main_c_9 : IVec S_ 1 := constantI S_ 1 1#1
  let main_v27 : IVec S_ 1 := (fun x v => Host.reduce IntOp.andi x v reducesTo_S262144x1_S_d0_1 h_S_) main_v26 main_c_9
  let main_v28 : IVec S_ 1 := andi main_v23 main_v27
  let main_v29 : FVec F S256x256 .f32 := Host.absf main_arg16
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_v33

def fn {F : FTy → Type} [FloatOps F] (main_arg0 : FVec F S131072x256 .f32) (main_arg1 : FVec F S131072x256 .f32) (main_arg2 : FVec F S4096x256 .f32) (main_arg3 : FVec F S65536x256 .f32) (main_arg4 : FVec F S65536x256 .f32) (main_arg5 : IVec S524288 32) (main_arg6 : IVec S524288 32) (main_arg7 : IVec S131072 32) (main_arg8 : IVec S131072 32) (main_arg9 : IVec S262144 32) (main_arg10 : IVec S262144 32) (main_arg11 : IVec S65536 32) (main_arg12 : IVec S65536 32) (main_arg13 : IVec S262144 32) (main_arg14 : IVec S262144 32) (main_arg15 : FVec F S262144x1 .f32) (main_arg16 : FVec F S256x256 .f32) (main_arg17 : FVec F S256 .f32) (main_arg18 : FVec F S256x256 .f32) (main_arg19 : FVec F S256 .f32) (main_arg20 : FVec F S256x256 .f32) (main_arg21 : FVec F S256 .f32) (main_arg22 : FVec F S256x256 .f32) (main_arg23 : FVec F S256 .f32) (main_arg24 : FVec F S256x256 .f32) (main_arg25 : FVec F S256 .f32) (main_arg26 : FVec F S256x256 .f32) (main_arg27 : FVec F S256 .f32) (main_arg28 : FVec F S1x256 .f32) (main_arg29 : FVec F S256 .f32) (main_arg30 : FVec F S256x256 .f32) (main_arg31 : FVec F S256 .f32) (main_arg32 : FVec F S256x256 .f32) (main_arg33 : FVec F S256 .f32) (main_arg34 : FVec F S256x256 .f32) (main_arg35 : FVec F S256 .f32) (main_arg36 : FVec F S256x1 .f32) (main_arg37 : FVec F S1 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S131072x256 .f32 := Host.absf main_arg1
  let main_cst_0 : FVec F S_ .f32 := constant S_ .f32 0x7F800000#32
  let main_v5 : FVec F S131072x256 .f32 := broadcastInDim S131072x256 ![] bcast_S_S131072x256 main_cst_0
  let main_v6 : IVec S131072x256 1 := cmpf .olt main_v4 main_v5
  let main_c_1 : IVec S_ 1 := constantI S_ 1 1#1
  let main_v7 : IVec S_ 1 := (fun x v => Host.reduce IntOp.andi x v reducesTo_S131072x256_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  let main_v14 : FVec F S65536x256 .f32 := Host.absf main_arg3
  let main_cst_4 : FVec F S_ .f32 := constant S_ .f32 0x7F800000#32
  let main_v15 : FVec F S65536x256 .f32 := broadcastInDim S65536x256 ![] bcast_S_S65536x256 main_cst_4
  let main_v16 : IVec S65536x256 1 := cmpf .olt main_v14 main_v15
  fn_part1 (F := F) main_arg4 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_v13 main_v16
-- ==== Kernel.lean ====
abbrev S131072x256 : Shape := ⟨2, ![131072, 256]⟩
abbrev S4096x256 : Shape := ⟨2, ![4096, 256]⟩
abbrev S65536x256 : Shape := ⟨2, ![65536, 256]⟩
abbrev S524288 : Shape := ⟨1, ![524288]⟩
abbrev S131072 : Shape := ⟨1, ![131072]⟩
abbrev S262144 : Shape := ⟨1, ![262144]⟩
abbrev S65536 : Shape := ⟨1, ![65536]⟩
abbrev S262144x1 : Shape := ⟨2, ![262144, 1]⟩
abbrev S256x256 : Shape := ⟨2, ![256, 256]⟩
abbrev S256 : Shape := ⟨1, ![256]⟩
abbrev S1x256 : Shape := ⟨2, ![1, 256]⟩
abbrev S256x1 : Shape := ⟨2, ![256, 1]⟩
abbrev S1 : Shape := ⟨1, ![1]⟩
abbrev S_ : Shape := ⟨0, ![]⟩
abbrev S524288x1 : Shape := ⟨2, ![524288, 1]⟩
abbrev S524288x256 : Shape := ⟨2, ![524288, 256]⟩
abbrev S2048x256 : Shape := ⟨2, ![2048, 256]⟩
abbrev S131072x1 : Shape := ⟨2, ![131072, 1]⟩
abbrev S262144x256 : Shape := ⟨2, ![262144, 256]⟩
abbrev S65536x1 : Shape := ⟨2, ![65536, 1]⟩
abbrev S1x1 : Shape := ⟨2, ![1, 1]⟩
abbrev S2048x1 : Shape := ⟨2, ![2048, 1]⟩
abbrev S4096x16 : Shape := ⟨2, ![4096, 16]⟩

abbrev nBuf : Space → Nat
  | .hbm => 137
  | .vmem => 50
  | .smem => 0
  | _ => 0

abbrev hbmTy0_0 (i : Nat) : BufTy := match i % 128 with
  | 0 => ⟨S131072x256, .f32⟩
  | 1 => ⟨S131072x256, .f32⟩
  | 2 => ⟨S4096x256, .f32⟩
  | 3 => ⟨S65536x256, .f32⟩
  | 4 => ⟨S65536x256, .f32⟩
  | 5 => ⟨S524288, .i32⟩
  | 6 => ⟨S524288, .i32⟩
  | 7 => ⟨S131072, .i32⟩
  | 8 => ⟨S131072, .i32⟩
  | 9 => ⟨S262144, .i32⟩
  | 10 => ⟨S262144, .i32⟩
  | 11 => ⟨S65536, .i32⟩
  | 12 => ⟨S65536, .i32⟩
  | 13 => ⟨S262144, .i32⟩
  | 14 => ⟨S262144, .i32⟩
  | 15 => ⟨S262144x1, .f32⟩
  | 16 => ⟨S256x256, .f32⟩
  | 17 => ⟨S256, .f32⟩
  | 18 => ⟨S256x256, .f32⟩
  | 19 => ⟨S256, .f32⟩
  | 20 => ⟨S256x256, .f32⟩
  | 21 => ⟨S256, .f32⟩
  | 22 => ⟨S256x256, .f32⟩
  | 23 => ⟨S256, .f32⟩
  | 24 => ⟨S256x256, .f32⟩
  | 25 => ⟨S256, .f32⟩
  | 26 => ⟨S256x256, .f32⟩
  | 27 => ⟨S256, .f32⟩
  | 28 => ⟨S1x256, .f32⟩
  | 29 => ⟨S256, .f32⟩
  | 30 => ⟨S256x256, .f32⟩
  | 31 => ⟨S256, .f32⟩
  | 32 => ⟨S256x256, .f32⟩
  | 33 => ⟨S256, .f32⟩
  | 34 => ⟨S256x256, .f32⟩
  | 35 => ⟨S256, .f32⟩
  | 36 => ⟨S256x1, .f32⟩
  | 37 => ⟨S1, .f32⟩
  | 38 => ⟨S_, .i32⟩
  | 39 => ⟨S524288, .i32⟩
  | 40 => ⟨S524288, .i1⟩
  | 41 => ⟨S_, .i32⟩
  | 42 => ⟨S524288, .i32⟩
  | 43 => ⟨S524288, .i32⟩
  | 44 => ⟨S524288, .i32⟩
  | 45 => ⟨S524288x1, .i32⟩
  | 46 => ⟨S524288x256, .f32⟩
  | 47 => ⟨S_, .f32⟩
  | 48 => ⟨S131072x256, .f32⟩
  | 49 => ⟨S524288x1, .i32⟩
  | 50 => ⟨S131072x256, .f32⟩
  | 51 => ⟨S256x256, .bf16⟩
  | 52 => ⟨S256x256, .bf16⟩
  | 53 => ⟨S1x256, .f32⟩
  | 54 => ⟨S1x256, .f32⟩
  | 55 => ⟨S131072x256, .f32⟩
  | 56 => ⟨S_, .i32⟩
  | 57 => ⟨S131072, .i32⟩
  | 58 => ⟨S131072, .i1⟩
  | 59 => ⟨S_, .i32⟩
  | 60 => ⟨S131072, .i32⟩
  | 61 => ⟨S131072, .i32⟩
  | 62 => ⟨S131072, .i32⟩
  | 63 => ⟨S131072x1, .i32⟩
  | 64 => ⟨S131072x256, .f32⟩
  | 65 => ⟨S_, .f32⟩
  | 66 => ⟨S4096x256, .f32⟩
  | 67 => ⟨S131072x1, .i32⟩
  | 68 => ⟨S4096x256, .f32⟩
  | 69 => ⟨S256x256, .bf16⟩
  | 70 => ⟨S256x256, .bf16⟩
  | 71 => ⟨S1x256, .f32⟩
  | 72 => ⟨S1x256, .f32⟩
  | 73 => ⟨S4096x256, .f32⟩
  | 74 => ⟨S_, .i32⟩
  | 75 => ⟨S262144, .i32⟩
  | 76 => ⟨S262144, .i1⟩
  | 77 => ⟨S_, .i32⟩
  | 78 => ⟨S262144, .i32⟩
  | 79 => ⟨S262144, .i32⟩
  | 80 => ⟨S262144, .i32⟩
  | 81 => ⟨S262144x1, .i32⟩
  | 82 => ⟨S262144x256, .f32⟩
  | 83 => ⟨S262144x256, .f32⟩
  | 84 => ⟨S262144x256, .f32⟩
  | 85 => ⟨S1x256, .f32⟩
  | 86 => ⟨S262144x256, .f32⟩
  | 87 => ⟨S262144x256, .f32⟩
  | 88 => ⟨S_, .f32⟩
  | 89 => ⟨S262144x256, .f32⟩
  | 90 => ⟨S262144x256, .f32⟩
  | 91 => ⟨S_, .f32⟩
  | 92 => ⟨S65536x256, .f32⟩
  | 93 => ⟨S262144x1, .i32⟩
  | 94 => ⟨S65536x256, .f32⟩
  | 95 => ⟨S256x256, .bf16⟩
  | 96 => ⟨S256x256, .bf16⟩
  | 97 => ⟨S1x256, .f32⟩
  | 98 => ⟨S1x256, .f32⟩
  | 99 => ⟨S65536x256, .f32⟩
  | 100 => ⟨S_, .i32⟩
  | 101 => ⟨S65536, .i32⟩
  | 102 => ⟨S65536, .i1⟩
  | 103 => ⟨S_, .i32⟩
  | 104 => ⟨S65536, .i32⟩
  | 105 => ⟨S65536, .i32⟩
  | 106 => ⟨S65536, .i32⟩
  | 107 => ⟨S65536x1, .i32⟩
  | 108 => ⟨S65536x256, .f32⟩
  | 109 => ⟨S_, .f32⟩
  | 110 => ⟨S65536x256, .f32⟩
  | 111 => ⟨S65536x1, .i32⟩
  | 112 => ⟨S65536x256, .f32⟩
  | 113 => ⟨S256x256, .bf16⟩
  | 114 => ⟨S256x256, .bf16⟩
  | 115 => ⟨S1x256, .f32⟩
  | 116 => ⟨S1x256, .f32⟩
  | 117 => ⟨S65536x256, .f32⟩
  | 118 => ⟨S_, .i32⟩
  | 119 => ⟨S262144, .i32⟩
  | 120 => ⟨S262144, .i1⟩
  | 121 => ⟨S_, .i32⟩
  | 122 => ⟨S262144, .i32⟩
  | 123 => ⟨S262144, .i32⟩
  | 124 => ⟨S262144, .i32⟩
  | 125 => ⟨S262144x1, .i32⟩
  | 126 => ⟨S262144x256, .f32⟩
  | 127 => ⟨S_, .f32⟩
  | _ => ⟨S131072x256, .f32⟩

abbrev hbmTy0_1 (i : Nat) : BufTy := match i % 128 with
  | 0 => ⟨S65536x256, .f32⟩
  | 1 => ⟨S262144x1, .i32⟩
  | 2 => ⟨S65536x256, .f32⟩
  | 3 => ⟨S256x256, .bf16⟩
  | 4 => ⟨S256x1, .bf16⟩
  | 5 => ⟨S1x256, .f32⟩
  | 6 => ⟨S1x1, .f32⟩
  | 7 => ⟨S65536x1, .f32⟩
  | 8 => ⟨S4096x16, .f32⟩
  | _ => ⟨S131072x256, .f32⟩

abbrev hbmTy (i : Nat) : BufTy := match i / 128 with
  | 0 => hbmTy0_0 i
  | 1 => hbmTy0_1 i
  | _ => ⟨S131072x256, .f32⟩

abbrev bufTy : (tb : Table) → Fin (tcTables nBuf tb) → BufTy
  | .hbm, ⟨i, _⟩ => hbmTy i
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S256x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S256x256, .bf16⟩
  | .local _ .vmem, ⟨15, _⟩ => ⟨S1x256, .f32⟩
  | .local _ .vmem, ⟨16, _⟩ => ⟨S256x256, .bf16⟩
  | .local _ .vmem, ⟨17, _⟩ => ⟨S1x256, .f32⟩
  | .local _ .vmem, ⟨18, _⟩ => ⟨S2048x256, .f32⟩
  | .local _ .vmem, ⟨19, _⟩ => ⟨S2048x256, .f32⟩
  | .local _ .vmem, ⟨20, _⟩ => ⟨S2048x256, .f32⟩
  | .local _ .vmem, ⟨21, _⟩ => ⟨S2048x256, .f32⟩
  | .local _ .vmem, ⟨22, _⟩ => ⟨S2048x256, .f32⟩
  | .local _ .vmem, ⟨23, _⟩ => ⟨S2048x256, .f32⟩
  | .local _ .vmem, ⟨24, _⟩ => ⟨S256x256, .bf16⟩
  | .local _ .vmem, ⟨25, _⟩ => ⟨S1x256, .f32⟩
  | .local _ .vmem, ⟨26, _⟩ => ⟨S256x256, .bf16⟩
  | .local _ .vmem, ⟨27, _⟩ => ⟨S1x256, .f32⟩
  | .local _ .vmem, ⟨28, _⟩ => ⟨S2048x256, .f32⟩
  | .local _ .vmem, ⟨29, _⟩ => ⟨S2048x256, .f32⟩
  | .local _ .vmem, ⟨30, _⟩ => ⟨S2048x256, .f32⟩
  | .local _ .vmem, ⟨31, _⟩ => ⟨S2048x256, .f32⟩
  | .local _ .vmem, ⟨32, _⟩ => ⟨S2048x256, .f32⟩
  | .local _ .vmem, ⟨33, _⟩ => ⟨S2048x256, .f32⟩
  | .local _ .vmem, ⟨34, _⟩ => ⟨S256x256, .bf16⟩
  | .local _ .vmem, ⟨35, _⟩ => ⟨S1x256, .f32⟩
  | .local _ .vmem, ⟨36, _⟩ => ⟨S256x256, .bf16⟩
  | .local _ .vmem, ⟨37, _⟩ => ⟨S1x256, .f32⟩
  | .local _ .vmem, ⟨38, _⟩ => ⟨S2048x256, .f32⟩
  | .local _ .vmem, ⟨39, _⟩ => ⟨S2048x256, .f32⟩
  | .local _ .vmem, ⟨40, _⟩ => ⟨S2048x256, .f32⟩
  | .local _ .vmem, ⟨41, _⟩ => ⟨S2048x256, .f32⟩
  | .local _ .vmem, ⟨42, _⟩ => ⟨S2048x256, .f32⟩
  | .local _ .vmem, ⟨43, _⟩ => ⟨S2048x256, .f32⟩
  | .local _ .vmem, ⟨44, _⟩ => ⟨S256x256, .bf16⟩
  | .local _ .vmem, ⟨45, _⟩ => ⟨S1x256, .f32⟩
  | .local _ .vmem, ⟨46, _⟩ => ⟨S256x1, .bf16⟩
  | .local _ .vmem, ⟨47, _⟩ => ⟨S1x1, .f32⟩
  | .local _ .vmem, ⟨48, _⟩ => ⟨S2048x1, .f32⟩
  | .local _ .vmem, ⟨49, _⟩ => ⟨S2048x1, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_c : Ref sig .tc := ⟨.hbm, 38, rfl⟩
abbrev main_v0 : Ref sig .tc := ⟨.hbm, 39, rfl⟩
abbrev main_v1 : Ref sig .tc := ⟨.hbm, 40, rfl⟩
abbrev main_c_0 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_cst : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_c_1 : Ref sig .tc := ⟨.hbm, 56, rfl⟩
abbrev main_v15 : Ref sig .tc := ⟨.hbm, 57, rfl⟩
abbrev main_v16 : Ref sig .tc := ⟨.hbm, 58, rfl⟩
abbrev main_c_2 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_cst_3 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_c_4 : Ref sig .tc := ⟨.hbm, 74, rfl⟩
abbrev main_v30 : Ref sig .tc := ⟨.hbm, 75, rfl⟩
abbrev main_v31 : Ref sig .tc := ⟨.hbm, 76, rfl⟩
abbrev main_c_5 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_call0_cst : Ref sig .tc := ⟨.hbm, 88, rfl⟩
abbrev main_call0_v0 : Ref sig .tc := ⟨.hbm, 89, rfl⟩
abbrev main_v42 : Ref sig .tc := ⟨.hbm, 90, rfl⟩
abbrev main_cst_6 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_c_7 : Ref sig .tc := ⟨.hbm, 100, rfl⟩
abbrev main_v51 : Ref sig .tc := ⟨.hbm, 101, rfl⟩
abbrev main_v52 : Ref sig .tc := ⟨.hbm, 102, rfl⟩
abbrev main_c_8 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_cst_9 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_c_10 : Ref sig .tc := ⟨.hbm, 118, rfl⟩
abbrev main_v66 : Ref sig .tc := ⟨.hbm, 119, rfl⟩
abbrev main_v67 : Ref sig .tc := ⟨.hbm, 120, rfl⟩
abbrev main_c_11 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_cst_12 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2048x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2048x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2048x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x1 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2048x1 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  bcast_S_S131072x256 : S_.BroadcastsInDim S131072x256 (![] : Fin 0 → Fin S131072x256.rank)
  bitsLt_bf16_f32 : FTy.bits .bf16 < FTy.bits .f32
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  bcast_S_S131072 : S_.BroadcastsInDim S131072 (![] : Fin 0 → Fin S131072.rank)
  bcast_S131072_S131072x1_0 : S131072.BroadcastsInDim S131072x1 (![0] : Fin 1 → Fin S131072x1.rank)
  bcast_S_S4096x256 : S_.BroadcastsInDim S4096x256 (![] : Fin 0 → Fin S4096x256.rank)
  bcast_S_S262144 : S_.BroadcastsInDim S262144 (![] : Fin 0 → Fin S262144.rank)
  bcast_S262144_S262144x1_0 : S262144.BroadcastsInDim S262144x1 (![0] : Fin 1 → Fin S262144x1.rank)
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  bcast_S_S65536x256 : S_.BroadcastsInDim S65536x256 (![] : Fin 0 → Fin S65536x256.rank)
  bcast_S_S65536 : S_.BroadcastsInDim S65536 (![] : Fin 0 → Fin S65536.rank)
  bcast_S65536_S65536x1_0 : S65536.BroadcastsInDim S65536x1 (![0] : Fin 1 → Fin S65536x1.rank)
  shapeCasts_S1_S1x1 : S1.ShapeCasts S1x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S65536x1_S4096x16 : S65536x1.ShapeCasts S4096x16
  gather_S131072x256_S524288x1_S524288x256_1_0_n_n_0_1_1256_wf : GatherDims.WF S131072x256 S524288x1 S524288x256 [1] [0] [] [0] [] 1 ![1, 256]
  scatter_S131072x256_S524288x1_S524288x256_1_0_0_1_wf : ScatterDims.WF S131072x256 S524288x1 S524288x256 [1] [0] [0] 1
  dot_S2048x256_S256x256_S2048x256_1_0_0_1_n_n_wf : DotDims.WF S2048x256 S256x256 S2048x256 [1] [0] [0] [1] [] []
  gather_S131072x256_S131072x1_S131072x256_1_0_n_n_0_1_1256_wf : GatherDims.WF S131072x256 S131072x1 S131072x256 [1] [0] [] [0] [] 1 ![1, 256]
  scatter_S4096x256_S131072x1_S131072x256_1_0_0_1_wf : ScatterDims.WF S4096x256 S131072x1 S131072x256 [1] [0] [0] 1
  gather_S131072x256_S262144x1_S262144x256_1_0_n_n_0_1_1256_wf : GatherDims.WF S131072x256 S262144x1 S262144x256 [1] [0] [] [0] [] 1 ![1, 256]
  dot_S262144x1_S1x256_S262144x256_1_0_0_1_n_n_wf : DotDims.WF S262144x1 S1x256 S262144x256 [1] [0] [0] [1] [] []
  scatter_S65536x256_S262144x1_S262144x256_1_0_0_1_wf : ScatterDims.WF S65536x256 S262144x1 S262144x256 [1] [0] [0] 1
  gather_S4096x256_S65536x1_S65536x256_1_0_n_n_0_1_1256_wf : GatherDims.WF S4096x256 S65536x1 S65536x256 [1] [0] [] [0] [] 1 ![1, 256]
  scatter_S65536x256_S65536x1_S65536x256_1_0_0_1_wf : ScatterDims.WF S65536x256 S65536x1 S65536x256 [1] [0] [0] 1
  gather_S65536x256_S262144x1_S262144x256_1_0_n_n_0_1_1256_wf : GatherDims.WF S65536x256 S262144x1 S262144x256 [1] [0] [] [0] [] 1 ![1, 256]
  dot_S2048x256_S256x1_S2048x1_1_0_0_1_n_n_wf : DotDims.WF S2048x256 S256x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .f32 = 32 ∨ (Rect.block (s := S131072x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S131072x256.size a
  hwx0_1 : ∀ i : grid0.Coords, EltTy.bits .f32 = 32 ∨ (Rect.block (s := S131072x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S131072x256.size a
  hwx0_6 : ∀ i : grid0.Coords, EltTy.bits .f32 = 32 ∨ (Rect.block (s := S131072x256) S2048x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S4096x256.size a
  hwx1_0 : ∀ i : grid1.Coords, EltTy.bits .f32 = 32 ∨ (Rect.block (s := S4096x256) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S4096x256.size a
  hwx1_1 : ∀ i : grid1.Coords, EltTy.bits .f32 = 32 ∨ (Rect.block (s := S4096x256) S2048x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x256.size a ≤ S4096x256.size a
  hwx1_6 : ∀ i : grid1.Coords, EltTy.bits .f32 = 32 ∨ (Rect.block (s := S4096x256) S2048x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S65536x256.size a
  hwx2_0 : ∀ i : grid2.Coords, EltTy.bits .f32 = 32 ∨ (Rect.block (s := S65536x256) S2048x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S65536x256.size a
  hwx2_1 : ∀ i : grid2.Coords, EltTy.bits .f32 = 32 ∨ (Rect.block (s := S65536x256) S2048x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .bf16 = 32 ∨ (Rect.block (s := S256x256) S256x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .bf16 = 32 ∨ (Rect.block (s := S256x256) S256x256.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2048x256.size a ≤ S65536x256.size a
  hwx2_6 : ∀ i : grid2.Coords, EltTy.bits .f32 = 32 ∨ (Rect.block (s := S65536x256) S2048x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x256.size a ≤ S65536x256.size a
  hwx3_0 : ∀ i : grid3.Coords, EltTy.bits .f32 = 32 ∨ (Rect.block (s := S65536x256) S2048x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x256.size a ≤ S65536x256.size a
  hwx3_1 : ∀ i : grid3.Coords, EltTy.bits .f32 = 32 ∨ (Rect.block (s := S65536x256) S2048x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .bf16 = 32 ∨ (Rect.block (s := S256x256) S256x256.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .bf16 = 32 ∨ (Rect.block (s := S256x256) S256x256.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2048x256.size a ≤ S65536x256.size a
  hwx3_6 : ∀ i : grid3.Coords, EltTy.bits .f32 = 32 ∨ (Rect.block (s := S65536x256) S2048x256.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x256.size a ≤ S65536x256.size a
  hwx4_0 : ∀ i : grid4.Coords, EltTy.bits .f32 = 32 ∨ (Rect.block (s := S65536x256) S2048x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x256.size a ≤ S65536x256.size a
  hwx4_1 : ∀ i : grid4.Coords, EltTy.bits .f32 = 32 ∨ (Rect.block (s := S65536x256) S2048x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .bf16 = 32 ∨ (Rect.block (s := S256x256) S256x256.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x1.size a ≤ S256x1.size a
  hwx4_4 : ∀ i : grid4.Coords, EltTy.bits .bf16 = 32 ∨ (Rect.block (s := S256x1) S256x1.size (cc4_transform_4 i) (hinb4_4 i)).WholeWords (EltTy.packing .bf16)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x1.size a ≤ S1x1.size a
  hwx4_5 : ∀ i : grid4.Coords, EltTy.bits .f32 = 32 ∨ (Rect.block (s := S1x1) S1x1.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2048x1.size a ≤ S65536x1.size a
  hwx4_6 : ∀ i : grid4.Coords, EltTy.bits .f32 = 32 ∨ (Rect.block (s := S65536x1) S2048x1.size (cc4_transform_6 i) (hinb4_6 i)).WholeWords (EltTy.packing .f32)

variable [Facts₀]

def gather_S131072x256_S524288x1_S524288x256_1_0_n_n_0_1_1256 : GatherDims S131072x256 S524288x1 S524288x256 where
  offsetDims := [1]
  collapsedSliceDims := [0]
  operandBatchingDims := []
  startIndicesBatchingDims := []
  startIndexMap := [0]
  indexVectorDim := 1
  sliceSizes := ![1, 256]
  wf := gather_S131072x256_S524288x1_S524288x256_1_0_n_n_0_1_1256_wf
def scatter_S131072x256_S524288x1_S524288x256_1_0_0_1 : ScatterDims S131072x256 S524288x1 S524288x256 where
  updateWindowDims := [1]
  insertedWindowDims := [0]
  scatterDimsToOperandDims := [0]
  indexVectorDim := 1
  wf := scatter_S131072x256_S524288x1_S524288x256_1_0_0_1_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def gather_S131072x256_S131072x1_S131072x256_1_0_n_n_0_1_1256 : GatherDims S131072x256 S131072x1 S131072x256 where
  offsetDims := [1]
  collapsedSliceDims := [0]
  operandBatchingDims := []
  startIndicesBatchingDims := []
  startIndexMap := [0]
  indexVectorDim := 1
  sliceSizes := ![1, 256]
  wf := gather_S131072x256_S131072x1_S131072x256_1_0_n_n_0_1_1256_wf
def scatter_S4096x256_S131072x1_S131072x256_1_0_0_1 : ScatterDims S4096x256 S131072x1 S131072x256 where
  updateWindowDims := [1]
  insertedWindowDims := [0]
  scatterDimsToOperandDims := [0]
  indexVectorDim := 1
  wf := scatter_S4096x256_S131072x1_S131072x256_1_0_0_1_wf
def gather_S131072x256_S262144x1_S262144x256_1_0_n_n_0_1_1256 : GatherDims S131072x256 S262144x1 S262144x256 where
  offsetDims := [1]
  collapsedSliceDims := [0]
  operandBatchingDims := []
  startIndicesBatchingDims := []
  startIndexMap := [0]
  indexVectorDim := 1
  sliceSizes := ![1, 256]
  wf := gather_S131072x256_S262144x1_S262144x256_1_0_n_n_0_1_1256_wf
def dot_S262144x1_S1x256_S262144x256_1_0_0_1_n_n : DotDims S262144x1 S1x256 S262144x256 where
  lhsContracting := [1]
  rhsContracting := [0]
  lhsNonContracting := [0]
  rhsNonContracting := [1]
  lhsBatch := []
  rhsBatch := []
  wf := dot_S262144x1_S1x256_S262144x256_1_0_0_1_n_n_wf
def scatter_S65536x256_S262144x1_S262144x256_1_0_0_1 : ScatterDims S65536x256 S262144x1 S262144x256 where
  updateWindowDims := [1]
  insertedWindowDims := [0]
  scatterDimsToOperandDims := [0]
  indexVectorDim := 1
  wf := scatter_S65536x256_S262144x1_S262144x256_1_0_0_1_wf
def gather_S4096x256_S65536x1_S65536x256_1_0_n_n_0_1_1256 : GatherDims S4096x256 S65536x1 S65536x256 where
  offsetDims := [1]
  collapsedSliceDims := [0]
  operandBatchingDims := []
  startIndicesBatchingDims := []
  startIndexMap := [0]
  indexVectorDim := 1
  sliceSizes := ![1, 256]
  wf := gather_S4096x256_S65536x1_S65536x256_1_0_n_n_0_1_1256_wf
def scatter_S65536x256_S65536x1_S65536x256_1_0_0_1 : ScatterDims S65536x256 S65536x1 S65536x256 where
  updateWindowDims := [1]
  insertedWindowDims := [0]
  scatterDimsToOperandDims := [0]
  indexVectorDim := 1
  wf := scatter_S65536x256_S65536x1_S65536x256_1_0_0_1_wf
def gather_S65536x256_S262144x1_S262144x256_1_0_n_n_0_1_1256 : GatherDims S65536x256 S262144x1 S262144x256 where
  offsetDims := [1]
  collapsedSliceDims := [0]
  operandBatchingDims := []
  startIndicesBatchingDims := []
  startIndexMap := [0]
  indexVectorDim := 1
  sliceSizes := ![1, 256]
  wf := gather_S65536x256_S262144x1_S262144x256_1_0_n_n_0_1_1256_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf

abbrev win0_0 : Pipeline.Window sig grid0 :=
  Pipeline.Window.ofSpec (Memref.whole main_arg1) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S2048x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg2) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S2048x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg3) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v50) S2048x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v50) S2048x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S2048x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v61) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v64) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v65) S2048x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_arg4) S2048x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v75) S2048x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v76) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v78) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v77) S256x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v79) S1x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v80) S2048x1.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S131072x256 : Shape := ⟨2, ![131072, 256]⟩
abbrev S4096x256 : Shape := ⟨2, ![4096, 256]⟩
abbrev S65536x256 : Shape := ⟨2, ![65536, 256]⟩
abbrev S524288 : Shape := ⟨1, ![524288]⟩
abbrev S131072 : Shape := ⟨1, ![131072]⟩
abbrev S262144 : Shape := ⟨1, ![262144]⟩
abbrev S65536 : Shape := ⟨1, ![65536]⟩
abbrev S262144x1 : Shape := ⟨2, ![262144, 1]⟩
abbrev S256x256 : Shape := ⟨2, ![256, 256]⟩
abbrev S256 : Shape := ⟨1, ![256]⟩
abbrev S1x256 : Shape := ⟨2, ![1, 256]⟩
abbrev S256x1 : Shape := ⟨2, ![256, 1]⟩
abbrev S1 : Shape := ⟨1, ![1]⟩
abbrev S_ : Shape := ⟨0, ![]⟩
abbrev S524288x1 : Shape := ⟨2, ![524288, 1]⟩
abbrev S524288x256 : Shape := ⟨2, ![524288, 256]⟩
abbrev S131072x1 : Shape := ⟨2, ![131072, 1]⟩
abbrev S262144x256 : Shape := ⟨2, ![262144, 256]⟩
abbrev S65536x1 : Shape := ⟨2, ![65536, 1]⟩
abbrev S1x1 : Shape := ⟨2, ![1, 1]⟩
abbrev S4096x16 : Shape := ⟨2, ![4096, 16]⟩

abbrev nBuf : Space → Nat
  | .hbm => 172
  | .vmem => 0
  | .smem => 0
  | _ => 0

abbrev hbmTy0_0 (i : Nat) : BufTy := match i % 128 with
  | 0 => ⟨S131072x256, .f32⟩
  | 1 => ⟨S131072x256, .f32⟩
  | 2 => ⟨S4096x256, .f32⟩
  | 3 => ⟨S65536x256, .f32⟩
  | 4 => ⟨S65536x256, .f32⟩
  | 5 => ⟨S524288, .i32⟩
  | 6 => ⟨S524288, .i32⟩
  | 7 => ⟨S131072, .i32⟩
  | 8 => ⟨S131072, .i32⟩
  | 9 => ⟨S262144, .i32⟩
  | 10 => ⟨S262144, .i32⟩
  | 11 => ⟨S65536, .i32⟩
  | 12 => ⟨S65536, .i32⟩
  | 13 => ⟨S262144, .i32⟩
  | 14 => ⟨S262144, .i32⟩
  | 15 => ⟨S262144x1, .f32⟩
  | 16 => ⟨S256x256, .f32⟩
  | 17 => ⟨S256, .f32⟩
  | 18 => ⟨S256x256, .f32⟩
  | 19 => ⟨S256, .f32⟩
  | 20 => ⟨S256x256, .f32⟩
  | 21 => ⟨S256, .f32⟩
  | 22 => ⟨S256x256, .f32⟩
  | 23 => ⟨S256, .f32⟩
  | 24 => ⟨S256x256, .f32⟩
  | 25 => ⟨S256, .f32⟩
  | 26 => ⟨S256x256, .f32⟩
  | 27 => ⟨S256, .f32⟩
  | 28 => ⟨S1x256, .f32⟩
  | 29 => ⟨S256, .f32⟩
  | 30 => ⟨S256x256, .f32⟩
  | 31 => ⟨S256, .f32⟩
  | 32 => ⟨S256x256, .f32⟩
  | 33 => ⟨S256, .f32⟩
  | 34 => ⟨S256x256, .f32⟩
  | 35 => ⟨S256, .f32⟩
  | 36 => ⟨S256x1, .f32⟩
  | 37 => ⟨S1, .f32⟩
  | 38 => ⟨S_, .i32⟩
  | 39 => ⟨S524288, .i32⟩
  | 40 => ⟨S524288, .i1⟩
  | 41 => ⟨S_, .i32⟩
  | 42 => ⟨S524288, .i32⟩
  | 43 => ⟨S524288, .i32⟩
  | 44 => ⟨S524288, .i32⟩
  | 45 => ⟨S524288x1, .i32⟩
  | 46 => ⟨S524288x256, .f32⟩
  | 47 => ⟨S_, .f32⟩
  | 48 => ⟨S131072x256, .f32⟩
  | 49 => ⟨S524288x1, .i32⟩
  | 50 => ⟨S131072x256, .f32⟩
  | 51 => ⟨S131072x256, .f32⟩
  | 52 => ⟨S131072x256, .f32⟩
  | 53 => ⟨S1x256, .f32⟩
  | 54 => ⟨S131072x256, .f32⟩
  | 55 => ⟨S131072x256, .f32⟩
  | 56 => ⟨S_, .f32⟩
  | 57 => ⟨S131072x256, .f32⟩
  | 58 => ⟨S131072x256, .f32⟩
  | 59 => ⟨S131072x256, .f32⟩
  | 60 => ⟨S1x256, .f32⟩
  | 61 => ⟨S131072x256, .f32⟩
  | 62 => ⟨S131072x256, .f32⟩
  | 63 => ⟨S_, .i32⟩
  | 64 => ⟨S131072, .i32⟩
  | 65 => ⟨S131072, .i1⟩
  | 66 => ⟨S_, .i32⟩
  | 67 => ⟨S131072, .i32⟩
  | 68 => ⟨S131072, .i32⟩
  | 69 => ⟨S131072, .i32⟩
  | 70 => ⟨S131072x1, .i32⟩
  | 71 => ⟨S131072x256, .f32⟩
  | 72 => ⟨S_, .f32⟩
  | 73 => ⟨S4096x256, .f32⟩
  | 74 => ⟨S131072x1, .i32⟩
  | 75 => ⟨S4096x256, .f32⟩
  | 76 => ⟨S4096x256, .f32⟩
  | 77 => ⟨S4096x256, .f32⟩
  | 78 => ⟨S1x256, .f32⟩
  | 79 => ⟨S4096x256, .f32⟩
  | 80 => ⟨S4096x256, .f32⟩
  | 81 => ⟨S_, .f32⟩
  | 82 => ⟨S4096x256, .f32⟩
  | 83 => ⟨S4096x256, .f32⟩
  | 84 => ⟨S4096x256, .f32⟩
  | 85 => ⟨S1x256, .f32⟩
  | 86 => ⟨S4096x256, .f32⟩
  | 87 => ⟨S4096x256, .f32⟩
  | 88 => ⟨S_, .i32⟩
  | 89 => ⟨S262144, .i32⟩
  | 90 => ⟨S262144, .i1⟩
  | 91 => ⟨S_, .i32⟩
  | 92 => ⟨S262144, .i32⟩
  | 93 => ⟨S262144, .i32⟩
  | 94 => ⟨S262144, .i32⟩
  | 95 => ⟨S262144x1, .i32⟩
  | 96 => ⟨S262144x256, .f32⟩
  | 97 => ⟨S262144x256, .f32⟩
  | 98 => ⟨S262144x256, .f32⟩
  | 99 => ⟨S1x256, .f32⟩
  | 100 => ⟨S262144x256, .f32⟩
  | 101 => ⟨S262144x256, .f32⟩
  | 102 => ⟨S_, .f32⟩
  | 103 => ⟨S262144x256, .f32⟩
  | 104 => ⟨S262144x256, .f32⟩
  | 105 => ⟨S_, .f32⟩
  | 106 => ⟨S65536x256, .f32⟩
  | 107 => ⟨S262144x1, .i32⟩
  | 108 => ⟨S65536x256, .f32⟩
  | 109 => ⟨S65536x256, .f32⟩
  | 110 => ⟨S65536x256, .f32⟩
  | 111 => ⟨S1x256, .f32⟩
  | 112 => ⟨S65536x256, .f32⟩
  | 113 => ⟨S65536x256, .f32⟩
  | 114 => ⟨S_, .f32⟩
  | 115 => ⟨S65536x256, .f32⟩
  | 116 => ⟨S65536x256, .f32⟩
  | 117 => ⟨S65536x256, .f32⟩
  | 118 => ⟨S1x256, .f32⟩
  | 119 => ⟨S65536x256, .f32⟩
  | 120 => ⟨S65536x256, .f32⟩
  | 121 => ⟨S_, .i32⟩
  | 122 => ⟨S65536, .i32⟩
  | 123 => ⟨S65536, .i1⟩
  | 124 => ⟨S_, .i32⟩
  | 125 => ⟨S65536, .i32⟩
  | 126 => ⟨S65536, .i32⟩
  | 127 => ⟨S65536, .i32⟩
  | _ => ⟨S131072x256, .f32⟩

abbrev hbmTy0_1 (i : Nat) : BufTy := match i % 128 with
  | 0 => ⟨S65536x1, .i32⟩
  | 1 => ⟨S65536x256, .f32⟩
  | 2 => ⟨S_, .f32⟩
  | 3 => ⟨S65536x256, .f32⟩
  | 4 => ⟨S65536x1, .i32⟩
  | 5 => ⟨S65536x256, .f32⟩
  | 6 => ⟨S65536x256, .f32⟩
  | 7 => ⟨S65536x256, .f32⟩
  | 8 => ⟨S1x256, .f32⟩
  | 9 => ⟨S65536x256, .f32⟩
  | 10 => ⟨S65536x256, .f32⟩
  | 11 => ⟨S_, .f32⟩
  | 12 => ⟨S65536x256, .f32⟩
  | 13 => ⟨S65536x256, .f32⟩
  | 14 => ⟨S65536x256, .f32⟩
  | 15 => ⟨S1x256, .f32⟩
  | 16 => ⟨S65536x256, .f32⟩
  | 17 => ⟨S65536x256, .f32⟩
  | 18 => ⟨S_, .i32⟩
  | 19 => ⟨S262144, .i32⟩
  | 20 => ⟨S262144, .i1⟩
  | 21 => ⟨S_, .i32⟩
  | 22 => ⟨S262144, .i32⟩
  | 23 => ⟨S262144, .i32⟩
  | 24 => ⟨S262144, .i32⟩
  | 25 => ⟨S262144x1, .i32⟩
  | 26 => ⟨S262144x256, .f32⟩
  | 27 => ⟨S_, .f32⟩
  | 28 => ⟨S65536x256, .f32⟩
  | 29 => ⟨S262144x1, .i32⟩
  | 30 => ⟨S65536x256, .f32⟩
  | 31 => ⟨S65536x256, .f32⟩
  | 32 => ⟨S65536x256, .f32⟩
  | 33 => ⟨S1x256, .f32⟩
  | 34 => ⟨S65536x256, .f32⟩
  | 35 => ⟨S65536x256, .f32⟩
  | 36 => ⟨S_, .f32⟩
  | 37 => ⟨S65536x256, .f32⟩
  | 38 => ⟨S65536x256, .f32⟩
  | 39 => ⟨S65536x1, .f32⟩
  | 40 => ⟨S1x1, .f32⟩
  | 41 => ⟨S65536x1, .f32⟩
  | 42 => ⟨S65536x1, .f32⟩
  | 43 => ⟨S4096x16, .f32⟩
  | _ => ⟨S131072x256, .f32⟩

abbrev hbmTy (i : Nat) : BufTy := match i / 128 with
  | 0 => hbmTy0_0 i
  | 1 => hbmTy0_1 i
  | _ => ⟨S131072x256, .f32⟩

abbrev bufTy : (tb : Table) → Fin (tcTables nBuf tb) → BufTy
  | .hbm, ⟨i, _⟩ => hbmTy i
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_c : Ref sig .tc := ⟨.hbm, 38, rfl⟩
abbrev main_v0 : Ref sig .tc := ⟨.hbm, 39, rfl⟩
abbrev main_v1 : Ref sig .tc := ⟨.hbm, 40, rfl⟩
abbrev main_c_0 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_cst : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_call0_cst : Ref sig .tc := ⟨.hbm, 56, rfl⟩
abbrev main_call0_v0 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_c_1 : Ref sig .tc := ⟨.hbm, 63, rfl⟩
abbrev main_v20 : Ref sig .tc := ⟨.hbm, 64, rfl⟩
abbrev main_v21 : Ref sig .tc := ⟨.hbm, 65, rfl⟩
abbrev main_c_2 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_cst_3 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_call1_cst : Ref sig .tc := ⟨.hbm, 81, rfl⟩
abbrev main_call1_v0 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_c_4 : Ref sig .tc := ⟨.hbm, 88, rfl⟩
abbrev main_v40 : Ref sig .tc := ⟨.hbm, 89, rfl⟩
abbrev main_v41 : Ref sig .tc := ⟨.hbm, 90, rfl⟩
abbrev main_c_5 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_call2_cst : Ref sig .tc := ⟨.hbm, 102, rfl⟩
abbrev main_call2_v0 : Ref sig .tc := ⟨.hbm, 103, rfl⟩
abbrev main_v52 : Ref sig .tc := ⟨.hbm, 104, rfl⟩
abbrev main_cst_6 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_call3_cst : Ref sig .tc := ⟨.hbm, 114, rfl⟩
abbrev main_call3_v0 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_c_7 : Ref sig .tc := ⟨.hbm, 121, rfl⟩
abbrev main_v66 : Ref sig .tc := ⟨.hbm, 122, rfl⟩
abbrev main_v67 : Ref sig .tc := ⟨.hbm, 123, rfl⟩
abbrev main_c_8 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_cst_9 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_call4_cst : Ref sig .tc := ⟨.hbm, 139, rfl⟩
abbrev main_call4_v0 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_c_10 : Ref sig .tc := ⟨.hbm, 146, rfl⟩
abbrev main_v86 : Ref sig .tc := ⟨.hbm, 147, rfl⟩
abbrev main_v87 : Ref sig .tc := ⟨.hbm, 148, rfl⟩
abbrev main_c_11 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_cst_12 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_call5_cst : Ref sig .tc := ⟨.hbm, 164, rfl⟩
abbrev main_call5_v0 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  bcast_S_S131072x256 : S_.BroadcastsInDim S131072x256 (![] : Fin 0 → Fin S131072x256.rank)
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S_S131072 : S_.BroadcastsInDim S131072 (![] : Fin 0 → Fin S131072.rank)
  bcast_S131072_S131072x1_0 : S131072.BroadcastsInDim S131072x1 (![0] : Fin 1 → Fin S131072x1.rank)
  bcast_S_S4096x256 : S_.BroadcastsInDim S4096x256 (![] : Fin 0 → Fin S4096x256.rank)
  bcast_S1x256_S4096x256_0_1 : S1x256.BroadcastsInDim S4096x256 (![0, 1] : Fin 2 → Fin S4096x256.rank)
  bcast_S_S262144 : S_.BroadcastsInDim S262144 (![] : Fin 0 → Fin S262144.rank)
  bcast_S262144_S262144x1_0 : S262144.BroadcastsInDim S262144x1 (![0] : Fin 1 → Fin S262144x1.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  bcast_S_S65536x256 : S_.BroadcastsInDim S65536x256 (![] : Fin 0 → Fin S65536x256.rank)
  bcast_S1x256_S65536x256_0_1 : S1x256.BroadcastsInDim S65536x256 (![0, 1] : Fin 2 → Fin S65536x256.rank)
  bcast_S_S65536 : S_.BroadcastsInDim S65536 (![] : Fin 0 → Fin S65536.rank)
  bcast_S65536_S65536x1_0 : S65536.BroadcastsInDim S65536x1 (![0] : Fin 1 → Fin S65536x1.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  shapeCasts_S65536x1_S4096x16 : S65536x1.ShapeCasts S4096x16
  gather_S131072x256_S524288x1_S524288x256_1_0_n_n_0_1_1256_wf : GatherDims.WF S131072x256 S524288x1 S524288x256 [1] [0] [] [0] [] 1 ![1, 256]
  scatter_S131072x256_S524288x1_S524288x256_1_0_0_1_wf : ScatterDims.WF S131072x256 S524288x1 S524288x256 [1] [0] [0] 1
  dot_S131072x256_S256x256_S131072x256_1_0_0_1_n_n_wf : DotDims.WF S131072x256 S256x256 S131072x256 [1] [0] [0] [1] [] []
  gather_S131072x256_S131072x1_S131072x256_1_0_n_n_0_1_1256_wf : GatherDims.WF S131072x256 S131072x1 S131072x256 [1] [0] [] [0] [] 1 ![1, 256]
  scatter_S4096x256_S131072x1_S131072x256_1_0_0_1_wf : ScatterDims.WF S4096x256 S131072x1 S131072x256 [1] [0] [0] 1
  dot_S4096x256_S256x256_S4096x256_1_0_0_1_n_n_wf : DotDims.WF S4096x256 S256x256 S4096x256 [1] [0] [0] [1] [] []
  gather_S131072x256_S262144x1_S262144x256_1_0_n_n_0_1_1256_wf : GatherDims.WF S131072x256 S262144x1 S262144x256 [1] [0] [] [0] [] 1 ![1, 256]
  dot_S262144x1_S1x256_S262144x256_1_0_0_1_n_n_wf : DotDims.WF S262144x1 S1x256 S262144x256 [1] [0] [0] [1] [] []
  scatter_S65536x256_S262144x1_S262144x256_1_0_0_1_wf : ScatterDims.WF S65536x256 S262144x1 S262144x256 [1] [0] [0] 1
  dot_S65536x256_S256x256_S65536x256_1_0_0_1_n_n_wf : DotDims.WF S65536x256 S256x256 S65536x256 [1] [0] [0] [1] [] []
  gather_S4096x256_S65536x1_S65536x256_1_0_n_n_0_1_1256_wf : GatherDims.WF S4096x256 S65536x1 S65536x256 [1] [0] [] [0] [] 1 ![1, 256]
  scatter_S65536x256_S65536x1_S65536x256_1_0_0_1_wf : ScatterDims.WF S65536x256 S65536x1 S65536x256 [1] [0] [0] 1
  gather_S65536x256_S262144x1_S262144x256_1_0_n_n_0_1_1256_wf : GatherDims.WF S65536x256 S262144x1 S262144x256 [1] [0] [] [0] [] 1 ![1, 256]
  dot_S65536x256_S256x1_S65536x1_1_0_0_1_n_n_wf : DotDims.WF S65536x256 S256x1 S65536x1 [1] [0] [0] [1] [] []

variable [Facts₀]

def gather_S131072x256_S524288x1_S524288x256_1_0_n_n_0_1_1256 : GatherDims S131072x256 S524288x1 S524288x256 where
  offsetDims := [1]
  collapsedSliceDims := [0]
  operandBatchingDims := []
  startIndicesBatchingDims := []
  startIndexMap := [0]
  indexVectorDim := 1
  sliceSizes := ![1, 256]
  wf := gather_S131072x256_S524288x1_S524288x256_1_0_n_n_0_1_1256_wf
def scatter_S131072x256_S524288x1_S524288x256_1_0_0_1 : ScatterDims S131072x256 S524288x1 S524288x256 where
  updateWindowDims := [1]
  insertedWindowDims := [0]
  scatterDimsToOperandDims := [0]
  indexVectorDim := 1
  wf := scatter_S131072x256_S524288x1_S524288x256_1_0_0_1_wf
def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf
def gather_S131072x256_S131072x1_S131072x256_1_0_n_n_0_1_1256 : GatherDims S131072x256 S131072x1 S131072x256 where
  offsetDims := [1]
  collapsedSliceDims := [0]
  operandBatchingDims := []
  startIndicesBatchingDims := []
  startIndexMap := [0]
  indexVectorDim := 1
  sliceSizes := ![1, 256]
  wf := gather_S131072x256_S131072x1_S131072x256_1_0_n_n_0_1_1256_wf
def scatter_S4096x256_S131072x1_S131072x256_1_0_0_1 : ScatterDims S4096x256 S131072x1 S131072x256 where
  updateWindowDims := [1]
  insertedWindowDims := [0]
  scatterDimsToOperandDims := [0]
  indexVectorDim := 1
  wf := scatter_S4096x256_S131072x1_S131072x256_1_0_0_1_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def gather_S131072x256_S262144x1_S262144x256_1_0_n_n_0_1_1256 : GatherDims S131072x256 S262144x1 S262144x256 where
  offsetDims := [1]
  collapsedSliceDims := [0]
  operandBatchingDims := []
  startIndicesBatchingDims := []
  startIndexMap := [0]
  indexVectorDim := 1
  sliceSizes := ![1, 256]
  wf := gather_S131072x256_S262144x1_S262144x256_1_0_n_n_0_1_1256_wf
def dot_S262144x1_S1x256_S262144x256_1_0_0_1_n_n : DotDims S262144x1 S1x256 S262144x256 where
  lhsContracting := [1]
  rhsContracting := [0]
  lhsNonContracting := [0]
  rhsNonContracting := [1]
  lhsBatch := []
  rhsBatch := []
  wf := dot_S262144x1_S1x256_S262144x256_1_0_0_1_n_n_wf
def scatter_S65536x256_S262144x1_S262144x256_1_0_0_1 : ScatterDims S65536x256 S262144x1 S262144x256 where
  updateWindowDims := [1]
  insertedWindowDims := [0]
  scatterDimsToOperandDims := [0]
  indexVectorDim := 1
  wf := scatter_S65536x256_S262144x1_S262144x256_1_0_0_1_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def gather_S4096x256_S65536x1_S65536x256_1_0_n_n_0_1_1256 : GatherDims S4096x256 S65536x1 S65536x256 where
  offsetDims := [1]
  collapsedSliceDims := [0]
  operandBatchingDims := []
  startIndicesBatchingDims := []
  startIndexMap := [0]
  indexVectorDim := 1
  sliceSizes := ![1, 256]
  wf := gather_S4096x256_S65536x1_S65536x256_1_0_n_n_0_1_1256_wf
def scatter_S65536x256_S65536x1_S65536x256_1_0_0_1 : ScatterDims S65536x256 S65536x1 S65536x256 where
  updateWindowDims := [1]
  insertedWindowDims := [0]
  scatterDimsToOperandDims := [0]
  indexVectorDim := 1
  wf := scatter_S65536x256_S65536x1_S65536x256_1_0_0_1_wf
def gather_S65536x256_S262144x1_S262144x256_1_0_n_n_0_1_1256 : GatherDims S65536x256 S262144x1 S262144x256 where
  offsetDims := [1]
  collapsedSliceDims := [0]
  operandBatchingDims := []
  startIndicesBatchingDims := []
  startIndexMap := [0]
  indexVectorDim := 1
  sliceSizes := ![1, 256]
  wf := gather_S65536x256_S262144x1_S262144x256_1_0_n_n_0_1_1256_wf
def dot_S65536x256_S256x1_S65536x1_1_0_0_1_n_n : DotDims S65536x256 S256x1 S65536x1 where
  lhsContracting := [1]
  rhsContracting := [0]
  lhsNonContracting := [0]
  rhsNonContracting := [1]
  lhsBatch := []
  rhsBatch := []
  wf := dot_S65536x256_S256x1_S65536x1_1_0_0_1_n_n_wf

class Facts : Prop extends Facts₀ where

variable [Facts]
-- ==== Proof.RunAll.lean ====
/-
  The kernel program's run with the whole final memory read.

  The program is five kernel regions among stretches of host operations. Its run ends, on every core, with every
  unscoped buffer at the contents the fold of the segments leaves there: a host stretch applies its operations to the
  contents before it, a region leaves its arrays at what its write-backs fold to and every other buffer as it found it.
  The program's frame theorem keeps only the argument arrays from that reading; here the same run is stated with every
  buffer kept, so that the result buffer can be read as well.

  What the regions theorem asks of a program, and why this one meets it:
    * the program is the run of its segments, and no pipeline is entered twice (five distinct regions);
    * at launch the cores owe nothing, so the launch deals exactly the staging cells' resources;
    * each segment starts from the thread state the one before it ends in: every unscoped buffer held whole at the
      fold's contents so far, the generator register at some state, nothing owed;
    * the first such state is what the launch memory gives; the last, held beside a final state's interpretation,
      says that state's memory has each unscoped buffer at the fold's final contents.
-/
import proofs.«140192_j82068235092286_2_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's thread state before the first segment: its unscoped buffers held whole at the launch contents, its
    generator register at some state, nothing owed. -/
abbrev start (c : Dev nD) : sProp 𝕄 :=
  iprop(StableHlo.held (c : Thread nD τ) (Pipeline.ucRefs τ sig) (W0 m ρ c) ∗ R c)

/-- What is read of a final memory on core `c`: each unscoped buffer at the fold's final contents. -/
abbrev finalMem (c : Dev nD) (s : MemSt nD τ sig (Elt F)) : Prop :=
  ∀ b ∈ Pipeline.ucRefs τ sig, s.mem (((c : Thread nD τ)).1, b) = W13 m ρ c b

/-- The last segment's end state regrouped: the buffers and the generator register on one side, the empty debt on the
    other. -/
theorem last_state (c : Dev nD) :
    iprop(StableHlo.held (c : Thread nD τ) (Pipeline.ucRefs τ sig) (W13 m ρ c) ∗ R (F := F) c)
      ⊢ iprop(Tₙ m ρ c ∗ ∃ W, owes (c : Thread nD τ) (0 : CellTallies nD τ sig Unit) W) := by
  iintro ⟨Hbufs, Hreg, Hdebt⟩
  isplitr [Hdebt]
  · isplitl [Hbufs]
    · iexact Hbufs
    · iexact Hreg
  · iexact Hdebt

/-- The buffers held at the fold's final contents, beside the interpretation of a final state, say that the state's
    memory holds those contents. -/
theorem read_final (c : Dev nD) (s' : Phys nD τ sig (Elt F)) :
    iprop(Tₙ m ρ c ∗ SI s') ⊢ |={Set.univ}=> iprop(⌜finalMem m ρ c s'.mem⌝ ∗ SI s') := by
  iintro ⟨⟨Hbufs, -⟩, Hstate⟩
  unfold StableHlo.held
  imodintro
  iapply (pointsTo_read_all (Pipeline.ucRefs τ sig) (fun b => (((c : Thread nD τ)).1, b)) (W13 m ρ c) s')
  isplitl [Hbufs] <;> iassumption

-- the regions theorem's implicit arguments are found by unifying its conclusion with this one, which takes unfolding
-- plain definitions in a metavariable's type
set_option backward.isDefEq.respectTransparency.types false in
/-- Every weakly fair execution of the program terminates, nothing faulting, and in every final state each unscoped
    buffer of each core holds what the fold of the segments leaves there. -/
theorem run_all : θ_run defs (onTc (τ := τ) (main (F := F))) ⟨m, fun _ => 0, ρ⟩
    (fun r => ∀ c : Dev nD, finalMem m ρ c r.2) :=
  Pipeline.θ_run_regions_kit (pcfgs (F := F)) adm (pdats m ρ) () cellOf_inj emb₁ defs₀ 𝒱₀ L lv m ρ main (segs m ρ)
    -- the program is its segments' run
    (fun c Q => by rw [main_run m ρ c])
    -- the five regions are five different pipelines
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    -- the launch element is the pipelines' own, and no core needs anything else
    (hu₀ := by
      iintro Hlaunch
      imodintro
      isplitl [Hlaunch]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hlaunch
      · iapply (show (BI.emp : sProp 𝕄) ⊢ bigSep Finset.univ (fun _ : Dev nD => (BI.emp : sProp 𝕄)) from by
          rw [BI.bigSep_emp_const])
        iempintro)
    (T₀ := start m ρ) (Tₙ := Tₙ m ρ)
    -- each of the thirteen segments starts where the one before it ends; the last ends in `last_state`
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
        dsimp only [Pipeline.Seg.post, hseg, Pipeline.HostSeg.ofOps]
        exact last_state m ρ c⟩)
    -- the launch memory gives every core its first thread state
    (hinit := by
      refine Pipeline.initEach L lv fun c => ?_
      rw [show unscopedBufs c (fun b => m ((c : Thread nD τ).loc b))
            = StableHlo.held (c : Thread nD τ) (Pipeline.ucRefs τ sig) (W0 m ρ c)
          from Pipeline.unscopedBufs_held c (W0 m ρ c)]
      iintro ⟨⟨Hbufs, -, Hdebt, -, Hreg, -⟩, -⟩
      imodintro
      isplitl [Hbufs]
      · iexact Hbufs
      isplitl [Hreg]
      · iexists _; iexact Hreg
      · iexists ∅; iexact Hdebt)
    (QY := finalMem m ρ)
    (hfin := read_final m ρ)
    (hQ := fun s h c => h c)

end Cert.KernelIdeal.RunAll

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibDotNN.lean ====
/-
  A reusable lemma: a matrix product computed by the host's `dot_general`, read at an entry.

  A `dot_general` of an [M, K] operand by a [K, N] operand — contracting axis 1 of the left with axis 0 of the right, no
  batch axes — read over the extended reals at the output entry (p, q), is the inner product of row p of the left
  operand with column q of the right one, whatever the precision and the summation schedule:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx
import proofs.«140192_j82068235092286_2_alg».proof.Proof.LibMatmulNN

noncomputable section

namespace Cert.DotNN

open Idealize.ShloMosaic Idealize.ShloMosaic.ValueIdx

variable {M K N : Nat} {φ₁ φ₂ : FTy}

/-- A host matrix product at entry (p, q): the inner product of row p with column q. -/
theorem dotGeneral_apply (D : DotDims ⟨2, ![M, K]⟩ ⟨2, ![K, N]⟩ ⟨2, ![M, N]⟩) (hD : D = DotDims.plain M K N)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  rw [Cert.MatmulNN.lhsIdx_plain, Cert.MatmulNN.rhsIdx_plain]

end Cert.DotNN

end
-- ==== Proof.LibRowBias.lean ====
import Idealize.ShloMosaic.Lib.Pipeline.Value
import Idealize.ShloMosaic.Lib.ValueIdx
import Idealize.ShloMosaic.PureOps.Ideal.Laws

/-!
  A bias row added to every row of a matrix, read at an entry.

  A [1, b] row broadcast to [a, b] — by the host's `broadcast_in_dim` over axes (0, 1), or by a kernel body's
  `vector.broadcast` — has at entry (p, q) the row's entry q.  So over the extended reals

      (X + row)[p, q] = X[p, q] + row[q]      and      max(X + row, 0)[p, q] = max(X[p, q] + row[q], 0),

  whichever of the two spellings of the broadcast and of the zero (a scalar constant broadcast to [a, b], or a scalar
  splat) the program uses.  Generic in the extents a and b.
-/

noncomputable section

namespace Cert.RowBias

open Idealize.ShloMosaic Idealize.ShloMosaic.ValueIdx

variable {α : Type} {a b : Nat}

/-- A [1, b] row broadcast over axes (0, 1) to [a, b], at (p, q): the row's entry q. -/
theorem rowInDim_apply (B : (⟨2, ![1, b]⟩ : Shape).Idx → α)
    (hb : (⟨2, ![1, b]⟩ : Shape).BroadcastsInDim ⟨2, ![a, b]⟩ ![0, 1]) (p : Fin a) (q : Fin b) :
    broadcastInDim ⟨2, ![a, b]⟩ ![0, 1] hb B (ix2 p q) = B (ix2 (0 : Fin 1) q) := by
  refine broadcastInDim_apply _ _ _ _ (ix2 (0 : Fin 1) q) (fun d => ?_)
  match d with
  | ⟨0, _⟩ => rfl
  | ⟨1, _⟩ =>
    show q.val = if b = 1 then 0 else q.val
    split_ifs with h1
    · have := q.isLt; omega
    · rfl

/-- A [1, b] row broadcast by a kernel body to [a, b], at (p, q): the row's entry q. -/
theorem rowTo_apply (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 (0 : Fin 1) q) := by
  refine broadcastTo_apply x h (ix2 p q) (ix2 (0 : Fin 1) q) (fun d => ?_)
  match d with
  | ⟨0, _⟩ => rfl
  | ⟨1, _⟩ =>
    show q.val = if b = 1 then 0 else q.val
    split_ifs with h1
    · have := q.isLt; omega
    · rfl

/-- A scalar broadcast to [a, b] by the host, at any entry: the scalar. -/
theorem scalarInDim_apply (z : (⟨0, ![]⟩ : Shape).Idx → α)
    (hz : (⟨0, ![]⟩ : Shape).BroadcastsInDim ⟨2, ![a, b]⟩ ![]) (j : (⟨2, ![a, b]⟩ : Shape).Idx) :
    broadcastInDim ⟨2, ![a, b]⟩ ![] hz z j = z ix0 :=
  broadcastInDim_apply _ _ _ _ ix0 (fun d => d.elim0)

/-- The host's `max(X + row, 0)` at (p, q). -/
theorem hostBiasRelu_apply (X : FVec Ideal ⟨2, ![a, b]⟩ .f32) (B : FVec Ideal ⟨2, ![1, b]⟩ .f32)
    (hb : (⟨2, ![1, b]⟩ : Shape).BroadcastsInDim ⟨2, ![a, b]⟩ ![0, 1])
    (hz : (⟨0, ![]⟩ : Shape).BroadcastsInDim ⟨2, ![a, b]⟩ ![]) (p : Fin a) (q : Fin b) :
    maximumf (addf X (broadcastInDim ⟨2, ![a, b]⟩ ![0, 1] hb B))
        (broadcastInDim ⟨2, ![a, b]⟩ ![] hz (constant (F := Ideal) ⟨0, ![]⟩ .f32 0x00000000#32)) (ix2 p q)
      = max (X (ix2 p q) + B (ix2 (0 : Fin 1) q)) (Ideal.ofBits .f32 0x00000000#32) := by
  show max (X (ix2 p q) + broadcastInDim ⟨2, ![a, b]⟩ ![0, 1] hb B (ix2 p q))
      (broadcastInDim ⟨2, ![a, b]⟩ ![] hz (constant (F := Ideal) ⟨0, ![]⟩ .f32 0x00000000#32) (ix2 p q)) = _
  rw [rowInDim_apply, scalarInDim_apply]
  rfl

/-- A kernel body's `max(x + row, 0)` at (p, q): the row broadcast by `vector.broadcast`, the zero a scalar splat. -/
theorem bodyBiasRelu_apply (x : FVec Ideal ⟨2, ![a, b]⟩ .f32) (r : FVec Ideal ⟨2, ![1, b]⟩ .f32)
    (h : (⟨2, ![1, b]⟩ : Shape).Broadcasts ⟨2, ![a, b]⟩) (p : Fin a) (q : Fin b) :
    maximumf (addf x (broadcastTo ⟨2, ![a, b]⟩ r h))
        (broadcast ⟨2, ![a, b]⟩ (Scalar.ofBits (F := Ideal) .f32 0x00000000#32)) (ix2 p q)
      = max (x (ix2 p q) + r (ix2 (0 : Fin 1) q)) (Ideal.ofBits .f32 0x00000000#32) := by
  show max (x (ix2 p q) + broadcastTo ⟨2, ![a, b]⟩ r h (ix2 p q)) _ = _
  rw [rowTo_apply]
  rfl

/-- The host's `Y + row` at (p, q). -/
theorem hostBias_apply (Y : FVec Ideal ⟨2, ![a, b]⟩ .f32) (B : FVec Ideal ⟨2, ![1, b]⟩ .f32)
    (hb : (⟨2, ![1, b]⟩ : Shape).BroadcastsInDim ⟨2, ![a, b]⟩ ![0, 1]) (p : Fin a) (q : Fin b) :
    addf Y (broadcastInDim ⟨2, ![a, b]⟩ ![0, 1] hb B) (ix2 p q) = Y (ix2 p q) + B (ix2 (0 : Fin 1) q) := by
  show Y (ix2 p q) + broadcastInDim ⟨2, ![a, b]⟩ ![0, 1] hb B (ix2 p q) = _
  rw [rowInDim_apply]

/-- A kernel body's `y + row` at (p, q). -/
theorem bodyBias_apply (y : FVec Ideal ⟨2, ![a, b]⟩ .f32) (r : FVec Ideal ⟨2, ![1, b]⟩ .f32)
    (h : (⟨2, ![1, b]⟩ : Shape).Broadcasts ⟨2, ![a, b]⟩) (p : Fin a) (q : Fin b) :
    addf y (broadcastTo ⟨2, ![a, b]⟩ r h) (ix2 p q) = y (ix2 p q) + r (ix2 (0 : Fin 1) q) := by
  show y (ix2 p q) + broadcastTo ⟨2, ![a, b]⟩ r h (ix2 p q) = _
  rw [rowTo_apply]

end Cert.RowBias

end
-- ==== Proof.MlpSpec.lean ====
/-
  The two-layer perceptron of one message-passing stage, read at an entry.

  For a block of n rows, a row count d of the second layer's output, inputs X and A (n × 256), weights W1 (256 × 256),
  W2 (256 × d) and biases b1 (256), b2 (d), the stage computes, over the extended reals,

      mlp[p, q] = Σ_k max( Σ_j (X[p, j] + A[p, j]) · W1[j, k] + b1[k], 0 ) · W2[k, q] + b2[q].

  Two spellings of this one function are read here at an entry (p, q):
    * the host's: two dot_general products, each bias a vector broadcast first to a [1, ·] row and then along the rows,
      the rectifier a maximum with the broadcast zero;
    * a kernel body's (once its shape casts between equal shapes are dropped): two matrix products on the matrix unit
      into the zero splat, the operands' changes of float format (the identity on extended reals), each bias a [1, ·]
      row broadcast along the rows, the rectifier a maximum with the zero splat.
  Both are the sum above, term for term; no law of arithmetic is used, so nothing is asked of the inputs.
-/
import Idealize.ShloMosaic.PureOps.Ideal.Laws
import Idealize.ShloMosaic.Lib.ValueIdx
import Idealize.ShloMosaic.Lib.Pipeline.Value
import proofs.«140192_j82068235092286_2_alg».proof.Proof.LibMatmulNN
import proofs.«140192_j82068235092286_2_alg».proof.Proof.LibDotNN
import proofs.«140192_j82068235092286_2_alg».proof.Proof.LibRowBias

noncomputable section

namespace Cert.Mlp

open Idealize.ShloMosaic Idealize.ShloMosaic.ValueIdx

/-- The perceptron at the entry (p, q), as a function of its operands' entries. -/
def mlpAt {n d : Nat} (X A : Fin n → Fin 256 → EReal) (W1 : Fin 256 → Fin 256 → EReal) (b1 : Fin 256 → EReal)
    (W2 : Fin 256 → Fin d → EReal) (b2 : Fin d → EReal) (p : Fin n) (q : Fin d) : EReal :=
  (∑ k : Fin 256, max ((∑ j : Fin 256, (X p j + A p j) * W1 j k) + b1 k) (Ideal.ofBits .f32 0x00000000#32) * W2 k q) + b2 q

/-- The perceptron at an entry depends only on row p of the row operands, on the first layer's weights and biases, on
    column q of the second layer's weights and on entry q of its bias. -/
theorem mlpAt_congr {n n' d : Nat} {X A : Fin n → Fin 256 → EReal} {X' A' : Fin n' → Fin 256 → EReal}
    {W1 W1' : Fin 256 → Fin 256 → EReal} {b1 b1' : Fin 256 → EReal} {W2 W2' : Fin 256 → Fin d → EReal}
    {b2 b2' : Fin d → EReal} {p : Fin n} {p' : Fin n'} {q : Fin d}
    (hX : ∀ j, X p j = X' p' j) (hA : ∀ j, A p j = A' p' j) (hW1 : ∀ j k, W1 j k = W1' j k) (hb1 : ∀ k, b1 k = b1' k)
    (hW2 : ∀ k, W2 k q = W2' k q) (hb2 : b2 q = b2' q) :
    mlpAt X A W1 b1 W2 b2 p q = mlpAt X' A' W1' b1' W2' b2' p' q := by
  unfold mlpAt
  simp only [hX, hA, hW1, hb1, hW2, hb2]

/-- A vector of b entries broadcast to a [1, b] row, at (0, q): the vector's entry q. -/
theorem vecRow_apply {α : Type} {b : Nat} (v : (⟨1, ![b]⟩ : Shape).Idx → α)
    (h : (⟨1, ![b]⟩ : Shape).BroadcastsInDim ⟨2, ![1, b]⟩ ![1]) (q : Fin b) :
    broadcastInDim ⟨2, ![1, b]⟩ ![1] h v (ix2 (0 : Fin 1) q) = v (ix1 q) := by
  refine broadcastInDim_apply _ _ _ _ (ix1 q) (fun d => ?_)
  match d with
  | ⟨0, _⟩ =>
    show q.val = if b = 1 then 0 else q.val
    split_ifs with h1
    · have := q.isLt; omega
    · rfl

/-- A vector of b entries reshaped to a [1, b] row, at (0, q): the vector's entry q. -/
theorem rowCast_apply {α : Type} {b : Nat} (v : (⟨1, ![b]⟩ : Shape).Idx → α)
    (h : (⟨1, ![b]⟩ : Shape).ShapeCasts ⟨2, ![1, b]⟩) (q : Fin b) :
    shapeCast ⟨2, ![1, b]⟩ v h (ix2 (0 : Fin 1) q) = v (ix1 q) := by
  refine shapeCast_apply v h (ix2 (0 : Fin 1) q) (ix1 q) ?_
  rewrite [Shape.rowMajor_val_one, Shape.rowMajor_val_two]
  show q.val = 0 * b + q.val
  omega

/-- The host's spelling of the perceptron, at (p, q). -/
theorem host_apply {n d : Nat}
    (D1 : DotDims ⟨2, ![n, 256]⟩ ⟨2, ![256, 256]⟩ ⟨2, ![n, 256]⟩) (hD1 : D1 = DotDims.plain n 256 256)
    (D2 : DotDims ⟨2, ![n, 256]⟩ ⟨2, ![256, d]⟩ ⟨2, ![n, d]⟩) (hD2 : D2 = DotDims.plain n 256 d)
    (X A : FVec Ideal ⟨2, ![n, 256]⟩ .f32) (W1 : FVec Ideal ⟨2, ![256, 256]⟩ .f32) (B1 : FVec Ideal ⟨1, ![256]⟩ .f32)
    (W2 : FVec Ideal ⟨2, ![256, d]⟩ .f32) (B2 : FVec Ideal ⟨1, ![d]⟩ .f32)
    (h1 : (⟨1, ![256]⟩ : Shape).BroadcastsInDim ⟨2, ![1, 256]⟩ ![1])
    (h1' : (⟨2, ![1, 256]⟩ : Shape).BroadcastsInDim ⟨2, ![n, 256]⟩ ![0, 1])
    (hz : (⟨0, ![]⟩ : Shape).BroadcastsInDim ⟨2, ![n, 256]⟩ ![])
    (h2 : (⟨1, ![d]⟩ : Shape).BroadcastsInDim ⟨2, ![1, d]⟩ ![1])
    (h2' : (⟨2, ![1, d]⟩ : Shape).BroadcastsInDim ⟨2, ![n, d]⟩ ![0, 1])
    (p : Fin n) (q : Fin d) :
    addf (Host.dotGeneral D2 none
            (maximumf (addf (Host.dotGeneral D1 none (addf X A) W1)
                (broadcastInDim ⟨2, ![n, 256]⟩ ![0, 1] h1' (broadcastInDim ⟨2, ![1, 256]⟩ ![1] h1 B1)))
              (broadcastInDim ⟨2, ![n, 256]⟩ ![] hz (constant (F := Ideal) ⟨0, ![]⟩ .f32 0x00000000#32)))
            W2)
        (broadcastInDim ⟨2, ![n, d]⟩ ![0, 1] h2' (broadcastInDim ⟨2, ![1, d]⟩ ![1] h2 B2)) (ix2 p q)
      = mlpAt (fun p j => X (ix2 p j)) (fun p j => A (ix2 p j)) (fun j k => W1 (ix2 j k)) (fun k => B1 (ix1 k))
          (fun k q => W2 (ix2 k q)) (fun q => B2 (ix1 q)) p q := by
  unfold mlpAt
  simp only [Host.dotGeneral]
  rw [Cert.RowBias.hostBias_apply, Cert.DotNN.dotGeneral_apply D2 hD2, vecRow_apply]
  refine congrArg (· + B2 (ix1 q)) (Finset.sum_congr rfl fun k _ => ?_)
  rw [Cert.RowBias.hostBiasRelu_apply, Cert.DotNN.dotGeneral_apply D1 hD1, vecRow_apply]
  rfl

/-- A kernel body's spelling of the perceptron on a block of a rows, at (p, q), its identity shape casts removed. -/
theorem body_apply {a d : Nat}
    (D1 : DotDims ⟨2, ![a, 256]⟩ ⟨2, ![256, 256]⟩ ⟨2, ![a, 256]⟩) (hD1 : D1 = DotDims.plain a 256 256)
    (D2 : DotDims ⟨2, ![a, 256]⟩ ⟨2, ![256, d]⟩ ⟨2, ![a, d]⟩) (hD2 : D2 = DotDims.plain a 256 d)
    (x0 x1 : FVec Ideal ⟨2, ![a, 256]⟩ .f32) (w1 : FVec Ideal ⟨2, ![256, 256]⟩ .bf16) (r1 : FVec Ideal ⟨2, ![1, 256]⟩ .f32)
    (w2 : FVec Ideal ⟨2, ![256, d]⟩ .bf16) (r2 : FVec Ideal ⟨2, ![1, d]⟩ .f32)
    (hb1 : (⟨2, ![1, 256]⟩ : Shape).Broadcasts ⟨2, ![a, 256]⟩) (hb2 : (⟨2, ![1, d]⟩ : Shape).Broadcasts ⟨2, ![a, d]⟩)
    (hlt : FTy.bf16.bits < FTy.f32.bits) (p : Fin a) (q : Fin d) :
    addf (matmul D2 none
            (truncf .bf16 (maximumf (addf (matmul D1 none (truncf .bf16 (addf x0 x1) hlt) w1
                    (constant (F := Ideal) ⟨2, ![a, 256]⟩ .f32 0x00000000#32))
                  (broadcastTo ⟨2, ![a, 256]⟩ r1 hb1))
                (broadcast ⟨2, ![a, 256]⟩ (Scalar.ofBits (F := Ideal) .f32 0x00000000#32))) hlt)
            w2 (constant (F := Ideal) ⟨2, ![a, d]⟩ .f32 0x00000000#32))
        (broadcastTo ⟨2, ![a, d]⟩ r2 hb2) (ix2 p q)
      = mlpAt (fun p j => x0 (ix2 p j)) (fun p j => x1 (ix2 p j)) (fun j k => w1 (ix2 j k)) (fun k => r1 (ix2 (0 : Fin 1) k))
          (fun k q => w2 (ix2 k q)) (fun q => r2 (ix2 (0 : Fin 1) q)) p q := by
  unfold mlpAt
  rw [Cert.RowBias.bodyBias_apply]
  refine congrArg (· + r2 (ix2 (0 : Fin 1) q)) ?_
  refine (Cert.MatmulNN.matmul_zero_apply D2 hD2 none _ _ p q).trans ?_
  refine Finset.sum_congr rfl fun k _ => ?_
  refine congrArg (· * w2 (ix2 k q)) ?_
  refine (Cert.RowBias.bodyBiasRelu_apply _ r1 hb1 p k).trans ?_
  refine congrArg (fun z => max (z + r1 (ix2 (0 : Fin 1) k)) (Ideal.ofBits .f32 0x00000000#32)) ?_
  exact Cert.MatmulNN.matmul_zero_apply D1 hD1 none _ _ p k

end Cert.Mlp

end
-- ==== Proof.Region4.lean ====
/-
  Region 4 of the kernel program: what its output array holds when the region ends.

  The region runs the perceptron body once per block of 2048 rows: point t of its grid of 32 points loads rows
  2048·t … 2048·t + 2047 of the two row operands, the whole of the two weight matrices and of the two bias rows, and
  writes back block t of the output. An entry (p, q) of the block the body leaves is the perceptron of the loaded
  blocks at (p, q), which reads row 2048·t + p of the row operands; the 32 blocks tile the 65536 rows. So the output
  array ends, entry by entry, at the perceptron of the region's whole input arrays.
-/
import proofs.«140192_j82068235092286_2_alg».proof.Proof.Gen.KernelIdeal.Frame
import proofs.«140192_j82068235092286_2_alg».proof.Proof.MlpSpec

set_option maxRecDepth 16384

noncomputable section

namespace Cert.KernelIdeal.Region4

open Cert.KernelIdeal Cert.KernelIdeal.Gen Cert.Mlp
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry of the block is the perceptron of the loaded blocks at that entry. -/
theorem pay_at (x0 x1 : Vec Ideal S2048x256 .f32) (x2 : Vec Ideal S256x256 .bf16) (x3 : Vec Ideal S1x256 .f32)
    (x4 : Vec Ideal S256x1 .bf16) (x5 : Vec Ideal S1x1 .f32) (p : Fin 2048) (q : Fin 1) :
    k4_pay1 x0 x1 x2 x3 x4 x5 (ix2 p q)
      = mlpAt (fun p j => x0 (ix2 p j)) (fun p j => x1 (ix2 p j)) (fun j k => x2 (ix2 j k)) (fun k => x3 (ix2 (0 : Fin 1) k))
          (fun k q => x4 (ix2 k q)) (fun q => x5 (ix2 (0 : Fin 1) q)) p q := by
  unfold k4_pay1
  simp only [shapeCast_self]
  exact Cert.Mlp.body_apply _ rfl _ rfl x0 x1 x2 x3 x4 x5 _ _ _ p q

/-- The printed index maps over the grid: the row windows and the output move with the point, the weights and the
    bias rows stay at block (0, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 ∧ t.val < 32 :=
  (by decide +kernel : ∀ t : Fin grid4.N, _)

/-- Row p of point t's block is row 2048·t + p of the array. -/
def rowOf (t : Fin cfg4.N) (p : Fin 2048) : Fin 65536 :=
  ⟨t.val * 2048 + p.val, by have h := (idx_facts t).2.2.2.2.2.2.2.2.2.2.2.2.2.2; have := p.isLt; omega⟩

/-- The output array as one function of the region's input arrays as it finds them. -/
def G (c : Dev nD) : S65536x1.Idx → EReal := fun i =>
  mlpAt (fun p j => V c main_arg4 (ix2 p j)) (fun p j => V c main_v75 (ix2 p j)) (fun j k => V c main_v76 (ix2 j k))
    (fun k => V c main_v78 (ix2 (0 : Fin 1) k)) (fun k q => V c main_v77 (ix2 k q)) (fun q => V c main_v79 (ix2 (0 : Fin 1) q))
    (n := 65536) (d := 1) (i 0) (i 1)

/-! ## The blocks the body loads, read off the arrays -/

theorem read_x (c : Dev nD) (t : Fin cfg4.N) (p : Fin 2048) (j : Fin 256) :
    iblk4 V c 0 t (ix2 p j) = V c main_arg4 (ix2 (rowOf t p) j) := by
  show V c main_arg4 (((cfg4.win 0).blk t).view.emb (ix2 p j)) = _
  refine congrArg (V c main_arg4) (funext fun a => Fin.ext ?_)
  obtain ⟨e0, e1, -⟩ := idx_facts t
  match a with
  | ⟨0, _⟩ => show win4_0.index t (0 : Fin 2) * 2048 + 1 * p.val = t.val * 2048 + p.val; omega
  | ⟨1, _⟩ => show win4_0.index t (1 : Fin 2) * 256 + 1 * j.val = j.val; omega

theorem read_a (c : Dev nD) (t : Fin cfg4.N) (p : Fin 2048) (j : Fin 256) :
    iblk4 V c 1 t (ix2 p j) = V c main_v75 (ix2 (rowOf t p) j) := by
  show V c main_v75 (((cfg4.win 1).blk t).view.emb (ix2 p j)) = _
  refine congrArg (V c main_v75) (funext fun a => Fin.ext ?_)
  obtain ⟨-, -, e0, e1, -⟩ := idx_facts t
  match a with
  | ⟨0, _⟩ => show win4_1.index t (0 : Fin 2) * 2048 + 1 * p.val = t.val * 2048 + p.val; omega
  | ⟨1, _⟩ => show win4_1.index t (1 : Fin 2) * 256 + 1 * j.val = j.val; omega

theorem read_w1 (c : Dev nD) (t : Fin cfg4.N) (j k : Fin 256) :
    iblk4 V c 2 t (ix2 j k) = V c main_v76 (ix2 j k) := by
  show V c main_v76 (((cfg4.win 2).blk t).view.emb (ix2 j k)) = _
  refine congrArg (V c main_v76) (funext fun a => Fin.ext ?_)
  obtain ⟨-, -, -, -, e0, e1, -⟩ := idx_facts t
  match a with
  | ⟨0, _⟩ => show win4_2.index t (0 : Fin 2) * 256 + 1 * j.val = j.val; omega
  | ⟨1, _⟩ => show win4_2.index t (1 : Fin 2) * 256 + 1 * k.val = k.val; omega

theorem read_b1 (c : Dev nD) (t : Fin cfg4.N) (k : Fin 256) :
    iblk4 V c 3 t (ix2 (0 : Fin 1) k) = V c main_v78 (ix2 (0 : Fin 1) k) := by
  show V c main_v78 (((cfg4.win 3).blk t).view.emb (ix2 (0 : Fin 1) k)) = _
  refine congrArg (V c main_v78) (funext fun a => Fin.ext ?_)
  obtain ⟨-, -, -, -, -, -, e0, e1, -⟩ := idx_facts t
  match a with
  | ⟨0, _⟩ => show win4_3.index t (0 : Fin 2) * 1 + 1 * 0 = 0; omega
  | ⟨1, _⟩ => show win4_3.index t (1 : Fin 2) * 256 + 1 * k.val = k.val; omega

theorem read_w2 (c : Dev nD) (t : Fin cfg4.N) (k : Fin 256) (q : Fin 1) :
    iblk4 V c 4 t (ix2 k q) = V c main_v77 (ix2 k q) := by
  show V c main_v77 (((cfg4.win 4).blk t).view.emb (ix2 k q)) = _
  refine congrArg (V c main_v77) (funext fun a => Fin.ext ?_)
  obtain ⟨-, -, -, -, -, -, -, -, e0, e1, -⟩ := idx_facts t
  match a with
  | ⟨0, _⟩ => show win4_4.index t (0 : Fin 2) * 256 + 1 * k.val = k.val; omega
  | ⟨1, _⟩ => show win4_4.index t (1 : Fin 2) * 1 + 1 * q.val = q.val; omega

theorem read_b2 (c : Dev nD) (t : Fin cfg4.N) (q : Fin 1) :
    iblk4 V c 5 t (ix2 (0 : Fin 1) q) = V c main_v79 (ix2 (0 : Fin 1) q) := by
  show V c main_v79 (((cfg4.win 5).blk t).view.emb (ix2 (0 : Fin 1) q)) = _
  refine congrArg (V c main_v79) (funext fun a => Fin.ext ?_)
  obtain ⟨-, -, -, -, -, -, -, -, -, -, e0, e1, -⟩ := idx_facts t
  match a with
  | ⟨0, _⟩ => show win4_5.index t (0 : Fin 2) * 1 + 1 * 0 = 0; omega
  | ⟨1, _⟩ => show win4_5.index t (1 : Fin 2) * 1 + 1 * q.val = q.val; omega

/-- Entry (p, q) of the output's block at point t is entry (2048·t + p, q) of the array. -/
theorem emb_out (t : Fin cfg4.N) (p : Fin 2048) (q : Fin 1) :
    ((cfg4.win 6).blk t).view.emb (ix2 p q) = ix2 (rowOf t p) q := by
  funext a; apply Fin.ext
  obtain ⟨-, -, -, -, -, -, -, -, -, -, -, -, e0, e1, -⟩ := idx_facts t
  match a with
  | ⟨0, _⟩ => show win4_6.index t (0 : Fin 2) * 2048 + 1 * p.val = t.val * 2048 + p.val; omega
  | ⟨1, _⟩ => show win4_6.index t (1 : Fin 2) * 1 + 1 * q.val = q.val; omega

/-! ## What a point writes back, the cover, the array -/

/-- What point t writes back is block t of `G`. -/
theorem flushed_eq (c : Dev nD) (t : Fin cfg4.N) :
    (dat4 V c).flushed 6 t = ((cfg4.win 6).blk t).view.read (Elt Ideal) (G V c) := by
  show (cfg4.win 6).cut (grid4.coords t) ((dat4 V c).after 6 t) = _
  rw [after4_6]
  unfold out4_6
  rw [View.canon_unit_zero hz]
  simp only [View.ld_unit_zero (S := S2048x256) hz, View.ld_unit_zero (S := S256x256) hz, View.ld_unit_zero (S := S1x256) hz, View.ld_unit_zero (S := S256x1) hz, View.ld_unit_zero (S := S1x1) hz]
  funext y
  obtain ⟨p, q, rfl⟩ : ∃ (p : Fin 2048) (q : Fin 1), y = ix2 p q := ⟨y 0, y 1, eq_ix2 y⟩
  refine (pay_at (iblk4 V c 0 t) (iblk4 V c 1 t) (iblk4 V c 2 t) (iblk4 V c 3 t) (iblk4 V c 4 t) (iblk4 V c 5 t) p q).trans ?_
  show _ = G V c (((cfg4.win 6).blk t).view.emb (ix2 p q))
  rw [emb_out t p q]
  unfold G
  exact mlpAt_congr (fun j => read_x V c t p j) (fun j => read_a V c t p j) (fun j k => read_w1 V c t j k)
    (fun k => read_b1 V c t k) (fun k => read_w2 V c t k q) (read_b2 V c t q)

/-- An index of the array is in point t's block iff each coordinate is in the block's range on its axis. -/
theorem mem_blk (t : Fin cfg4.N) (i : S65536x1.Idx) :
    i ∈ ((cfg4.win 6).blk t).view.set ↔ ∀ a : Fin 2, win4_6.index t a * S2048x1.size a ≤ (i a).val ∧ (i a).val < win4_6.index t a * S2048x1.size a + S2048x1.size a := by
  show i ∈ ((View.whole main_v80).slice (win4_6.rect t)).set ↔ _
  rw [View.set_slice_whole, Rect.mem_set_unit]
  exact Iff.rfl

/-- Every block of rows is some point's. -/
theorem idx_onto : ∀ b : Fin 32, ∃ t : Fin cfg4.N, win4_6.index t (0 : Fin 2) = b.val ∧ win4_6.index t (1 : Fin 2) = 0 :=
  (by decide +kernel : ∀ b : Fin 32, ∃ t : Fin grid4.N, win4_6.index t (0 : Fin 2) = b.val ∧ win4_6.index t (1 : Fin 2) = 0)

/-- The blocks tile the array: row r is in block r / 2048. -/
theorem cover (i : S65536x1.Idx) : ∃ t : Fin cfg4.N, (cfg4.win 6).flush t = true ∧ i ∈ ((cfg4.win 6).blk t).view.set := by
  have hi0 : (i 0).val < 65536 := (i 0).isLt
  have hi1 : (i 1).val < 1 := (i 1).isLt
  obtain ⟨t, q0, q1⟩ := idx_onto ⟨(i 0).val / 2048, by omega⟩
  have q0' : win4_6.index t (0 : Fin 2) = (i 0).val / 2048 := q0
  refine ⟨t, flush4_6 t, ?_⟩
  rw [mem_blk]
  intro a
  match a with
  | ⟨0, _⟩ => show win4_6.index t (0 : Fin 2) * 2048 ≤ (i 0).val ∧ (i 0).val < win4_6.index t (0 : Fin 2) * 2048 + 2048; omega
  | ⟨1, _⟩ => show win4_6.index t (1 : Fin 2) * 1 ≤ (i 1).val ∧ (i 1).val < win4_6.index t (1 : Fin 2) * 1 + 1; omega

/-- The output array when the region ends: the perceptron of the region's input arrays, entry by entry. -/
theorem final (c : Dev nD) : (dat4 V c).arrAt 6 cfg4.N = G V c :=
  (dat4 V c).arrAt_eq_of_cover 6 (G V c) (fun t _ => flushed_eq V c t) (cover)

end Cert.KernelIdeal.Region4

end
-- ==== Proof.Hops.lean ====
/-
  Buffers a segment does not write.

  The kernel program's memory at each segment boundary is a fold: a host stretch applies its operations to the contents
  before it, a region replaces its arrays' contents and leaves the rest. A buffer that a stretch does not write, or that
  is none of a region's arrays, reads the same after the segment as before it. Stated once per segment, with the
  condition decidable, these equations walk a read of any buffer back to the segment that wrote it, or to the launch
  memory.
-/
import proofs.«140192_j82068235092286_2_alg».proof.Proof.Gen.KernelIdeal.Frame

set_option maxRecDepth 16384

noncomputable section

namespace Cert.KernelIdeal.Hops

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- The buffers stretch `hostOps0` writes. -/
def wr_hostOps0 : List (Ref sig .tc) := [main_c, main_v0, main_v1, main_c_0, main_v2, main_v3, main_v4, main_v5, main_v6, main_cst, main_v7, main_v8, main_v9, main_v10, main_v11, main_v12, main_v13]

/-- A buffer that stretch `hostOps0` does not write reads after it as before it. -/
theorem keep_hostOps0 (c : Dev nD) (b : Ref sig .tc) (hb : ∀ b' ∈ wr_hostOps0, b ≠ b') :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))

/-- The buffers stretch `hostOps1` writes. -/
def wr_hostOps1 : List (Ref sig .tc) := [main_c_1, main_v15, main_v16, main_c_2, main_v17, main_v18, main_v19, main_v20, main_v21, main_cst_3, main_v22, main_v23, main_v24, main_v25, main_v26, main_v27, main_v28]

/-- A buffer that stretch `hostOps1` does not write reads after it as before it. -/
theorem keep_hostOps1 (c : Dev nD) (b : Ref sig .tc) (hb : ∀ b' ∈ wr_hostOps1, b ≠ b') :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))

/-- The buffers stretch `hostOps2` writes. -/
def wr_hostOps2 : List (Ref sig .tc) := [main_c_4, main_v30, main_v31, main_c_5, main_v32, main_v33, main_v34, main_v35, main_v36, main_v37, main_v38, main_v39, main_v40, main_v41]

/-- A buffer that stretch `hostOps2` does not write reads after it as before it. -/
theorem keep_hostOps2 (c : Dev nD) (b : Ref sig .tc) (hb : ∀ b' ∈ wr_hostOps2, b ≠ b') :
    W5 m ρ c (Proc.devRef .tc b) = W4 m ρ c (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))

/-- The buffers stretch `hostOps2_1` writes. -/
def wr_hostOps2_1 : List (Ref sig .tc) := [main_call0_cst, main_call0_v0, main_v42]

/-- A buffer that stretch `hostOps2_1` does not write reads after it as before it. -/
theorem keep_hostOps2_1 (c : Dev nD) (b : Ref sig .tc) (hb : ∀ b' ∈ wr_hostOps2_1, b ≠ b') :
    W6 m ρ c (Proc.devRef .tc b) = W5 m ρ c (Proc.devRef .tc b) :=
  StableHlo.after_of_forall_not_mem (b := Proc.devRef .tc b) _ _ (List.forall_iff_forall_mem.mp (by
    simp only [hostOps2_1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))

/-- The buffers stretch `hostOps2_2` writes. -/
def wr_hostOps2_2 : List (Ref sig .tc) := [main_cst_6, main_v43, main_v44, main_v45, main_v46, main_v47, main_v48, main_v49]

/-- A buffer that stretch `hostOps2_2` does not write reads after it as before it. -/
theorem keep_hostOps2_2 (c : Dev nD) (b : Ref sig .tc) (hb : ∀ b' ∈ wr_hostOps2_2, b ≠ b') :
    W7 m ρ c (Proc.devRef .tc b) = W6 m ρ c (Proc.devRef .tc b) :=
  StableHlo.after_of_forall_not_mem (b := Proc.devRef .tc b) _ _ (List.forall_iff_forall_mem.mp (by
    simp only [hostOps2_2, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))

/-- The buffers stretch `hostOps3` writes. -/
def wr_hostOps3 : List (Ref sig .tc) := [main_c_7, main_v51, main_v52, main_c_8, main_v53, main_v54, main_v55, main_v56, main_v57, main_cst_9, main_v58, main_v59, main_v60, main_v61, main_v62, main_v63, main_v64]

/-- A buffer that stretch `hostOps3` does not write reads after it as before it. -/
theorem keep_hostOps3 (c : Dev nD) (b : Ref sig .tc) (hb : ∀ b' ∈ wr_hostOps3, b ≠ b') :
    W9 m ρ c (Proc.devRef .tc b) = W8 m ρ c (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))

/-- The buffers stretch `hostOps4` writes. -/
def wr_hostOps4 : List (Ref sig .tc) := [main_c_10, main_v66, main_v67, main_c_11, main_v68, main_v69, main_v70, main_v71, main_v72, main_cst_12, main_v73, main_v74, main_v75, main_v76, main_v77, main_v78, main_v79]

/-- A buffer that stretch `hostOps4` does not write reads after it as before it. -/
theorem keep_hostOps4 (c : Dev nD) (b : Ref sig .tc) (hb : ∀ b' ∈ wr_hostOps4, b ≠ b') :
    W11 m ρ c (Proc.devRef .tc b) = W10 m ρ c (Proc.devRef .tc b) :=
  StableHlo.after_of_forall_not_mem (b := Proc.devRef .tc b) _ _ (List.forall_iff_forall_mem.mp (by
    simp only [hostOps4, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))

/-- The buffers stretch `hostOps5` writes. -/
def wr_hostOps5 : List (Ref sig .tc) := [main_v81]

/-- A buffer that stretch `hostOps5` does not write reads after it as before it. -/
theorem keep_hostOps5 (c : Dev nD) (b : Ref sig .tc) (hb : ∀ b' ∈ wr_hostOps5, b ≠ b') :
    W13 m ρ c (Proc.devRef .tc b) = W12 m ρ c (Proc.devRef .tc b) :=
  StableHlo.after_of_forall_not_mem (b := Proc.devRef .tc b) _ _ (List.forall_iff_forall_mem.mp (by
    simp only [hostOps5, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))

/-- At launch a buffer holds the launch memory's contents. -/
theorem at_launch (c : Dev nD) (b : Ref sig .tc) : W0 m ρ c (Proc.devRef .tc b) = m ((c : Thread nD τ).loc b) := rfl

/-! ## The same equations in the form a simplifier pass can use

A buffer reference is spelt by a reducible function of the buffer, so a rewriting index would key these patterns on the
projections of a buffer it has not matched yet; the reference is therefore left out of the index. -/

theorem keep_hostOps0' (c : Dev nD) (b : Ref sig .tc) (hb : ∀ b' ∈ wr_hostOps0, b ≠ b') :
    W1 m ρ c (no_index (Proc.devRef .tc b)) = W0 m ρ c (Proc.devRef .tc b) := keep_hostOps0 m ρ c b hb
theorem keep_hostOps1' (c : Dev nD) (b : Ref sig .tc) (hb : ∀ b' ∈ wr_hostOps1, b ≠ b') :
    W3 m ρ c (no_index (Proc.devRef .tc b)) = W2 m ρ c (Proc.devRef .tc b) := keep_hostOps1 m ρ c b hb
theorem keep_hostOps2' (c : Dev nD) (b : Ref sig .tc) (hb : ∀ b' ∈ wr_hostOps2, b ≠ b') :
    W5 m ρ c (no_index (Proc.devRef .tc b)) = W4 m ρ c (Proc.devRef .tc b) := keep_hostOps2 m ρ c b hb
theorem keep_hostOps2_1' (c : Dev nD) (b : Ref sig .tc) (hb : ∀ b' ∈ wr_hostOps2_1, b ≠ b') :
    W6 m ρ c (no_index (Proc.devRef .tc b)) = W5 m ρ c (Proc.devRef .tc b) := keep_hostOps2_1 m ρ c b hb
theorem keep_hostOps2_2' (c : Dev nD) (b : Ref sig .tc) (hb : ∀ b' ∈ wr_hostOps2_2, b ≠ b') :
    W7 m ρ c (no_index (Proc.devRef .tc b)) = W6 m ρ c (Proc.devRef .tc b) := keep_hostOps2_2 m ρ c b hb
theorem keep_hostOps3' (c : Dev nD) (b : Ref sig .tc) (hb : ∀ b' ∈ wr_hostOps3, b ≠ b') :
    W9 m ρ c (no_index (Proc.devRef .tc b)) = W8 m ρ c (Proc.devRef .tc b) := keep_hostOps3 m ρ c b hb
theorem keep_hostOps4' (c : Dev nD) (b : Ref sig .tc) (hb : ∀ b' ∈ wr_hostOps4, b ≠ b') :
    W11 m ρ c (no_index (Proc.devRef .tc b)) = W10 m ρ c (Proc.devRef .tc b) := keep_hostOps4 m ρ c b hb
theorem keep_hostOps5' (c : Dev nD) (b : Ref sig .tc) (hb : ∀ b' ∈ wr_hostOps5, b ≠ b') :
    W13 m ρ c (no_index (Proc.devRef .tc b)) = W12 m ρ c (Proc.devRef .tc b) := keep_hostOps5 m ρ c b hb

/-- A buffer that is none of region 0's arrays reads after the region as before it. -/
theorem skip_region0 (c : Dev nD) (b : Ref sig .tc) (hb : ∀ w, Pipeline.arrRef spec0 w ≠ b) :
    W2 m ρ c (no_index (Proc.devRef .tc b)) = W1 m ρ c (Proc.devRef .tc b) := W2_of_ne m ρ c b hb
/-- A buffer that is none of region 1's arrays reads after the region as before it. -/
theorem skip_region1 (c : Dev nD) (b : Ref sig .tc) (hb : ∀ w, Pipeline.arrRef spec1 w ≠ b) :
    W4 m ρ c (no_index (Proc.devRef .tc b)) = W3 m ρ c (Proc.devRef .tc b) := W4_of_ne m ρ c b hb
/-- A buffer that is none of region 2's arrays reads after the region as before it. -/
theorem skip_region2 (c : Dev nD) (b : Ref sig .tc) (hb : ∀ w, Pipeline.arrRef spec2 w ≠ b) :
    W8 m ρ c (no_index (Proc.devRef .tc b)) = W7 m ρ c (Proc.devRef .tc b) := W8_of_ne m ρ c b hb
/-- A buffer that is none of region 3's arrays reads after the region as before it. -/
theorem skip_region3 (c : Dev nD) (b : Ref sig .tc) (hb : ∀ w, Pipeline.arrRef spec3 w ≠ b) :
    W10 m ρ c (no_index (Proc.devRef .tc b)) = W9 m ρ c (Proc.devRef .tc b) := W10_of_ne m ρ c b hb
/-- A buffer that is none of region 4's arrays reads after the region as before it. -/
theorem skip_region4 (c : Dev nD) (b : Ref sig .tc) (hb : ∀ w, Pipeline.arrRef spec4 w ≠ b) :
    W12 m ρ c (no_index (Proc.devRef .tc b)) = W11 m ρ c (Proc.devRef .tc b) := W12_of_ne m ρ c b hb

theorem at_launch' (c : Dev nD) (b : Ref sig .tc) :
    W0 m ρ c (no_index (Proc.devRef .tc b)) = m ((c : Thread nD τ).loc b) := rfl

end Cert.KernelIdeal.Hops

end
-- ==== Proof.ChainBase.lean ====
/-
  Reading the kernel program's memory between its segments: common notation.

  `A m c b` is the launch contents of argument buffer `b` on core `c`. `walk_back` rewrites a read of a buffer at a
  segment boundary to the read at the boundary before it, for as long as the segment in between does not write the
  buffer (a host stretch: the buffer is not among its results; a region: the buffer is none of its arrays), and a read
  at launch to the launch contents. What is left are reads of region outputs, at the boundary right after their region.
-/
import proofs.«140192_j82068235092286_2_alg».proof.Proof.Hops
import Idealize.ShloMosaic.Lib.StableHlo.Run
import Idealize.ShloMosaic.PureOps.Ideal

noncomputable section

namespace Cert.Chain

open Cert.KernelIdeal Cert.KernelIdeal.Gen Cert.KernelIdeal.Hops
open Idealize.ShloMosaic Idealize.ShloMosaic.TcCoe
open Idealize.SL Idealize.SL.Sem

/-- The launch contents of a buffer of the kernel program on core `c`. -/
abbrev A (m : (ℓ : Loc nD τ sig) → Buf (Elt Ideal) ℓ) (c : Dev nD) (b : Ref sig .tc) :
    Buf (Elt Ideal) ((c : Thread nD τ).loc b) := m ((c : Thread nD τ).loc b)

/-- Walk every read of a buffer back to the segment that wrote it, or to the launch memory. -/
macro "walk_back" : tactic =>
  `(tactic| simp (disch := decide) only [keep_hostOps0', keep_hostOps1', keep_hostOps2', keep_hostOps2_1', keep_hostOps2_2',
      keep_hostOps3', keep_hostOps4', keep_hostOps5', skip_region0, skip_region1, skip_region2, skip_region3, skip_region4,
      at_launch'])

end Cert.Chain

end
-- ==== Proof.RefStages.lean ====
/-
  The reference's five stages, each read at an entry.

  Every stage of the reference adds an aggregate to the destination rows and applies the two-layer perceptron with the
  stage's own weights and biases. Read at an entry (p, q), a stage's output is the perceptron `mlpAt` of those operands:
  the stage's operations are exactly the host spelling of `MlpSpec`. The aggregate (a gather of source rows summed into
  destination rows by a scatter-add) is not opened: it is carried as one array.
-/
import proofs.«140192_j82068235092286_2_alg».proof.Proof.Gen.ReferenceIdeal.Read
import proofs.«140192_j82068235092286_2_alg».proof.Proof.MlpSpec

set_option maxRecDepth 16384

noncomputable section

namespace Cert.RefStages

open Cert.ReferenceIdeal Cert.ReferenceIdeal.Read Cert.Mlp
open Idealize.ShloMosaic Idealize.ShloMosaic.ValueIdx

variable (x0 x1 : (⟨S131072x256, .f32⟩ : BufTy).Contents (Elt Ideal))
  (x2 : (⟨S4096x256, .f32⟩ : BufTy).Contents (Elt Ideal))
  (x3 x4 : (⟨S65536x256, .f32⟩ : BufTy).Contents (Elt Ideal))
  (x5 x6 : (⟨S524288, .i32⟩ : BufTy).Contents (Elt Ideal))
  (x7 x8 : (⟨S131072, .i32⟩ : BufTy).Contents (Elt Ideal))
  (x9 x10 : (⟨S262144, .i32⟩ : BufTy).Contents (Elt Ideal))
  (x11 x12 : (⟨S65536, .i32⟩ : BufTy).Contents (Elt Ideal))
  (x13 x14 : (⟨S262144, .i32⟩ : BufTy).Contents (Elt Ideal))
  (x15 : (⟨S262144x1, .f32⟩ : BufTy).Contents (Elt Ideal))
  (x16 : (⟨S256x256, .f32⟩ : BufTy).Contents (Elt Ideal))
  (x17 : (⟨S256, .f32⟩ : BufTy).Contents (Elt Ideal))
  (x18 : (⟨S256x256, .f32⟩ : BufTy).Contents (Elt Ideal))
  (x19 : (⟨S256, .f32⟩ : BufTy).Contents (Elt Ideal))
  (x20 : (⟨S256x256, .f32⟩ : BufTy).Contents (Elt Ideal))
  (x21 : (⟨S256, .f32⟩ : BufTy).Contents (Elt Ideal))
  (x22 : (⟨S256x256, .f32⟩ : BufTy).Contents (Elt Ideal))
  (x23 : (⟨S256, .f32⟩ : BufTy).Contents (Elt Ideal))
  (x24 : (⟨S256x256, .f32⟩ : BufTy).Contents (Elt Ideal))
  (x25 : (⟨S256, .f32⟩ : BufTy).Contents (Elt Ideal))
  (x26 : (⟨S256x256, .f32⟩ : BufTy).Contents (Elt Ideal))
  (x27 : (⟨S256, .f32⟩ : BufTy).Contents (Elt Ideal))
  (x28 : (⟨S1x256, .f32⟩ : BufTy).Contents (Elt Ideal))
  (x29 : (⟨S256, .f32⟩ : BufTy).Contents (Elt Ideal))
  (x30 : (⟨S256x256, .f32⟩ : BufTy).Contents (Elt Ideal))
  (x31 : (⟨S256, .f32⟩ : BufTy).Contents (Elt Ideal))
  (x32 : (⟨S256x256, .f32⟩ : BufTy).Contents (Elt Ideal))
  (x33 : (⟨S256, .f32⟩ : BufTy).Contents (Elt Ideal))
  (x34 : (⟨S256x256, .f32⟩ : BufTy).Contents (Elt Ideal))
  (x35 : (⟨S256, .f32⟩ : BufTy).Contents (Elt Ideal))
  (x36 : (⟨S256x1, .f32⟩ : BufTy).Contents (Elt Ideal))
  (x37 : (⟨S1, .f32⟩ : BufTy).Contents (Elt Ideal))

/-- Stage 1 of the reference, at an entry: the perceptron of the stage's destination rows, its aggregate, and its
    weights and biases. -/
theorem stage1_at (p : Fin 131072) (q : Fin 256) :
    val_main_v19 (F := Ideal) x0 x1 x5 x6 x16 x17 x18 x19 (ix2 p q)
      = mlpAt (fun p j => x1 (ix2 p j)) (fun p j => val_main_v9 (F := Ideal) x0 x5 x6 (ix2 p j))
          (fun j k => x16 (ix2 j k)) (fun k => x17 (ix1 k)) (fun k q => x18 (ix2 k q)) (fun q => x19 (ix1 q)) p q := by
  unfold val_main_v19 val_main_v18 val_main_v17 val_main_v16 val_main_v15 val_main_call0_v0 val_main_call0_cst val_main_v14 val_main_v13 val_main_v12 val_main_v11 val_main_v10
  exact host_apply _ rfl _ rfl _ _ _ _ _ _ _ _ _ _ _ p q

/-- Stage 2 of the reference, at an entry: the perceptron of the stage's destination rows, its aggregate, and its
    weights and biases. -/
theorem stage2_at (p : Fin 4096) (q : Fin 256) :
    val_main_v39 (F := Ideal) x0 x2 x7 x8 x20 x21 x22 x23 (ix2 p q)
      = mlpAt (fun p j => x2 (ix2 p j)) (fun p j => val_main_v29 (F := Ideal) x0 x7 x8 (ix2 p j))
          (fun j k => x20 (ix2 j k)) (fun k => x21 (ix1 k)) (fun k q => x22 (ix2 k q)) (fun q => x23 (ix1 q)) p q := by
  unfold val_main_v39 val_main_v38 val_main_v37 val_main_v36 val_main_v35 val_main_call1_v0 val_main_call1_cst val_main_v34 val_main_v33 val_main_v32 val_main_v31 val_main_v30
  exact host_apply _ rfl _ rfl _ _ _ _ _ _ _ _ _ _ _ p q

/-- Stage 3 of the reference, at an entry: the perceptron of the stage's destination rows, its aggregate, and its
    weights and biases. -/
theorem stage3_at (p : Fin 65536) (q : Fin 256) :
    val_main_v65 (F := Ideal) x0 x1 x3 x5 x6 x9 x10 x15 x16 x17 x18 x19 x24 x25 x26 x27 x28 x29 (ix2 p q)
      = mlpAt (fun p j => x3 (ix2 p j)) (fun p j => val_main_v55 (F := Ideal) x0 x1 x5 x6 x9 x10 x15 x16 x17 x18 x19 x28 x29 (ix2 p j))
          (fun j k => x24 (ix2 j k)) (fun k => x25 (ix1 k)) (fun k q => x26 (ix2 k q)) (fun q => x27 (ix1 q)) p q := by
  unfold val_main_v65 val_main_v64 val_main_v63 val_main_v62 val_main_v61 val_main_call3_v0 val_main_call3_cst val_main_v60 val_main_v59 val_main_v58 val_main_v57 val_main_v56
  exact host_apply _ rfl _ rfl _ _ _ _ _ _ _ _ _ _ _ p q

/-- Stage 4 of the reference, at an entry: the perceptron of the stage's destination rows, its aggregate, and its
    weights and biases. -/
theorem stage4_at (p : Fin 65536) (q : Fin 256) :
    val_main_v85 (F := Ideal) x0 x1 x2 x3 x5 x6 x7 x8 x9 x10 x11 x12 x15 x16 x17 x18 x19 x20 x21 x22 x23 x24 x25 x26 x27 x28 x29 x30 x31 x32 x33 (ix2 p q)
      = mlpAt (fun p j => val_main_v65 (F := Ideal) x0 x1 x3 x5 x6 x9 x10 x15 x16 x17 x18 x19 x24 x25 x26 x27 x28 x29 (ix2 p j)) (fun p j => val_main_v75 (F := Ideal) x0 x2 x7 x8 x11 x12 x20 x21 x22 x23 (ix2 p j))
          (fun j k => x30 (ix2 j k)) (fun k => x31 (ix1 k)) (fun k q => x32 (ix2 k q)) (fun q => x33 (ix1 q)) p q := by
  unfold val_main_v85 val_main_v84 val_main_v83 val_main_v82 val_main_v81 val_main_call4_v0 val_main_call4_cst val_main_v80 val_main_v79 val_main_v78 val_main_v77 val_main_v76
  exact host_apply _ rfl _ rfl _ _ _ _ _ _ _ _ _ _ _ p q

/-- Stage 5 of the reference, at an entry: the perceptron of the stage's destination rows, its aggregate, and its
    weights and biases. -/
theorem stage5_at (p : Fin 65536) (q : Fin 1) :
    val_main_v105 (F := Ideal) x0 x1 x2 x3 x4 x5 x6 x7 x8 x9 x10 x11 x12 x13 x14 x15 x16 x17 x18 x19 x20 x21 x22 x23 x24 x25 x26 x27 x28 x29 x30 x31 x32 x33 x34 x35 x36 x37 (ix2 p q)
      = mlpAt (fun p j => x4 (ix2 p j)) (fun p j => val_main_v95 (F := Ideal) x0 x1 x2 x3 x5 x6 x7 x8 x9 x10 x11 x12 x13 x14 x15 x16 x17 x18 x19 x20 x21 x22 x23 x24 x25 x26 x27 x28 x29 x30 x31 x32 x33 (ix2 p j))
          (fun j k => x34 (ix2 j k)) (fun k => x35 (ix1 k)) (fun k q => x36 (ix2 k q)) (fun q => x37 (ix1 q)) p q := by
  unfold val_main_v105 val_main_v104 val_main_v103 val_main_v102 val_main_v101 val_main_call5_v0 val_main_call5_cst val_main_v100 val_main_v99 val_main_v98 val_main_v97 val_main_v96
  exact host_apply _ rfl _ rfl _ _ _ _ _ _ _ _ _ _ _ p q

end Cert.RefStages

end
-- ==== Proof.Region3.lean ====
/-
  Region 3 of the kernel program: what its output array holds when the region ends.

  The region runs the perceptron body once per block of 2048 rows: point t of its grid of 32 points loads rows
  2048·t … 2048·t + 2047 of the two row operands, the whole of the two weight matrices and of the two bias rows, and
  writes back block t of the output. An entry (p, q) of the block the body leaves is the perceptron of the loaded
  blocks at (p, q), which reads row 2048·t + p of the row operands; the 32 blocks tile the 65536 rows. So the output
  array ends, entry by entry, at the perceptron of the region's whole input arrays.
-/
import proofs.«140192_j82068235092286_2_alg».proof.Proof.Gen.KernelIdeal.Frame
import proofs.«140192_j82068235092286_2_alg».proof.Proof.MlpSpec

set_option maxRecDepth 16384

noncomputable section

namespace Cert.KernelIdeal.Region3

open Cert.KernelIdeal Cert.KernelIdeal.Gen Cert.Mlp
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry of the block is the perceptron of the loaded blocks at that entry. -/
theorem pay_at (x0 x1 : Vec Ideal S2048x256 .f32) (x2 : Vec Ideal S256x256 .bf16) (x3 : Vec Ideal S1x256 .f32)
    (x4 : Vec Ideal S256x256 .bf16) (x5 : Vec Ideal S1x256 .f32) (p : Fin 2048) (q : Fin 256) :
    k3_pay1 x0 x1 x2 x3 x4 x5 (ix2 p q)
      = mlpAt (fun p j => x0 (ix2 p j)) (fun p j => x1 (ix2 p j)) (fun j k => x2 (ix2 j k)) (fun k => x3 (ix2 (0 : Fin 1) k))
          (fun k q => x4 (ix2 k q)) (fun q => x5 (ix2 (0 : Fin 1) q)) p q := by
  unfold k3_pay1
  simp only [shapeCast_self]
  exact Cert.Mlp.body_apply _ rfl _ rfl x0 x1 x2 x3 x4 x5 _ _ _ p q

/-- The printed index maps over the grid: the row windows and the output move with the point, the weights and the
    bias rows stay at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 ∧ t.val < 32 :=
  (by decide +kernel : ∀ t : Fin grid3.N, _)

/-- Row p of point t's block is row 2048·t + p of the array. -/
def rowOf (t : Fin cfg3.N) (p : Fin 2048) : Fin 65536 :=
  ⟨t.val * 2048 + p.val, by have h := (idx_facts t).2.2.2.2.2.2.2.2.2.2.2.2.2.2; have := p.isLt; omega⟩

/-- The output array as one function of the region's input arrays as it finds them. -/
def G (c : Dev nD) : S65536x256.Idx → EReal := fun i =>
  mlpAt (fun p j => V c main_v50 (ix2 p j)) (fun p j => V c main_v60 (ix2 p j)) (fun j k => V c main_v61 (ix2 j k))
    (fun k => V c main_v63 (ix2 (0 : Fin 1) k)) (fun k q => V c main_v62 (ix2 k q)) (fun q => V c main_v64 (ix2 (0 : Fin 1) q))
    (n := 65536) (d := 256) (i 0) (i 1)

/-! ## The blocks the body loads, read off the arrays -/

theorem read_x (c : Dev nD) (t : Fin cfg3.N) (p : Fin 2048) (j : Fin 256) :
    iblk3 V c 0 t (ix2 p j) = V c main_v50 (ix2 (rowOf t p) j) := by
  show V c main_v50 (((cfg3.win 0).blk t).view.emb (ix2 p j)) = _
  refine congrArg (V c main_v50) (funext fun a => Fin.ext ?_)
  obtain ⟨e0, e1, -⟩ := idx_facts t
  match a with
  | ⟨0, _⟩ => show win3_0.index t (0 : Fin 2) * 2048 + 1 * p.val = t.val * 2048 + p.val; omega
  | ⟨1, _⟩ => show win3_0.index t (1 : Fin 2) * 256 + 1 * j.val = j.val; omega

theorem read_a (c : Dev nD) (t : Fin cfg3.N) (p : Fin 2048) (j : Fin 256) :
    iblk3 V c 1 t (ix2 p j) = V c main_v60 (ix2 (rowOf t p) j) := by
  show V c main_v60 (((cfg3.win 1).blk t).view.emb (ix2 p j)) = _
  refine congrArg (V c main_v60) (funext fun a => Fin.ext ?_)
  obtain ⟨-, -, e0, e1, -⟩ := idx_facts t
  match a with
  | ⟨0, _⟩ => show win3_1.index t (0 : Fin 2) * 2048 + 1 * p.val = t.val * 2048 + p.val; omega
  | ⟨1, _⟩ => show win3_1.index t (1 : Fin 2) * 256 + 1 * j.val = j.val; omega

theorem read_w1 (c : Dev nD) (t : Fin cfg3.N) (j k : Fin 256) :
    iblk3 V c 2 t (ix2 j k) = V c main_v61 (ix2 j k) := by
  show V c main_v61 (((cfg3.win 2).blk t).view.emb (ix2 j k)) = _
  refine congrArg (V c main_v61) (funext fun a => Fin.ext ?_)
  obtain ⟨-, -, -, -, e0, e1, -⟩ := idx_facts t
  match a with
  | ⟨0, _⟩ => show win3_2.index t (0 : Fin 2) * 256 + 1 * j.val = j.val; omega
  | ⟨1, _⟩ => show win3_2.index t (1 : Fin 2) * 256 + 1 * k.val = k.val; omega

theorem read_b1 (c : Dev nD) (t : Fin cfg3.N) (k : Fin 256) :
    iblk3 V c 3 t (ix2 (0 : Fin 1) k) = V c main_v63 (ix2 (0 : Fin 1) k) := by
  show V c main_v63 (((cfg3.win 3).blk t).view.emb (ix2 (0 : Fin 1) k)) = _
  refine congrArg (V c main_v63) (funext fun a => Fin.ext ?_)
  obtain ⟨-, -, -, -, -, -, e0, e1, -⟩ := idx_facts t
  match a with
  | ⟨0, _⟩ => show win3_3.index t (0 : Fin 2) * 1 + 1 * 0 = 0; omega
  | ⟨1, _⟩ => show win3_3.index t (1 : Fin 2) * 256 + 1 * k.val = k.val; omega

theorem read_w2 (c : Dev nD) (t : Fin cfg3.N) (k : Fin 256) (q : Fin 256) :
    iblk3 V c 4 t (ix2 k q) = V c main_v62 (ix2 k q) := by
  show V c main_v62 (((cfg3.win 4).blk t).view.emb (ix2 k q)) = _
  refine congrArg (V c main_v62) (funext fun a => Fin.ext ?_)
  obtain ⟨-, -, -, -, -, -, -, -, e0, e1, -⟩ := idx_facts t
  match a with
  | ⟨0, _⟩ => show win3_4.index t (0 : Fin 2) * 256 + 1 * k.val = k.val; omega
  | ⟨1, _⟩ => show win3_4.index t (1 : Fin 2) * 256 + 1 * q.val = q.val; omega

theorem read_b2 (c : Dev nD) (t : Fin cfg3.N) (q : Fin 256) :
    iblk3 V c 5 t (ix2 (0 : Fin 1) q) = V c main_v64 (ix2 (0 : Fin 1) q) := by
  show V c main_v64 (((cfg3.win 5).blk t).view.emb (ix2 (0 : Fin 1) q)) = _
  refine congrArg (V c main_v64) (funext fun a => Fin.ext ?_)
  obtain ⟨-, -, -, -, -, -, -, -, -, -, e0, e1, -⟩ := idx_facts t
  match a with
  | ⟨0, _⟩ => show win3_5.index t (0 : Fin 2) * 1 + 1 * 0 = 0; omega
  | ⟨1, _⟩ => show win3_5.index t (1 : Fin 2) * 256 + 1 * q.val = q.val; omega

/-- Entry (p, q) of the output's block at point t is entry (2048·t + p, q) of the array. -/
theorem emb_out (t : Fin cfg3.N) (p : Fin 2048) (q : Fin 256) :
    ((cfg3.win 6).blk t).view.emb (ix2 p q) = ix2 (rowOf t p) q := by
  funext a; apply Fin.ext
  obtain ⟨-, -, -, -, -, -, -, -, -, -, -, -, e0, e1, -⟩ := idx_facts t
  match a with
  | ⟨0, _⟩ => show win3_6.index t (0 : Fin 2) * 2048 + 1 * p.val = t.val * 2048 + p.val; omega
  | ⟨1, _⟩ => show win3_6.index t (1 : Fin 2) * 256 + 1 * q.val = q.val; omega

/-! ## What a point writes back, the cover, the array -/

/-- What point t writes back is block t of `G`. -/
theorem flushed_eq (c : Dev nD) (t : Fin cfg3.N) :
    (dat3 V c).flushed 6 t = ((cfg3.win 6).blk t).view.read (Elt Ideal) (G V c) := by
  show (cfg3.win 6).cut (grid3.coords t) ((dat3 V c).after 6 t) = _
  rw [after3_6]
  unfold out3_6
  rw [View.canon_unit_zero hz]
  simp only [View.ld_unit_zero (S := S2048x256) hz, View.ld_unit_zero (S := S256x256) hz, View.ld_unit_zero (S := S1x256) hz]
  funext y
  obtain ⟨p, q, rfl⟩ : ∃ (p : Fin 2048) (q : Fin 256), y = ix2 p q := ⟨y 0, y 1, eq_ix2 y⟩
  refine (pay_at (iblk3 V c 0 t) (iblk3 V c 1 t) (iblk3 V c 2 t) (iblk3 V c 3 t) (iblk3 V c 4 t) (iblk3 V c 5 t) p q).trans ?_
  show _ = G V c (((cfg3.win 6).blk t).view.emb (ix2 p q))
  rw [emb_out t p q]
  unfold G
  exact mlpAt_congr (fun j => read_x V c t p j) (fun j => read_a V c t p j) (fun j k => read_w1 V c t j k)
    (fun k => read_b1 V c t k) (fun k => read_w2 V c t k q) (read_b2 V c t q)

/-- An index of the array is in point t's block iff each coordinate is in the block's range on its axis. -/
theorem mem_blk (t : Fin cfg3.N) (i : S65536x256.Idx) :
    i ∈ ((cfg3.win 6).blk t).view.set ↔ ∀ a : Fin 2, win3_6.index t a * S2048x256.size a ≤ (i a).val ∧ (i a).val < win3_6.index t a * S2048x256.size a + S2048x256.size a := by
  show i ∈ ((View.whole main_v65).slice (win3_6.rect t)).set ↔ _
  rw [View.set_slice_whole, Rect.mem_set_unit]
  exact Iff.rfl

/-- Every block of rows is some point's. -/
theorem idx_onto : ∀ b : Fin 32, ∃ t : Fin cfg3.N, win3_6.index t (0 : Fin 2) = b.val ∧ win3_6.index t (1 : Fin 2) = 0 :=
  (by decide +kernel : ∀ b : Fin 32, ∃ t : Fin grid3.N, win3_6.index t (0 : Fin 2) = b.val ∧ win3_6.index t (1 : Fin 2) = 0)

/-- The blocks tile the array: row r is in block r / 2048. -/
theorem cover (i : S65536x256.Idx) : ∃ t : Fin cfg3.N, (cfg3.win 6).flush t = true ∧ i ∈ ((cfg3.win 6).blk t).view.set := by
  have hi0 : (i 0).val < 65536 := (i 0).isLt
  have hi1 : (i 1).val < 256 := (i 1).isLt
  obtain ⟨t, q0, q1⟩ := idx_onto ⟨(i 0).val / 2048, by omega⟩
  have q0' : win3_6.index t (0 : Fin 2) = (i 0).val / 2048 := q0
  refine ⟨t, flush3_6 t, ?_⟩
  rw [mem_blk]
  intro a
  match a with
  | ⟨0, _⟩ => show win3_6.index t (0 : Fin 2) * 2048 ≤ (i 0).val ∧ (i 0).val < win3_6.index t (0 : Fin 2) * 2048 + 2048; omega
  | ⟨1, _⟩ => show win3_6.index t (1 : Fin 2) * 256 ≤ (i 1).val ∧ (i 1).val < win3_6.index t (1 : Fin 2) * 256 + 256; omega

/-- The output array when the region ends: the perceptron of the region's input arrays, entry by entry. -/
theorem final (c : Dev nD) : (dat3 V c).arrAt 6 cfg3.N = G V c :=
  (dat3 V c).arrAt_eq_of_cover 6 (G V c) (fun t _ => flushed_eq V c t) (cover)

end Cert.KernelIdeal.Region3

end
-- ==== Proof.Region1.lean ====
/-
  Region 1 of the kernel program: what its output array holds when the region ends.

  The region runs the perceptron body once per block of 2048 rows: point t of its grid of 2 points loads rows
  2048·t … 2048·t + 2047 of the two row operands, the whole of the two weight matrices and of the two bias rows, and
  writes back block t of the output. An entry (p, q) of the block the body leaves is the perceptron of the loaded
  blocks at (p, q), which reads row 2048·t + p of the row operands; the 2 blocks tile the 4096 rows. So the output
  array ends, entry by entry, at the perceptron of the region's whole input arrays.
-/
import proofs.«140192_j82068235092286_2_alg».proof.Proof.Gen.KernelIdeal.Frame
import proofs.«140192_j82068235092286_2_alg».proof.Proof.MlpSpec

set_option maxRecDepth 16384

noncomputable section

namespace Cert.KernelIdeal.Region1

open Cert.KernelIdeal Cert.KernelIdeal.Gen Cert.Mlp
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry of the block is the perceptron of the loaded blocks at that entry. -/
theorem pay_at (x0 x1 : Vec Ideal S2048x256 .f32) (x2 : Vec Ideal S256x256 .bf16) (x3 : Vec Ideal S1x256 .f32)
    (x4 : Vec Ideal S256x256 .bf16) (x5 : Vec Ideal S1x256 .f32) (p : Fin 2048) (q : Fin 256) :
    k1_pay1 x0 x1 x2 x3 x4 x5 (ix2 p q)
      = mlpAt (fun p j => x0 (ix2 p j)) (fun p j => x1 (ix2 p j)) (fun j k => x2 (ix2 j k)) (fun k => x3 (ix2 (0 : Fin 1) k))
          (fun k q => x4 (ix2 k q)) (fun q => x5 (ix2 (0 : Fin 1) q)) p q := by
  unfold k1_pay1
  simp only [shapeCast_self]
  exact Cert.Mlp.body_apply _ rfl _ rfl x0 x1 x2 x3 x4 x5 _ _ _ p q

/-- The printed index maps over the grid: the row windows and the output move with the point, the weights and the
    bias rows stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 ∧ t.val < 2 :=
  (by decide +kernel : ∀ t : Fin grid1.N, _)

/-- Row p of point t's block is row 2048·t + p of the array. -/
def rowOf (t : Fin cfg1.N) (p : Fin 2048) : Fin 4096 :=
  ⟨t.val * 2048 + p.val, by have h := (idx_facts t).2.2.2.2.2.2.2.2.2.2.2.2.2.2; have := p.isLt; omega⟩

/-- The output array as one function of the region's input arrays as it finds them. -/
def G (c : Dev nD) : S4096x256.Idx → EReal := fun i =>
  mlpAt (fun p j => V c main_arg2 (ix2 p j)) (fun p j => V c main_v24 (ix2 p j)) (fun j k => V c main_v25 (ix2 j k))
    (fun k => V c main_v27 (ix2 (0 : Fin 1) k)) (fun k q => V c main_v26 (ix2 k q)) (fun q => V c main_v28 (ix2 (0 : Fin 1) q))
    (n := 4096) (d := 256) (i 0) (i 1)

/-! ## The blocks the body loads, read off the arrays -/

theorem read_x (c : Dev nD) (t : Fin cfg1.N) (p : Fin 2048) (j : Fin 256) :
    iblk1 V c 0 t (ix2 p j) = V c main_arg2 (ix2 (rowOf t p) j) := by
  show V c main_arg2 (((cfg1.win 0).blk t).view.emb (ix2 p j)) = _
  refine congrArg (V c main_arg2) (funext fun a => Fin.ext ?_)
  obtain ⟨e0, e1, -⟩ := idx_facts t
  match a with
  | ⟨0, _⟩ => show win1_0.index t (0 : Fin 2) * 2048 + 1 * p.val = t.val * 2048 + p.val; omega
  | ⟨1, _⟩ => show win1_0.index t (1 : Fin 2) * 256 + 1 * j.val = j.val; omega

theorem read_a (c : Dev nD) (t : Fin cfg1.N) (p : Fin 2048) (j : Fin 256) :
    iblk1 V c 1 t (ix2 p j) = V c main_v24 (ix2 (rowOf t p) j) := by
  show V c main_v24 (((cfg1.win 1).blk t).view.emb (ix2 p j)) = _
  refine congrArg (V c main_v24) (funext fun a => Fin.ext ?_)
  obtain ⟨-, -, e0, e1, -⟩ := idx_facts t
  match a with
  | ⟨0, _⟩ => show win1_1.index t (0 : Fin 2) * 2048 + 1 * p.val = t.val * 2048 + p.val; omega
  | ⟨1, _⟩ => show win1_1.index t (1 : Fin 2) * 256 + 1 * j.val = j.val; omega

theorem read_w1 (c : Dev nD) (t : Fin cfg1.N) (j k : Fin 256) :
    iblk1 V c 2 t (ix2 j k) = V c main_v25 (ix2 j k) := by
  show V c main_v25 (((cfg1.win 2).blk t).view.emb (ix2 j k)) = _
  refine congrArg (V c main_v25) (funext fun a => Fin.ext ?_)
  obtain ⟨-, -, -, -, e0, e1, -⟩ := idx_facts t
  match a with
  | ⟨0, _⟩ => show win1_2.index t (0 : Fin 2) * 256 + 1 * j.val = j.val; omega
  | ⟨1, _⟩ => show win1_2.index t (1 : Fin 2) * 256 + 1 * k.val = k.val; omega

theorem read_b1 (c : Dev nD) (t : Fin cfg1.N) (k : Fin 256) :
    iblk1 V c 3 t (ix2 (0 : Fin 1) k) = V c main_v27 (ix2 (0 : Fin 1) k) := by
  show V c main_v27 (((cfg1.win 3).blk t).view.emb (ix2 (0 : Fin 1) k)) = _
  refine congrArg (V c main_v27) (funext fun a => Fin.ext ?_)
  obtain ⟨-, -, -, -, -, -, e0, e1, -⟩ := idx_facts t
  match a with
  | ⟨0, _⟩ => show win1_3.index t (0 : Fin 2) * 1 + 1 * 0 = 0; omega
  | ⟨1, _⟩ => show win1_3.index t (1 : Fin 2) * 256 + 1 * k.val = k.val; omega

theorem read_w2 (c : Dev nD) (t : Fin cfg1.N) (k : Fin 256) (q : Fin 256) :
    iblk1 V c 4 t (ix2 k q) = V c main_v26 (ix2 k q) := by
  show V c main_v26 (((cfg1.win 4).blk t).view.emb (ix2 k q)) = _
  refine congrArg (V c main_v26) (funext fun a => Fin.ext ?_)
  obtain ⟨-, -, -, -, -, -, -, -, e0, e1, -⟩ := idx_facts t
  match a with
  | ⟨0, _⟩ => show win1_4.index t (0 : Fin 2) * 256 + 1 * k.val = k.val; omega
  | ⟨1, _⟩ => show win1_4.index t (1 : Fin 2) * 256 + 1 * q.val = q.val; omega

theorem read_b2 (c : Dev nD) (t : Fin cfg1.N) (q : Fin 256) :
    iblk1 V c 5 t (ix2 (0 : Fin 1) q) = V c main_v28 (ix2 (0 : Fin 1) q) := by
  show V c main_v28 (((cfg1.win 5).blk t).view.emb (ix2 (0 : Fin 1) q)) = _
  refine congrArg (V c main_v28) (funext fun a => Fin.ext ?_)
  obtain ⟨-, -, -, -, -, -, -, -, -, -, e0, e1, -⟩ := idx_facts t
  match a with
  | ⟨0, _⟩ => show win1_5.index t (0 : Fin 2) * 1 + 1 * 0 = 0; omega
  | ⟨1, _⟩ => show win1_5.index t (1 : Fin 2) * 256 + 1 * q.val = q.val; omega

/-- Entry (p, q) of the output's block at point t is entry (2048·t + p, q) of the array. -/
theorem emb_out (t : Fin cfg1.N) (p : Fin 2048) (q : Fin 256) :
    ((cfg1.win 6).blk t).view.emb (ix2 p q) = ix2 (rowOf t p) q := by
  funext a; apply Fin.ext
  obtain ⟨-, -, -, -, -, -, -, -, -, -, -, -, e0, e1, -⟩ := idx_facts t
  match a with
  | ⟨0, _⟩ => show win1_6.index t (0 : Fin 2) * 2048 + 1 * p.val = t.val * 2048 + p.val; omega
  | ⟨1, _⟩ => show win1_6.index t (1 : Fin 2) * 256 + 1 * q.val = q.val; omega

/-! ## What a point writes back, the cover, the array -/

/-- What point t writes back is block t of `G`. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S2048x256) hz, View.ld_unit_zero (S := S256x256) hz, View.ld_unit_zero (S := S1x256) hz]
  funext y
  obtain ⟨p, q, rfl⟩ : ∃ (p : Fin 2048) (q : Fin 256), y = ix2 p q := ⟨y 0, y 1, eq_ix2 y⟩
  refine (pay_at (iblk1 V c 0 t) (iblk1 V c 1 t) (iblk1 V c 2 t) (iblk1 V c 3 t) (iblk1 V c 4 t) (iblk1 V c 5 t) p q).trans ?_
  show _ = G V c (((cfg1.win 6).blk t).view.emb (ix2 p q))
  rw [emb_out t p q]
  unfold G
  exact mlpAt_congr (fun j => read_x V c t p j) (fun j => read_a V c t p j) (fun j k => read_w1 V c t j k)
    (fun k => read_b1 V c t k) (fun k => read_w2 V c t k q) (read_b2 V c t q)

/-- An index of the array is in point t's block iff each coordinate is in the block's range on its axis. -/
theorem mem_blk (t : Fin cfg1.N) (i : S4096x256.Idx) :
    i ∈ ((cfg1.win 6).blk t).view.set ↔ ∀ a : Fin 2, win1_6.index t a * S2048x256.size a ≤ (i a).val ∧ (i a).val < win1_6.index t a * S2048x256.size a + S2048x256.size a := by
  show i ∈ ((View.whole main_v29).slice (win1_6.rect t)).set ↔ _
  rw [View.set_slice_whole, Rect.mem_set_unit]
  exact Iff.rfl

/-- Every block of rows is some point's. -/
theorem idx_onto : ∀ b : Fin 2, ∃ t : Fin cfg1.N, win1_6.index t (0 : Fin 2) = b.val ∧ win1_6.index t (1 : Fin 2) = 0 :=
  (by decide +kernel : ∀ b : Fin 2, ∃ t : Fin grid1.N, win1_6.index t (0 : Fin 2) = b.val ∧ win1_6.index t (1 : Fin 2) = 0)

/-- The blocks tile the array: row r is in block r / 2048. -/
theorem cover (i : S4096x256.Idx) : ∃ t : Fin cfg1.N, (cfg1.win 6).flush t = true ∧ i ∈ ((cfg1.win 6).blk t).view.set := by
  have hi0 : (i 0).val < 4096 := (i 0).isLt
  have hi1 : (i 1).val < 256 := (i 1).isLt
  obtain ⟨t, q0, q1⟩ := idx_onto ⟨(i 0).val / 2048, by omega⟩
  have q0' : win1_6.index t (0 : Fin 2) = (i 0).val / 2048 := q0
  refine ⟨t, flush1_6 t, ?_⟩
  rw [mem_blk]
  intro a
  match a with
  | ⟨0, _⟩ => show win1_6.index t (0 : Fin 2) * 2048 ≤ (i 0).val ∧ (i 0).val < win1_6.index t (0 : Fin 2) * 2048 + 2048; omega
  | ⟨1, _⟩ => show win1_6.index t (1 : Fin 2) * 256 ≤ (i 1).val ∧ (i 1).val < win1_6.index t (1 : Fin 2) * 256 + 256; omega

/-- The output array when the region ends: the perceptron of the region's input arrays, entry by entry. -/
theorem final (c : Dev nD) : (dat1 V c).arrAt 6 cfg1.N = G V c :=
  (dat1 V c).arrAt_eq_of_cover 6 (G V c) (fun t _ => flushed_eq V c t) (cover)

end Cert.KernelIdeal.Region1

end
-- ==== Proof.Stage2.lean ====
/-
  Stage 2 of the kernel program is stage 2 of the reference.

  Region 1 finds the virtual rows as launched, their aggregate (goal rows gathered along the goal→virtual edges and
  summed per destination) computed by the host stretch before it with the reference's own operations on the launch
  contents, which no earlier segment has changed, and the stage's weights and bias rows. Its output array is the
  perceptron of these, and so is the reference's stage 2.
-/
import proofs.«140192_j82068235092286_2_alg».proof.Proof.Region1
import proofs.«140192_j82068235092286_2_alg».proof.Proof.ChainBase
import proofs.«140192_j82068235092286_2_alg».proof.Proof.RefStages

set_option maxRecDepth 16384

noncomputable section

namespace Cert.Chain

open Cert.KernelIdeal Cert.KernelIdeal.Gen Cert.KernelIdeal.Hops Cert.Mlp
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-- The destination rows, as launched. -/
theorem e1_x (c : Dev nD) (i : S4096x256.Idx) : W3 m ρ c (Proc.devRef .tc main_arg2) i = A m c main_arg2 i := by
  walk_back
  all_goals rfl

/-- The aggregate the stretch before region 1 computes is the reference's. -/
theorem e1_a (c : Dev nD) (i : S4096x256.Idx) : W3 m ρ c (Proc.devRef .tc main_v24) i = Cert.ReferenceIdeal.Read.val_main_v29 (F := Ideal) (A m c main_arg0) (A m c main_arg7) (A m c main_arg8) i := by
  dsimp only [W3, hostOps1]
  after_results_simp
  walk_back
  all_goals rfl

/-- The first weight matrix. -/
theorem e1_w1 (c : Dev nD) (i : S256x256.Idx) : W3 m ρ c (Proc.devRef .tc main_v25) i = A m c main_arg20 i := by
  dsimp only [W3, hostOps1]
  after_results_simp
  walk_back
  all_goals rfl

/-- The second weight matrix. -/
theorem e1_w2 (c : Dev nD) (i : S256x256.Idx) : W3 m ρ c (Proc.devRef .tc main_v26) i = A m c main_arg22 i := by
  dsimp only [W3, hostOps1]
  after_results_simp
  walk_back
  all_goals rfl

/-- The first bias, reshaped to a row. -/
theorem e1_b1 (c : Dev nD) (k : Fin 256) : W3 m ρ c (Proc.devRef .tc main_v27) (ix2 (0 : Fin 1) k) = A m c main_arg21 (ix1 k) := by
  dsimp only [W3, hostOps1]
  after_results_simp
  walk_back
  exact rowCast_apply _ _ k

/-- The second bias, reshaped to a row. -/
theorem e1_b2 (c : Dev nD) (k : Fin 256) : W3 m ρ c (Proc.devRef .tc main_v28) (ix2 (0 : Fin 1) k) = A m c main_arg23 (ix1 k) := by
  dsimp only [W3, hostOps1]
  after_results_simp
  walk_back
  exact rowCast_apply _ _ k

/-- Region 1's output, when the region ends, is the reference's stage 2. -/
theorem stage2 (c : Dev nD) :
    W4 m ρ c (Proc.devRef .tc main_v29) = Cert.ReferenceIdeal.Read.val_main_v39 (F := Ideal) (A m c main_arg0) (A m c main_arg2) (A m c main_arg7) (A m c main_arg8) (A m c main_arg20) (A m c main_arg21) (A m c main_arg22) (A m c main_arg23) := by
  refine ((W4_arr m ρ c 6).trans (Region1.final (V3 m ρ) c)).trans ?_
  funext i
  obtain ⟨p, q, rfl⟩ : ∃ (p : Fin 4096) (q : Fin 256), i = ix2 p q := ⟨i 0, i 1, eq_ix2 i⟩
  refine Eq.trans ?_ (Cert.RefStages.stage2_at (A m c main_arg0) (A m c main_arg2) (A m c main_arg7) (A m c main_arg8) (A m c main_arg20) (A m c main_arg21) (A m c main_arg22) (A m c main_arg23) p q).symm
  unfold Region1.G
  exact mlpAt_congr (fun j => e1_x m ρ c (ix2 p j)) (fun j => e1_a m ρ c (ix2 p j)) (fun j k => e1_w1 m ρ c (ix2 j k))
    (fun k => e1_b1 m ρ c k) (fun k => e1_w2 m ρ c (ix2 k q)) (e1_b2 m ρ c q)

end Cert.Chain

end
-- ==== Proof.Region2.lean ====
/-
  Region 2 of the kernel program: what its output array holds when the region ends.

  The region runs the perceptron body once per block of 2048 rows: point t of its grid of 32 points loads rows
  2048·t … 2048·t + 2047 of the two row operands, the whole of the two weight matrices and of the two bias rows, and
  writes back block t of the output. An entry (p, q) of the block the body leaves is the perceptron of the loaded
  blocks at (p, q), which reads row 2048·t + p of the row operands; the 32 blocks tile the 65536 rows. So the output
  array ends, entry by entry, at the perceptron of the region's whole input arrays.
-/
import proofs.«140192_j82068235092286_2_alg».proof.Proof.Gen.KernelIdeal.Frame
import proofs.«140192_j82068235092286_2_alg».proof.Proof.MlpSpec

set_option maxRecDepth 16384

noncomputable section

namespace Cert.KernelIdeal.Region2

open Cert.KernelIdeal Cert.KernelIdeal.Gen Cert.Mlp
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry of the block is the perceptron of the loaded blocks at that entry. -/
theorem pay_at (x0 x1 : Vec Ideal S2048x256 .f32) (x2 : Vec Ideal S256x256 .bf16) (x3 : Vec Ideal S1x256 .f32)
    (x4 : Vec Ideal S256x256 .bf16) (x5 : Vec Ideal S1x256 .f32) (p : Fin 2048) (q : Fin 256) :
    k2_pay1 x0 x1 x2 x3 x4 x5 (ix2 p q)
      = mlpAt (fun p j => x0 (ix2 p j)) (fun p j => x1 (ix2 p j)) (fun j k => x2 (ix2 j k)) (fun k => x3 (ix2 (0 : Fin 1) k))
          (fun k q => x4 (ix2 k q)) (fun q => x5 (ix2 (0 : Fin 1) q)) p q := by
  unfold k2_pay1
  simp only [shapeCast_self]
  exact Cert.Mlp.body_apply _ rfl _ rfl x0 x1 x2 x3 x4 x5 _ _ _ p q

/-- The printed index maps over the grid: the row windows and the output move with the point, the weights and the
    bias rows stay at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 ∧ t.val < 32 :=
  (by decide +kernel : ∀ t : Fin grid2.N, _)

/-- Row p of point t's block is row 2048·t + p of the array. -/
def rowOf (t : Fin cfg2.N) (p : Fin 2048) : Fin 65536 :=
  ⟨t.val * 2048 + p.val, by have h := (idx_facts t).2.2.2.2.2.2.2.2.2.2.2.2.2.2; have := p.isLt; omega⟩

/-- The output array as one function of the region's input arrays as it finds them. -/
def G (c : Dev nD) : S65536x256.Idx → EReal := fun i =>
  mlpAt (fun p j => V c main_arg3 (ix2 p j)) (fun p j => V c main_v45 (ix2 p j)) (fun j k => V c main_v46 (ix2 j k))
    (fun k => V c main_v48 (ix2 (0 : Fin 1) k)) (fun k q => V c main_v47 (ix2 k q)) (fun q => V c main_v49 (ix2 (0 : Fin 1) q))
    (n := 65536) (d := 256) (i 0) (i 1)

/-! ## The blocks the body loads, read off the arrays -/

theorem read_x (c : Dev nD) (t : Fin cfg2.N) (p : Fin 2048) (j : Fin 256) :
    iblk2 V c 0 t (ix2 p j) = V c main_arg3 (ix2 (rowOf t p) j) := by
  show V c main_arg3 (((cfg2.win 0).blk t).view.emb (ix2 p j)) = _
  refine congrArg (V c main_arg3) (funext fun a => Fin.ext ?_)
  obtain ⟨e0, e1, -⟩ := idx_facts t
  match a with
  | ⟨0, _⟩ => show win2_0.index t (0 : Fin 2) * 2048 + 1 * p.val = t.val * 2048 + p.val; omega
  | ⟨1, _⟩ => show win2_0.index t (1 : Fin 2) * 256 + 1 * j.val = j.val; omega

theorem read_a (c : Dev nD) (t : Fin cfg2.N) (p : Fin 2048) (j : Fin 256) :
    iblk2 V c 1 t (ix2 p j) = V c main_v45 (ix2 (rowOf t p) j) := by
  show V c main_v45 (((cfg2.win 1).blk t).view.emb (ix2 p j)) = _
  refine congrArg (V c main_v45) (funext fun a => Fin.ext ?_)
  obtain ⟨-, -, e0, e1, -⟩ := idx_facts t
  match a with
  | ⟨0, _⟩ => show win2_1.index t (0 : Fin 2) * 2048 + 1 * p.val = t.val * 2048 + p.val; omega
  | ⟨1, _⟩ => show win2_1.index t (1 : Fin 2) * 256 + 1 * j.val = j.val; omega

theorem read_w1 (c : Dev nD) (t : Fin cfg2.N) (j k : Fin 256) :
    iblk2 V c 2 t (ix2 j k) = V c main_v46 (ix2 j k) := by
  show V c main_v46 (((cfg2.win 2).blk t).view.emb (ix2 j k)) = _
  refine congrArg (V c main_v46) (funext fun a => Fin.ext ?_)
  obtain ⟨-, -, -, -, e0, e1, -⟩ := idx_facts t
  match a with
  | ⟨0, _⟩ => show win2_2.index t (0 : Fin 2) * 256 + 1 * j.val = j.val; omega
  | ⟨1, _⟩ => show win2_2.index t (1 : Fin 2) * 256 + 1 * k.val = k.val; omega

theorem read_b1 (c : Dev nD) (t : Fin cfg2.N) (k : Fin 256) :
    iblk2 V c 3 t (ix2 (0 : Fin 1) k) = V c main_v48 (ix2 (0 : Fin 1) k) := by
  show V c main_v48 (((cfg2.win 3).blk t).view.emb (ix2 (0 : Fin 1) k)) = _
  refine congrArg (V c main_v48) (funext fun a => Fin.ext ?_)
  obtain ⟨-, -, -, -, -, -, e0, e1, -⟩ := idx_facts t
  match a with
  | ⟨0, _⟩ => show win2_3.index t (0 : Fin 2) * 1 + 1 * 0 = 0; omega
  | ⟨1, _⟩ => show win2_3.index t (1 : Fin 2) * 256 + 1 * k.val = k.val; omega

theorem read_w2 (c : Dev nD) (t : Fin cfg2.N) (k : Fin 256) (q : Fin 256) :
    iblk2 V c 4 t (ix2 k q) = V c main_v47 (ix2 k q) := by
  show V c main_v47 (((cfg2.win 4).blk t).view.emb (ix2 k q)) = _
  refine congrArg (V c main_v47) (funext fun a => Fin.ext ?_)
  obtain ⟨-, -, -, -, -, -, -, -, e0, e1, -⟩ := idx_facts t
  match a with
  | ⟨0, _⟩ => show win2_4.index t (0 : Fin 2) * 256 + 1 * k.val = k.val; omega
  | ⟨1, _⟩ => show win2_4.index t (1 : Fin 2) * 256 + 1 * q.val = q.val; omega

theorem read_b2 (c : Dev nD) (t : Fin cfg2.N) (q : Fin 256) :
    iblk2 V c 5 t (ix2 (0 : Fin 1) q) = V c main_v49 (ix2 (0 : Fin 1) q) := by
  show V c main_v49 (((cfg2.win 5).blk t).view.emb (ix2 (0 : Fin 1) q)) = _
  refine congrArg (V c main_v49) (funext fun a => Fin.ext ?_)
  obtain ⟨-, -, -, -, -, -, -, -, -, -, e0, e1, -⟩ := idx_facts t
  match a with
  | ⟨0, _⟩ => show win2_5.index t (0 : Fin 2) * 1 + 1 * 0 = 0; omega
  | ⟨1, _⟩ => show win2_5.index t (1 : Fin 2) * 256 + 1 * q.val = q.val; omega

/-- Entry (p, q) of the output's block at point t is entry (2048·t + p, q) of the array. -/
theorem emb_out (t : Fin cfg2.N) (p : Fin 2048) (q : Fin 256) :
    ((cfg2.win 6).blk t).view.emb (ix2 p q) = ix2 (rowOf t p) q := by
  funext a; apply Fin.ext
  obtain ⟨-, -, -, -, -, -, -, -, -, -, -, -, e0, e1, -⟩ := idx_facts t
  match a with
  | ⟨0, _⟩ => show win2_6.index t (0 : Fin 2) * 2048 + 1 * p.val = t.val * 2048 + p.val; omega
  | ⟨1, _⟩ => show win2_6.index t (1 : Fin 2) * 256 + 1 * q.val = q.val; omega

/-! ## What a point writes back, the cover, the array -/

/-- What point t writes back is block t of `G`. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S2048x256) hz, View.ld_unit_zero (S := S256x256) hz, View.ld_unit_zero (S := S1x256) hz]
  funext y
  obtain ⟨p, q, rfl⟩ : ∃ (p : Fin 2048) (q : Fin 256), y = ix2 p q := ⟨y 0, y 1, eq_ix2 y⟩
  refine (pay_at (iblk2 V c 0 t) (iblk2 V c 1 t) (iblk2 V c 2 t) (iblk2 V c 3 t) (iblk2 V c 4 t) (iblk2 V c 5 t) p q).trans ?_
  show _ = G V c (((cfg2.win 6).blk t).view.emb (ix2 p q))
  rw [emb_out t p q]
  unfold G
  exact mlpAt_congr (fun j => read_x V c t p j) (fun j => read_a V c t p j) (fun j k => read_w1 V c t j k)
    (fun k => read_b1 V c t k) (fun k => read_w2 V c t k q) (read_b2 V c t q)

/-- An index of the array is in point t's block iff each coordinate is in the block's range on its axis. -/
theorem mem_blk (t : Fin cfg2.N) (i : S65536x256.Idx) :
    i ∈ ((cfg2.win 6).blk t).view.set ↔ ∀ a : Fin 2, win2_6.index t a * S2048x256.size a ≤ (i a).val ∧ (i a).val < win2_6.index t a * S2048x256.size a + S2048x256.size a := by
  show i ∈ ((View.whole main_v50).slice (win2_6.rect t)).set ↔ _
  rw [View.set_slice_whole, Rect.mem_set_unit]
  exact Iff.rfl

/-- Every block of rows is some point's. -/
theorem idx_onto : ∀ b : Fin 32, ∃ t : Fin cfg2.N, win2_6.index t (0 : Fin 2) = b.val ∧ win2_6.index t (1 : Fin 2) = 0 :=
  (by decide +kernel : ∀ b : Fin 32, ∃ t : Fin grid2.N, win2_6.index t (0 : Fin 2) = b.val ∧ win2_6.index t (1 : Fin 2) = 0)

/-- The blocks tile the array: row r is in block r / 2048. -/
theorem cover (i : S65536x256.Idx) : ∃ t : Fin cfg2.N, (cfg2.win 6).flush t = true ∧ i ∈ ((cfg2.win 6).blk t).view.set := by
  have hi0 : (i 0).val < 65536 := (i 0).isLt
  have hi1 : (i 1).val < 256 := (i 1).isLt
  obtain ⟨t, q0, q1⟩ := idx_onto ⟨(i 0).val / 2048, by omega⟩
  have q0' : win2_6.index t (0 : Fin 2) = (i 0).val / 2048 := q0
  refine ⟨t, flush2_6 t, ?_⟩
  rw [mem_blk]
  intro a
  match a with
  | ⟨0, _⟩ => show win2_6.index t (0 : Fin 2) * 2048 ≤ (i 0).val ∧ (i 0).val < win2_6.index t (0 : Fin 2) * 2048 + 2048; omega
  | ⟨1, _⟩ => show win2_6.index t (1 : Fin 2) * 256 ≤ (i 1).val ∧ (i 1).val < win2_6.index t (1 : Fin 2) * 256 + 256; omega

/-- The output array when the region ends: the perceptron of the region's input arrays, entry by entry. -/
theorem final (c : Dev nD) : (dat2 V c).arrAt 6 cfg2.N = G V c :=
  (dat2 V c).arrAt_eq_of_cover 6 (G V c) (fun t _ => flushed_eq V c t) (cover)

end Cert.KernelIdeal.Region2

end
-- ==== Proof.Region0.lean ====
/-
  Region 0 of the kernel program: what its output array holds when the region ends.

  The region runs the perceptron body once per block of 2048 rows: point t of its grid of 64 points loads rows
  2048·t … 2048·t + 2047 of the two row operands, the whole of the two weight matrices and of the two bias rows, and
  writes back block t of the output. An entry (p, q) of the block the body leaves is the perceptron of the loaded
  blocks at (p, q), which reads row 2048·t + p of the row operands; the 64 blocks tile the 131072 rows. So the output
  array ends, entry by entry, at the perceptron of the region's whole input arrays.
-/
import proofs.«140192_j82068235092286_2_alg».proof.Proof.Gen.KernelIdeal.Frame
import proofs.«140192_j82068235092286_2_alg».proof.Proof.MlpSpec

set_option maxRecDepth 16384

noncomputable section

namespace Cert.KernelIdeal.Region0

open Cert.KernelIdeal Cert.KernelIdeal.Gen Cert.Mlp
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry of the block is the perceptron of the loaded blocks at that entry. -/
theorem pay_at (x0 x1 : Vec Ideal S2048x256 .f32) (x2 : Vec Ideal S256x256 .bf16) (x3 : Vec Ideal S1x256 .f32)
    (x4 : Vec Ideal S256x256 .bf16) (x5 : Vec Ideal S1x256 .f32) (p : Fin 2048) (q : Fin 256) :
    k0_pay1 x0 x1 x2 x3 x4 x5 (ix2 p q)
      = mlpAt (fun p j => x0 (ix2 p j)) (fun p j => x1 (ix2 p j)) (fun j k => x2 (ix2 j k)) (fun k => x3 (ix2 (0 : Fin 1) k))
          (fun k q => x4 (ix2 k q)) (fun q => x5 (ix2 (0 : Fin 1) q)) p q := by
  unfold k0_pay1
  simp only [shapeCast_self]
  exact Cert.Mlp.body_apply _ rfl _ rfl x0 x1 x2 x3 x4 x5 _ _ _ p q

/-- The printed index maps over the grid: the row windows and the output move with the point, the weights and the
    bias rows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 ∧ t.val < 64 :=
  (by decide +kernel : ∀ t : Fin grid0.N, _)

/-- Row p of point t's block is row 2048·t + p of the array. -/
def rowOf (t : Fin cfg0.N) (p : Fin 2048) : Fin 131072 :=
  ⟨t.val * 2048 + p.val, by have h := (idx_facts t).2.2.2.2.2.2.2.2.2.2.2.2.2.2; have := p.isLt; omega⟩

/-- The output array as one function of the region's input arrays as it finds them. -/
def G (c : Dev nD) : S131072x256.Idx → EReal := fun i =>
  mlpAt (fun p j => V c main_arg1 (ix2 p j)) (fun p j => V c main_v9 (ix2 p j)) (fun j k => V c main_v10 (ix2 j k))
    (fun k => V c main_v12 (ix2 (0 : Fin 1) k)) (fun k q => V c main_v11 (ix2 k q)) (fun q => V c main_v13 (ix2 (0 : Fin 1) q))
    (n := 131072) (d := 256) (i 0) (i 1)

/-! ## The blocks the body loads, read off the arrays -/

theorem read_x (c : Dev nD) (t : Fin cfg0.N) (p : Fin 2048) (j : Fin 256) :
    iblk0 V c 0 t (ix2 p j) = V c main_arg1 (ix2 (rowOf t p) j) := by
  show V c main_arg1 (((cfg0.win 0).blk t).view.emb (ix2 p j)) = _
  refine congrArg (V c main_arg1) (funext fun a => Fin.ext ?_)
  obtain ⟨e0, e1, -⟩ := idx_facts t
  match a with
  | ⟨0, _⟩ => show win0_0.index t (0 : Fin 2) * 2048 + 1 * p.val = t.val * 2048 + p.val; omega
  | ⟨1, _⟩ => show win0_0.index t (1 : Fin 2) * 256 + 1 * j.val = j.val; omega

theorem read_a (c : Dev nD) (t : Fin cfg0.N) (p : Fin 2048) (j : Fin 256) :
    iblk0 V c 1 t (ix2 p j) = V c main_v9 (ix2 (rowOf t p) j) := by
  show V c main_v9 (((cfg0.win 1).blk t).view.emb (ix2 p j)) = _
  refine congrArg (V c main_v9) (funext fun a => Fin.ext ?_)
  obtain ⟨-, -, e0, e1, -⟩ := idx_facts t
  match a with
  | ⟨0, _⟩ => show win0_1.index t (0 : Fin 2) * 2048 + 1 * p.val = t.val * 2048 + p.val; omega
  | ⟨1, _⟩ => show win0_1.index t (1 : Fin 2) * 256 + 1 * j.val = j.val; omega

theorem read_w1 (c : Dev nD) (t : Fin cfg0.N) (j k : Fin 256) :
    iblk0 V c 2 t (ix2 j k) = V c main_v10 (ix2 j k) := by
  show V c main_v10 (((cfg0.win 2).blk t).view.emb (ix2 j k)) = _
  refine congrArg (V c main_v10) (funext fun a => Fin.ext ?_)
  obtain ⟨-, -, -, -, e0, e1, -⟩ := idx_facts t
  match a with
  | ⟨0, _⟩ => show win0_2.index t (0 : Fin 2) * 256 + 1 * j.val = j.val; omega
  | ⟨1, _⟩ => show win0_2.index t (1 : Fin 2) * 256 + 1 * k.val = k.val; omega

theorem read_b1 (c : Dev nD) (t : Fin cfg0.N) (k : Fin 256) :
    iblk0 V c 3 t (ix2 (0 : Fin 1) k) = V c main_v12 (ix2 (0 : Fin 1) k) := by
  show V c main_v12 (((cfg0.win 3).blk t).view.emb (ix2 (0 : Fin 1) k)) = _
  refine congrArg (V c main_v12) (funext fun a => Fin.ext ?_)
  obtain ⟨-, -, -, -, -, -, e0, e1, -⟩ := idx_facts t
  match a with
  | ⟨0, _⟩ => show win0_3.index t (0 : Fin 2) * 1 + 1 * 0 = 0; omega
  | ⟨1, _⟩ => show win0_3.index t (1 : Fin 2) * 256 + 1 * k.val = k.val; omega

theorem read_w2 (c : Dev nD) (t : Fin cfg0.N) (k : Fin 256) (q : Fin 256) :
    iblk0 V c 4 t (ix2 k q) = V c main_v11 (ix2 k q) := by
  show V c main_v11 (((cfg0.win 4).blk t).view.emb (ix2 k q)) = _
  refine congrArg (V c main_v11) (funext fun a => Fin.ext ?_)
  obtain ⟨-, -, -, -, -, -, -, -, e0, e1, -⟩ := idx_facts t
  match a with
  | ⟨0, _⟩ => show win0_4.index t (0 : Fin 2) * 256 + 1 * k.val = k.val; omega
  | ⟨1, _⟩ => show win0_4.index t (1 : Fin 2) * 256 + 1 * q.val = q.val; omega

theorem read_b2 (c : Dev nD) (t : Fin cfg0.N) (q : Fin 256) :
    iblk0 V c 5 t (ix2 (0 : Fin 1) q) = V c main_v13 (ix2 (0 : Fin 1) q) := by
  show V c main_v13 (((cfg0.win 5).blk t).view.emb (ix2 (0 : Fin 1) q)) = _
  refine congrArg (V c main_v13) (funext fun a => Fin.ext ?_)
  obtain ⟨-, -, -, -, -, -, -, -, -, -, e0, e1, -⟩ := idx_facts t
  match a with
  | ⟨0, _⟩ => show win0_5.index t (0 : Fin 2) * 1 + 1 * 0 = 0; omega
  | ⟨1, _⟩ => show win0_5.index t (1 : Fin 2) * 256 + 1 * q.val = q.val; omega

/-- Entry (p, q) of the output's block at point t is entry (2048·t + p, q) of the array. -/
theorem emb_out (t : Fin cfg0.N) (p : Fin 2048) (q : Fin 256) :
    ((cfg0.win 6).blk t).view.emb (ix2 p q) = ix2 (rowOf t p) q := by
  funext a; apply Fin.ext
  obtain ⟨-, -, -, -, -, -, -, -, -, -, -, -, e0, e1, -⟩ := idx_facts t
  match a with
  | ⟨0, _⟩ => show win0_6.index t (0 : Fin 2) * 2048 + 1 * p.val = t.val * 2048 + p.val; omega
  | ⟨1, _⟩ => show win0_6.index t (1 : Fin 2) * 256 + 1 * q.val = q.val; omega

/-! ## What a point writes back, the cover, the array -/

/-- What point t writes back is block t of `G`. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S2048x256) hz, View.ld_unit_zero (S := S256x256) hz, View.ld_unit_zero (S := S1x256) hz]
  funext y
  obtain ⟨p, q, rfl⟩ : ∃ (p : Fin 2048) (q : Fin 256), y = ix2 p q := ⟨y 0, y 1, eq_ix2 y⟩
  refine (pay_at (iblk0 V c 0 t) (iblk0 V c 1 t) (iblk0 V c 2 t) (iblk0 V c 3 t) (iblk0 V c 4 t) (iblk0 V c 5 t) p q).trans ?_
  show _ = G V c (((cfg0.win 6).blk t).view.emb (ix2 p q))
  rw [emb_out t p q]
  unfold G
  exact mlpAt_congr (fun j => read_x V c t p j) (fun j => read_a V c t p j) (fun j k => read_w1 V c t j k)
    (fun k => read_b1 V c t k) (fun k => read_w2 V c t k q) (read_b2 V c t q)

/-- An index of the array is in point t's block iff each coordinate is in the block's range on its axis. -/
theorem mem_blk (t : Fin cfg0.N) (i : S131072x256.Idx) :
    i ∈ ((cfg0.win 6).blk t).view.set ↔ ∀ a : Fin 2, win0_6.index t a * S2048x256.size a ≤ (i a).val ∧ (i a).val < win0_6.index t a * S2048x256.size a + S2048x256.size a := by
  show i ∈ ((View.whole main_v14).slice (win0_6.rect t)).set ↔ _
  rw [View.set_slice_whole, Rect.mem_set_unit]
  exact Iff.rfl

/-- Every block of rows is some point's. -/
theorem idx_onto : ∀ b : Fin 64, ∃ t : Fin cfg0.N, win0_6.index t (0 : Fin 2) = b.val ∧ win0_6.index t (1 : Fin 2) = 0 :=
  (by decide +kernel : ∀ b : Fin 64, ∃ t : Fin grid0.N, win0_6.index t (0 : Fin 2) = b.val ∧ win0_6.index t (1 : Fin 2) = 0)

/-- The blocks tile the array: row r is in block r / 2048. -/
theorem cover (i : S131072x256.Idx) : ∃ t : Fin cfg0.N, (cfg0.win 6).flush t = true ∧ i ∈ ((cfg0.win 6).blk t).view.set := by
  have hi0 : (i 0).val < 131072 := (i 0).isLt
  have hi1 : (i 1).val < 256 := (i 1).isLt
  obtain ⟨t, q0, q1⟩ := idx_onto ⟨(i 0).val / 2048, by omega⟩
  have q0' : win0_6.index t (0 : Fin 2) = (i 0).val / 2048 := q0
  refine ⟨t, flush0_6 t, ?_⟩
  rw [mem_blk]
  intro a
  match a with
  | ⟨0, _⟩ => show win0_6.index t (0 : Fin 2) * 2048 ≤ (i 0).val ∧ (i 0).val < win0_6.index t (0 : Fin 2) * 2048 + 2048; omega
  | ⟨1, _⟩ => show win0_6.index t (1 : Fin 2) * 256 ≤ (i 1).val ∧ (i 1).val < win0_6.index t (1 : Fin 2) * 256 + 256; omega

/-- The output array when the region ends: the perceptron of the region's input arrays, entry by entry. -/
theorem final (c : Dev nD) : (dat0 V c).arrAt 6 cfg0.N = G V c :=
  (dat0 V c).arrAt_eq_of_cover 6 (G V c) (fun t _ => flushed_eq V c t) (cover)

end Cert.KernelIdeal.Region0

end
-- ==== Proof.Stage1.lean ====
/-
  Stage 1 of the kernel program is stage 1 of the reference.

  Region 0 finds the observation rows as launched, their aggregate (goal rows gathered along the goal→observation edges
  and summed per destination) computed by the host stretch before it with the reference's own operations, the two
  weight matrices after a change of float format (the identity on extended reals) and the two biases reshaped to rows.
  Its output array is the perceptron of these (Region0), and so is the reference's stage 1 (RefStages): the two arrays
  are equal, entry by entry.
-/
import proofs.«140192_j82068235092286_2_alg».proof.Proof.Region0
import proofs.«140192_j82068235092286_2_alg».proof.Proof.ChainBase
import proofs.«140192_j82068235092286_2_alg».proof.Proof.RefStages

set_option maxRecDepth 16384

noncomputable section

namespace Cert.Chain

open Cert.KernelIdeal Cert.KernelIdeal.Gen Cert.KernelIdeal.Hops Cert.Mlp
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-- The destination rows, as launched. -/
theorem e0_x (c : Dev nD) (i : S131072x256.Idx) : W1 m ρ c (Proc.devRef .tc main_arg1) i = A m c main_arg1 i := by
  walk_back
  all_goals rfl

/-- The aggregate the stretch before region 0 computes is the reference's. -/
theorem e0_a (c : Dev nD) (i : S131072x256.Idx) : W1 m ρ c (Proc.devRef .tc main_v9) i = Cert.ReferenceIdeal.Read.val_main_v9 (F := Ideal) (A m c main_arg0) (A m c main_arg5) (A m c main_arg6) i := by
  dsimp only [W1, hostOps0]
  after_results_simp
  walk_back
  all_goals rfl

/-- The first weight matrix: a change of float format, the identity here. -/
theorem e0_w1 (c : Dev nD) (i : S256x256.Idx) : W1 m ρ c (Proc.devRef .tc main_v10) i = A m c main_arg16 i := by
  dsimp only [W1, hostOps0]
  after_results_simp
  walk_back
  all_goals rfl

/-- The second weight matrix. -/
theorem e0_w2 (c : Dev nD) (i : S256x256.Idx) : W1 m ρ c (Proc.devRef .tc main_v11) i = A m c main_arg18 i := by
  dsimp only [W1, hostOps0]
  after_results_simp
  walk_back
  all_goals rfl

/-- The first bias, reshaped to a row. -/
theorem e0_b1 (c : Dev nD) (k : Fin 256) : W1 m ρ c (Proc.devRef .tc main_v12) (ix2 (0 : Fin 1) k) = A m c main_arg17 (ix1 k) := by
  dsimp only [W1, hostOps0]
  after_results_simp
  walk_back
  exact rowCast_apply _ _ k
/-- The second bias, reshaped to a row. -/
theorem e0_b2 (c : Dev nD) (k : Fin 256) : W1 m ρ c (Proc.devRef .tc main_v13) (ix2 (0 : Fin 1) k) = A m c main_arg19 (ix1 k) := by
  dsimp only [W1, hostOps0]
  after_results_simp
  walk_back
  exact rowCast_apply _ _ k

/-- Region 0's output, when the region ends, is the reference's stage 1. -/
theorem stage1 (c : Dev nD) :
    W2 m ρ c (Proc.devRef .tc main_v14) = Cert.ReferenceIdeal.Read.val_main_v19 (F := Ideal) (A m c main_arg0) (A m c main_arg1) (A m c main_arg5) (A m c main_arg6) (A m c main_arg16) (A m c main_arg17) (A m c main_arg18) (A m c main_arg19) := by
  refine ((W2_arr m ρ c 6).trans (Region0.final (V1 m ρ) c)).trans ?_
  funext i
  obtain ⟨p, q, rfl⟩ : ∃ (p : Fin 131072) (q : Fin 256), i = ix2 p q := ⟨i 0, i 1, eq_ix2 i⟩
  refine Eq.trans ?_ (Cert.RefStages.stage1_at (A m c main_arg0) (A m c main_arg1) (A m c main_arg5) (A m c main_arg6) (A m c main_arg16) (A m c main_arg17) (A m c main_arg18) (A m c main_arg19) p q).symm
  unfold Region0.G
  exact mlpAt_congr (fun j => e0_x m ρ c (ix2 p j)) (fun j => e0_a m ρ c (ix2 p j)) (fun j k => e0_w1 m ρ c (ix2 j k))
    (fun k => e0_b1 m ρ c k) (fun k => e0_w2 m ρ c (ix2 k q)) (e0_b2 m ρ c q)

end Cert.Chain

end
-- ==== Proof.Stage3.lean ====
/-
  Stage 3 of the kernel program is stage 3 of the reference.

  The edge-feature stage. Its messages are the rectified sum of stage 1's output rows gathered along the
  observation→task edges, the edge attribute times the edge weight row, and the edge bias; the host computes them over
  three stretches (read here in one pass), from region 0's output array — which is the reference's stage 1 (Stage1) — with the reference's own
  operations. Summed per destination they are the aggregate region 2 finds, beside the task rows as launched and the
  stage's weights and bias rows. Its output array is the perceptron of these, and so is the reference's stage 3.
-/
import proofs.«140192_j82068235092286_2_alg».proof.Proof.Region2
import proofs.«140192_j82068235092286_2_alg».proof.Proof.ChainBase
import proofs.«140192_j82068235092286_2_alg».proof.Proof.RefStages
import proofs.«140192_j82068235092286_2_alg».proof.Proof.Stage1

set_option maxRecDepth 16384

noncomputable section

namespace Cert.Chain

open Cert.KernelIdeal Cert.KernelIdeal.Gen Cert.KernelIdeal.Hops Cert.Mlp
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-- The destination rows, as launched. -/
theorem e2_x (c : Dev nD) (i : S65536x256.Idx) : W7 m ρ c (Proc.devRef .tc main_arg3) i = A m c main_arg3 i := by
  walk_back
  all_goals rfl

/-- The aggregate region 2 finds is the reference's: the messages summed per destination. -/
theorem e2_a (c : Dev nD) (i : S65536x256.Idx) : W7 m ρ c (Proc.devRef .tc main_v45) i = Cert.ReferenceIdeal.Read.val_main_v55 (F := Ideal) (A m c main_arg0) (A m c main_arg1) (A m c main_arg5) (A m c main_arg6) (A m c main_arg9) (A m c main_arg10) (A m c main_arg15) (A m c main_arg16) (A m c main_arg17) (A m c main_arg18) (A m c main_arg19) (A m c main_arg28) (A m c main_arg29) i := by
  dsimp only [W7, hostOps2_2]
  after_results_simp
  walk_back
  rw [stage1 m ρ c]
  rfl
/-- The first weight matrix. -/
theorem e2_w1 (c : Dev nD) (i : S256x256.Idx) : W7 m ρ c (Proc.devRef .tc main_v46) i = A m c main_arg24 i := by
  dsimp only [W7, hostOps2_2]
  after_results_simp
  walk_back
  all_goals rfl

/-- The second weight matrix. -/
theorem e2_w2 (c : Dev nD) (i : S256x256.Idx) : W7 m ρ c (Proc.devRef .tc main_v47) i = A m c main_arg26 i := by
  dsimp only [W7, hostOps2_2]
  after_results_simp
  walk_back
  all_goals rfl

/-- The first bias, reshaped to a row. -/
theorem e2_b1 (c : Dev nD) (k : Fin 256) : W7 m ρ c (Proc.devRef .tc main_v48) (ix2 (0 : Fin 1) k) = A m c main_arg25 (ix1 k) := by
  dsimp only [W7, hostOps2_2]
  after_results_simp
  walk_back
  exact rowCast_apply _ _ k

/-- The second bias, reshaped to a row. -/
theorem e2_b2 (c : Dev nD) (k : Fin 256) : W7 m ρ c (Proc.devRef .tc main_v49) (ix2 (0 : Fin 1) k) = A m c main_arg27 (ix1 k) := by
  dsimp only [W7, hostOps2_2]
  after_results_simp
  walk_back
  exact rowCast_apply _ _ k

/-- Region 2's output, when the region ends, is the reference's stage 3. -/
theorem stage3 (c : Dev nD) :
    W8 m ρ c (Proc.devRef .tc main_v50) = Cert.ReferenceIdeal.Read.val_main_v65 (F := Ideal) (A m c main_arg0) (A m c main_arg1) (A m c main_arg3) (A m c main_arg5) (A m c main_arg6) (A m c main_arg9) (A m c main_arg10) (A m c main_arg15) (A m c main_arg16) (A m c main_arg17) (A m c main_arg18) (A m c main_arg19) (A m c main_arg24) (A m c main_arg25) (A m c main_arg26) (A m c main_arg27) (A m c main_arg28) (A m c main_arg29) := by
  refine ((W8_arr m ρ c 6).trans (Region2.final (V7 m ρ) c)).trans ?_
  funext i
  obtain ⟨p, q, rfl⟩ : ∃ (p : Fin 65536) (q : Fin 256), i = ix2 p q := ⟨i 0, i 1, eq_ix2 i⟩
  refine Eq.trans ?_ (Cert.RefStages.stage3_at (A m c main_arg0) (A m c main_arg1) (A m c main_arg3) (A m c main_arg5) (A m c main_arg6) (A m c main_arg9) (A m c main_arg10) (A m c main_arg15) (A m c main_arg16) (A m c main_arg17) (A m c main_arg18) (A m c main_arg19) (A m c main_arg24) (A m c main_arg25) (A m c main_arg26) (A m c main_arg27) (A m c main_arg28) (A m c main_arg29) p q).symm
  unfold Region2.G
  exact mlpAt_congr (fun j => e2_x m ρ c (ix2 p j)) (fun j => e2_a m ρ c (ix2 p j)) (fun j k => e2_w1 m ρ c (ix2 j k))
    (fun k => e2_b1 m ρ c k) (fun k => e2_w2 m ρ c (ix2 k q)) (e2_b2 m ρ c q)

end Cert.Chain

end
-- ==== Proof.Stage4.lean ====
/-
  Stage 4 of the kernel program is stage 4 of the reference.

  Region 3's destination rows are region 2's output array, the reference's stage 3 (Stage3); its aggregate gathers
  region 1's output rows, the reference's stage 2 (Stage2), along the virtual→task edges and sums them per destination
  with the reference's own operations. With the stage's weights and bias rows, its output array is the perceptron of
  these, and so is the reference's stage 4.
-/
import proofs.«140192_j82068235092286_2_alg».proof.Proof.Region3
import proofs.«140192_j82068235092286_2_alg».proof.Proof.ChainBase
import proofs.«140192_j82068235092286_2_alg».proof.Proof.RefStages
import proofs.«140192_j82068235092286_2_alg».proof.Proof.Stage2
import proofs.«140192_j82068235092286_2_alg».proof.Proof.Stage3

set_option maxRecDepth 16384

noncomputable section

namespace Cert.Chain

open Cert.KernelIdeal Cert.KernelIdeal.Gen Cert.KernelIdeal.Hops Cert.Mlp
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-- The destination rows: region 2's output, the reference's stage 3. -/
theorem e3_x (c : Dev nD) (i : S65536x256.Idx) : W9 m ρ c (Proc.devRef .tc main_v50) i = Cert.ReferenceIdeal.Read.val_main_v65 (F := Ideal) (A m c main_arg0) (A m c main_arg1) (A m c main_arg3) (A m c main_arg5) (A m c main_arg6) (A m c main_arg9) (A m c main_arg10) (A m c main_arg15) (A m c main_arg16) (A m c main_arg17) (A m c main_arg18) (A m c main_arg19) (A m c main_arg24) (A m c main_arg25) (A m c main_arg26) (A m c main_arg27) (A m c main_arg28) (A m c main_arg29) i := by
  walk_back
  rw [stage3 m ρ c]
/-- The aggregate region 3 finds is the reference's: stage-2 rows gathered and summed per destination. -/
theorem e3_a (c : Dev nD) (i : S65536x256.Idx) : W9 m ρ c (Proc.devRef .tc main_v60) i = Cert.ReferenceIdeal.Read.val_main_v75 (F := Ideal) (A m c main_arg0) (A m c main_arg2) (A m c main_arg7) (A m c main_arg8) (A m c main_arg11) (A m c main_arg12) (A m c main_arg20) (A m c main_arg21) (A m c main_arg22) (A m c main_arg23) i := by
  dsimp only [W9, hostOps3]
  after_results_simp
  walk_back
  rw [stage2 m ρ c]
  rfl
/-- The first weight matrix. -/
theorem e3_w1 (c : Dev nD) (i : S256x256.Idx) : W9 m ρ c (Proc.devRef .tc main_v61) i = A m c main_arg30 i := by
  dsimp only [W9, hostOps3]
  after_results_simp
  walk_back
  all_goals rfl

/-- The second weight matrix. -/
theorem e3_w2 (c : Dev nD) (i : S256x256.Idx) : W9 m ρ c (Proc.devRef .tc main_v62) i = A m c main_arg32 i := by
  dsimp only [W9, hostOps3]
  after_results_simp
  walk_back
  all_goals rfl

/-- The first bias, reshaped to a row. -/
theorem e3_b1 (c : Dev nD) (k : Fin 256) : W9 m ρ c (Proc.devRef .tc main_v63) (ix2 (0 : Fin 1) k) = A m c main_arg31 (ix1 k) := by
  dsimp only [W9, hostOps3]
  after_results_simp
  walk_back
  exact rowCast_apply _ _ k

/-- The second bias, reshaped to a row. -/
theorem e3_b2 (c : Dev nD) (k : Fin 256) : W9 m ρ c (Proc.devRef .tc main_v64) (ix2 (0 : Fin 1) k) = A m c main_arg33 (ix1 k) := by
  dsimp only [W9, hostOps3]
  after_results_simp
  walk_back
  exact rowCast_apply _ _ k

/-- Region 3's output, when the region ends, is the reference's stage 4. -/
theorem stage4 (c : Dev nD) :
    W10 m ρ c (Proc.devRef .tc main_v65) = Cert.ReferenceIdeal.Read.val_main_v85 (F := Ideal) (A m c main_arg0) (A m c main_arg1) (A m c main_arg2) (A m c main_arg3) (A m c main_arg5) (A m c main_arg6) (A m c main_arg7) (A m c main_arg8) (A m c main_arg9) (A m c main_arg10) (A m c main_arg11) (A m c main_arg12) (A m c main_arg15) (A m c main_arg16) (A m c main_arg17) (A m c main_arg18) (A m c main_arg19) (A m c main_arg20) (A m c main_arg21) (A m c main_arg22) (A m c main_arg23) (A m c main_arg24) (A m c main_arg25) (A m c main_arg26) (A m c main_arg27) (A m c main_arg28) (A m c main_arg29) (A m c main_arg30) (A m c main_arg31) (A m c main_arg32) (A m c main_arg33) := by
  refine ((W10_arr m ρ c 6).trans (Region3.final (V9 m ρ) c)).trans ?_
  funext i
  obtain ⟨p, q, rfl⟩ : ∃ (p : Fin 65536) (q : Fin 256), i = ix2 p q := ⟨i 0, i 1, eq_ix2 i⟩
  refine Eq.trans ?_ (Cert.RefStages.stage4_at (A m c main_arg0) (A m c main_arg1) (A m c main_arg2) (A m c main_arg3) (A m c main_arg5) (A m c main_arg6) (A m c main_arg7) (A m c main_arg8) (A m c main_arg9) (A m c main_arg10) (A m c main_arg11) (A m c main_arg12) (A m c main_arg15) (A m c main_arg16) (A m c main_arg17) (A m c main_arg18) (A m c main_arg19) (A m c main_arg20) (A m c main_arg21) (A m c main_arg22) (A m c main_arg23) (A m c main_arg24) (A m c main_arg25) (A m c main_arg26) (A m c main_arg27) (A m c main_arg28) (A m c main_arg29) (A m c main_arg30) (A m c main_arg31) (A m c main_arg32) (A m c main_arg33) p q).symm
  unfold Region3.G
  exact mlpAt_congr (fun j => e3_x m ρ c (ix2 p j)) (fun j => e3_a m ρ c (ix2 p j)) (fun j k => e3_w1 m ρ c (ix2 j k))
    (fun k => e3_b1 m ρ c k) (fun k => e3_w2 m ρ c (ix2 k q)) (e3_b2 m ρ c q)

end Cert.Chain

end
-- ==== Proof.Stage5.lean ====
/-
  Stage 5 of the kernel program is stage 5 of the reference, and the program's result is the reference's.

  Region 4 finds the actor rows as launched; its aggregate gathers region 3's output rows, the reference's stage 4
  (Stage4), along the task→actor edges and sums them per destination with the reference's own operations. The second
  layer has one output column. Its output array is the perceptron of these, and so is the reference's stage 5; the one
  host operation left, a reshape of the [65536, 1] column to [4096, 16], is the reference's last operation.
-/
import proofs.«140192_j82068235092286_2_alg».proof.Proof.Region4
import proofs.«140192_j82068235092286_2_alg».proof.Proof.ChainBase
import proofs.«140192_j82068235092286_2_alg».proof.Proof.RefStages
import proofs.«140192_j82068235092286_2_alg».proof.Proof.Stage4

set_option maxRecDepth 16384

noncomputable section

namespace Cert.Chain

open Cert.KernelIdeal Cert.KernelIdeal.Gen Cert.KernelIdeal.Hops Cert.Mlp
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-- The destination rows, as launched. -/
theorem e4_x (c : Dev nD) (i : S65536x256.Idx) : W11 m ρ c (Proc.devRef .tc main_arg4) i = A m c main_arg4 i := by
  walk_back
  all_goals rfl

/-- The aggregate region 4 finds is the reference's: stage-4 rows gathered and summed per destination. -/
theorem e4_a (c : Dev nD) (i : S65536x256.Idx) : W11 m ρ c (Proc.devRef .tc main_v75) i = Cert.ReferenceIdeal.Read.val_main_v95 (F := Ideal) (A m c main_arg0) (A m c main_arg1) (A m c main_arg2) (A m c main_arg3) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) (A m c main_arg18) (A m c main_arg19) (A m c main_arg20) (A m c main_arg21) (A m c main_arg22) (A m c main_arg23) (A m c main_arg24) (A m c main_arg25) (A m c main_arg26) (A m c main_arg27) (A m c main_arg28) (A m c main_arg29) (A m c main_arg30) (A m c main_arg31) (A m c main_arg32) (A m c main_arg33) i := by
  dsimp only [W11, hostOps4]
  after_results_simp
  walk_back
  rw [stage4 m ρ c]
  rfl
/-- The first weight matrix. -/
theorem e4_w1 (c : Dev nD) (i : S256x256.Idx) : W11 m ρ c (Proc.devRef .tc main_v76) i = A m c main_arg34 i := by
  dsimp only [W11, hostOps4]
  after_results_simp
  walk_back
  all_goals rfl

/-- The second weight matrix, one column. -/
theorem e4_w2 (c : Dev nD) (i : S256x1.Idx) : W11 m ρ c (Proc.devRef .tc main_v77) i = A m c main_arg36 i := by
  dsimp only [W11, hostOps4]
  after_results_simp
  walk_back
  all_goals rfl

/-- The first bias, reshaped to a row. -/
theorem e4_b1 (c : Dev nD) (k : Fin 256) : W11 m ρ c (Proc.devRef .tc main_v78) (ix2 (0 : Fin 1) k) = A m c main_arg35 (ix1 k) := by
  dsimp only [W11, hostOps4]
  after_results_simp
  walk_back
  exact rowCast_apply _ _ k

/-- The second bias, one entry, reshaped to a row. -/
theorem e4_b2 (c : Dev nD) (k : Fin 1) : W11 m ρ c (Proc.devRef .tc main_v79) (ix2 (0 : Fin 1) k) = A m c main_arg37 (ix1 k) := by
  dsimp only [W11, hostOps4]
  after_results_simp
  walk_back
  exact rowCast_apply _ _ k

/-- Region 4's output, when the region ends, is the reference's stage 5. -/
theorem stage5 (c : Dev nD) :
    W12 m ρ c (Proc.devRef .tc main_v80) = Cert.ReferenceIdeal.Read.val_main_v105 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) (A m c main_arg18) (A m c main_arg19) (A m c main_arg20) (A m c main_arg21) (A m c main_arg22) (A m c main_arg23) (A m c main_arg24) (A m c main_arg25) (A m c main_arg26) (A m c main_arg27) (A m c main_arg28) (A m c main_arg29) (A m c main_arg30) (A m c main_arg31) (A m c main_arg32) (A m c main_arg33) (A m c main_arg34) (A m c main_arg35) (A m c main_arg36) (A m c main_arg37) := by
  refine ((W12_arr m ρ c 6).trans (Region4.final (V11 m ρ) c)).trans ?_
  funext i
  obtain ⟨p, q, rfl⟩ : ∃ (p : Fin 65536) (q : Fin 1), i = ix2 p q := ⟨i 0, i 1, eq_ix2 i⟩
  refine Eq.trans ?_ (Cert.RefStages.stage5_at (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) (A m c main_arg18) (A m c main_arg19) (A m c main_arg20) (A m c main_arg21) (A m c main_arg22) (A m c main_arg23) (A m c main_arg24) (A m c main_arg25) (A m c main_arg26) (A m c main_arg27) (A m c main_arg28) (A m c main_arg29) (A m c main_arg30) (A m c main_arg31) (A m c main_arg32) (A m c main_arg33) (A m c main_arg34) (A m c main_arg35) (A m c main_arg36) (A m c main_arg37) p q).symm
  unfold Region4.G
  exact mlpAt_congr (fun j => e4_x m ρ c (ix2 p j)) (fun j => e4_a m ρ c (ix2 p j)) (fun j k => e4_w1 m ρ c (ix2 j k))
    (fun k => e4_b1 m ρ c k) (fun k => e4_w2 m ρ c (ix2 k q)) (e4_b2 m ρ c q)

/-- The program's result buffer, after the last host stretch, holds the reference's result term of the launch contents. -/
theorem result (c : Dev nD) :
    W13 m ρ c (Proc.devRef .tc main_v81) = Cert.ReferenceIdeal.Read.val_main_v106 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) (A m c main_arg18) (A m c main_arg19) (A m c main_arg20) (A m c main_arg21) (A m c main_arg22) (A m c main_arg23) (A m c main_arg24) (A m c main_arg25) (A m c main_arg26) (A m c main_arg27) (A m c main_arg28) (A m c main_arg29) (A m c main_arg30) (A m c main_arg31) (A m c main_arg32) (A m c main_arg33) (A m c main_arg34) (A m c main_arg35) (A m c main_arg36) (A m c main_arg37) := by
  dsimp only [W13, hostOps5]
  after_results_simp
  rw [stage5 m ρ c]
  rfl

end Cert.Chain

end
-- ==== Proof.lean ====
/-
  The certificate of a five-stage message-passing network: a kernel program against its plain reference.

  Both programs compute, stage by stage, a two-layer perceptron of destination rows plus an aggregate of gathered source
  rows. The kernel program runs each perceptron as a tiled kernel region (weights changed to a shorter float format on
  the way in, which is the identity on extended reals) and leaves the gathers and the per-destination sums to host
  operations, the same ones the reference uses; the reference computes the perceptrons with host matrix products. Read
  over the extended reals the two results are one function of the inputs:
    * each region's output array is the perceptron of the region's input arrays, entry by entry (Region0 … Region4 over
      MlpSpec's kernel-body form), and each reference stage is the same perceptron (RefStages over the host form);
    * the aggregates are the same operations applied to equal arrays, so they are carried, never opened
      (Stage1 … Stage5);
    * the kernel program's run is read with its whole final memory (RunAll), the reference's is its generated run.
  No law of arithmetic beyond the two spellings of one sum is used, so the precondition is never opened. The three
  frames are the generated ones; the idealization rewrote nothing, so there is nothing to preserve.
-/
import proofs.«140192_j82068235092286_2_alg».proof.Defs
import proofs.«140192_j82068235092286_2_alg».proof.Proof.Gen.Kernel
import proofs.«140192_j82068235092286_2_alg».proof.Proof.Gen.Kernel.Frame
import proofs.«140192_j82068235092286_2_alg».proof.Proof.Gen.KernelIdeal
import proofs.«140192_j82068235092286_2_alg».proof.Proof.Gen.KernelIdeal.Frame
import proofs.«140192_j82068235092286_2_alg».proof.Proof.Gen.ReferenceIdeal
import proofs.«140192_j82068235092286_2_alg».proof.Proof.Gen.Pre_finite_inputs
import proofs.«140192_j82068235092286_2_alg».proof.Proof.Gen.ReferenceIdeal.Run
import proofs.«140192_j82068235092286_2_alg».proof.Proof.Gen.ReferenceIdeal.Read
import proofs.«140192_j82068235092286_2_alg».proof.Proof.RunAll
import proofs.«140192_j82068235092286_2_alg».proof.Proof.Stage5
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

section
open Cert.KernelIdeal Cert.KernelIdeal.Gen Cert.Chain

set_option maxHeartbeats 4000000 in
/-- Both programs end with the reference's result term of the (agreeing) launch contents. -/
theorem algebraic : Cert.algebraic_KernelIdeal_ReferenceIdeal := by
  intro m ρ m' ρ' _ hagree
  refine ⟨fun c => Cert.ReferenceIdeal.Read.val_main_v106 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) (A m c main_arg18) (A m c main_arg19) (A m c main_arg20) (A m c main_arg21) (A m c main_arg22) (A m c main_arg23) (A m c main_arg24) (A m c main_arg25) (A m c main_arg26) (A m c main_arg27) (A m c main_arg28) (A m c main_arg29) (A m c main_arg30) (A m c main_arg31) (A m c main_arg32) (A m c main_arg33) (A m c main_arg34) (A m c main_arg35) (A m c main_arg36) (A m c main_arg37), ?_, ?_⟩
  · refine (θ_run Cert.KernelIdeal.defs _ _).mono (fun r h c => ?_) (Cert.KernelIdeal.RunAll.run_all m ρ)
    exact ⟨(h c _ (mem_uc main_v81 (by decide))).trans (Cert.Chain.result m ρ c),
      (h c _ (mem_uc main_arg0 (by decide))).trans (W13_main_arg0 m ρ c),
      (h c _ (mem_uc main_arg1 (by decide))).trans (W13_main_arg1 m ρ c),
      (h c _ (mem_uc main_arg2 (by decide))).trans (W13_main_arg2 m ρ c),
      (h c _ (mem_uc main_arg3 (by decide))).trans (W13_main_arg3 m ρ c),
      (h c _ (mem_uc main_arg4 (by decide))).trans (W13_main_arg4 m ρ c),
      (h c _ (mem_uc main_arg5 (by decide))).trans (W13_main_arg5 m ρ c),
      (h c _ (mem_uc main_arg6 (by decide))).trans (W13_main_arg6 m ρ c),
      (h c _ (mem_uc main_arg7 (by decide))).trans (W13_main_arg7 m ρ c),
      (h c _ (mem_uc main_arg8 (by decide))).trans (W13_main_arg8 m ρ c),
      (h c _ (mem_uc main_arg9 (by decide))).trans (W13_main_arg9 m ρ c),
      (h c _ (mem_uc main_arg10 (by decide))).trans (W13_main_arg10 m ρ c),
      (h c _ (mem_uc main_arg11 (by decide))).trans (W13_main_arg11 m ρ c),
      (h c _ (mem_uc main_arg12 (by decide))).trans (W13_main_arg12 m ρ c),
      (h c _ (mem_uc main_arg13 (by decide))).trans (W13_main_arg13 m ρ c),
      (h c _ (mem_uc main_arg14 (by decide))).trans (W13_main_arg14 m ρ c),
      (h c _ (mem_uc main_arg15 (by decide))).trans (W13_main_arg15 m ρ c),
      (h c _ (mem_uc main_arg16 (by decide))).trans (W13_main_arg16 m ρ c),
      (h c _ (mem_uc main_arg17 (by decide))).trans (W13_main_arg17 m ρ c),
      (h c _ (mem_uc main_arg18 (by decide))).trans (W13_main_arg18 m ρ c),
      (h c _ (mem_uc main_arg19 (by decide))).trans (W13_main_arg19 m ρ c),
      (h c _ (mem_uc main_arg20 (by decide))).trans (W13_main_arg20 m ρ c),
      (h c _ (mem_uc main_arg21 (by decide))).trans (W13_main_arg21 m ρ c),
      (h c _ (mem_uc main_arg22 (by decide))).trans (W13_main_arg22 m ρ c),
      (h c _ (mem_uc main_arg23 (by decide))).trans (W13_main_arg23 m ρ c),
      (h c _ (mem_uc main_arg24 (by decide))).trans (W13_main_arg24 m ρ c),
      (h c _ (mem_uc main_arg25 (by decide))).trans (W13_main_arg25 m ρ c),
      (h c _ (mem_uc main_arg26 (by decide))).trans (W13_main_arg26 m ρ c),
      (h c _ (mem_uc main_arg27 (by decide))).trans (W13_main_arg27 m ρ c),
      (h c _ (mem_uc main_arg28 (by decide))).trans (W13_main_arg28 m ρ c),
      (h c _ (mem_uc main_arg29 (by decide))).trans (W13_main_arg29 m ρ c),
      (h c _ (mem_uc main_arg30 (by decide))).trans (W13_main_arg30 m ρ c),
      (h c _ (mem_uc main_arg31 (by decide))).trans (W13_main_arg31 m ρ c),
      (h c _ (mem_uc main_arg32 (by decide))).trans (W13_main_arg32 m ρ c),
      (h c _ (mem_uc main_arg33 (by decide))).trans (W13_main_arg33 m ρ c),
      (h c _ (mem_uc main_arg34 (by decide))).trans (W13_main_arg34 m ρ c),
      (h c _ (mem_uc main_arg35 (by decide))).trans (W13_main_arg35 m ρ c),
      (h c _ (mem_uc main_arg36 (by decide))).trans (W13_main_arg36 m ρ c),
      (h c _ (mem_uc main_arg37 (by decide))).trans (W13_main_arg37 m ρ c)⟩
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v106_eq m' c).trans ?_
    obtain ⟨h0, h1, h2, h3, h4, h5, h6, h7, h8, h9, h10, h11, h12, h13, h14, h15, h16, h17, h18, h19, h20, h21, h22, h23, h24, h25, h26, h27, h28, h29, h30, h31, h32, h33, h34, h35, h36, h37⟩ := hagree c
    rw [h0, h1, h2, h3, h4, h5, h6, h7, h8, h9, h10, h11, h12, h13, h14, h15, h16, h17, h18, h19, h20, h21, h22, h23, h24, h25, h26, h27, h28, h29, h30, h31, h32, h33, h34, h35, h36, h37]
end

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
